-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v129)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v129) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v168) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S150000x64 : Shape := ⟨2, ![150000, 64]⟩
abbrev S64x64 : Shape := ⟨2, ![64, 64]⟩
abbrev S64 : Shape := ⟨1, ![64]⟩
abbrev S64x1 : Shape := ⟨2, ![64, 1]⟩
abbrev S2x4000000 : Shape := ⟨2, ![2, 4000000]⟩
abbrev S65536 : Shape := ⟨1, ![65536]⟩
abbrev S_ : Shape := ⟨0, ![]⟩

class Facts : Prop where
  bcast_S_S150000x64 : S_.BroadcastsInDim S150000x64 (![] : Fin 0 → Fin S150000x64.rank)
  reducesTo_S150000x64_S_d0_1 : S150000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S65536 : S_.BroadcastsInDim S65536 (![] : Fin 0 → Fin S65536.rank)
  reducesTo_S65536_S_d0 : S65536.ReducesTo [0] S_

variable [Facts]

def fn_part2 {F : FTy → Type} [FloatOps F] (main_arg7 : FVec F S64 .f32) (main_arg8 : FVec F S64x1 .f32) (main_arg13 : FVec F S65536 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x1 .f32 := Host.absf main_arg8
  let main_cst_14 : FVec F S_ .f32 := constant S_ .f32 0x7F800000#32
  let main_v40 : FVec F S64x1 .f32 := broadcastInDim S64x1 ![] bcast_S_S64x1 main_cst_14
  let main_v41 : IVec S64x1 1 := cmpf .olt main_v39 main_v40
  let main_c_15 : IVec S_ 1 := constantI S_ 1 1#1
  let main_v42 : IVec S_ 1 := (fun x v => Host.reduce IntOp.andi x v reducesTo_S64x1_S_d0_1 h_S_) main_v41 main_c_15
  let main_v43 : IVec S_ 1 := andi main_v38 main_v42
  let main_v44 : FVec F S65536 .f32 := Host.absf main_arg13
  let main_cst_16 : FVec F S_ .f32 := constant S_ .f32 0x7F800000#32
  let main_v45 : FVec F S65536 .f32 := broadcastInDim S65536 ![] bcast_S_S65536 main_cst_16
  let main_v46 : IVec S65536 1 := cmpf .olt main_v44 main_v45
  let main_c_17 : IVec S_ 1 := constantI S_ 1 1#1
  let main_v47 : IVec S_ 1 := (fun x v => Host.reduce IntOp.andi x v reducesTo_S65536_S_d0 h_S_) main_v46 main_c_17
  let main_v48 : IVec S_ 1 := andi main_v43 main_v47
  main_v48

def fn_part1 {F : FTy → Type} [FloatOps F] (main_arg4 : FVec F S64x64 .f32) (main_arg5 : FVec F S64 .f32) (main_arg6 : FVec F S64x64 .f32) (main_arg7 : FVec F S64 .f32) (main_arg8 : FVec F S64x1 .f32) (main_arg13 : FVec F S65536 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg6
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg7 main_arg8 main_arg13 main_v33

def fn {F : FTy → Type} [FloatOps F] (main_arg0 : FVec F S150000x64 .f32) (main_arg1 : FVec F S150000x64 .f32) (main_arg2 : FVec F S64x64 .f32) (main_arg3 : FVec F S64 .f32) (main_arg4 : FVec F S64x64 .f32) (main_arg5 : FVec F S64 .f32) (main_arg6 : FVec F S64x64 .f32) (main_arg7 : FVec F S64 .f32) (main_arg8 : FVec F S64x1 .f32) (main_arg9 : IVec S2x4000000 32) (main_arg10 : IVec S65536 32) (main_arg11 : IVec S65536 32) (main_arg12 : IVec S65536 32) (main_arg13 : FVec F S65536 .f32) : IVec S_ 1 :=
  let main_v0 : FVec F S150000x64 .f32 := Host.absf main_arg0
  let main_cst : FVec F S_ .f32 := constant S_ .f32 0x7F800000#32
  let main_v1 : FVec F S150000x64 .f32 := broadcastInDim S150000x64 ![] bcast_S_S150000x64 main_cst
  let main_v2 : IVec S150000x64 1 := cmpf .olt main_v0 main_v1
  let main_c : IVec S_ 1 := constantI S_ 1 1#1
  let main_v3 : IVec S_ 1 := (fun x v => Host.reduce IntOp.andi x v reducesTo_S150000x64_S_d0_1 h_S_) main_v2 main_c
  let main_v4 : FVec F S150000x64 .f32 := Host.absf main_arg1
  let main_cst_0 : FVec F S_ .f32 := constant S_ .f32 0x7F800000#32
  let main_v5 : FVec F S150000x64 .f32 := broadcastInDim S150000x64 ![] bcast_S_S150000x64 main_cst_0
  let main_v6 : IVec S150000x64 1 := cmpf .olt main_v4 main_v5
  let main_c_1 : IVec S_ 1 := constantI S_ 1 1#1
  let main_v7 : IVec S_ 1 := (fun x v => Host.reduce IntOp.andi x v reducesTo_S150000x64_S_d0_1 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_arg7 main_arg8 main_arg13 main_v13 main_v16
-- ==== Kernel.lean ====
abbrev S150000x64 : Shape := ⟨2, ![150000, 64]⟩
abbrev S64x64 : Shape := ⟨2, ![64, 64]⟩
abbrev S64 : Shape := ⟨1, ![64]⟩
abbrev S64x1 : Shape := ⟨2, ![64, 1]⟩
abbrev S2x4000000 : Shape := ⟨2, ![2, 4000000]⟩
abbrev S65536 : Shape := ⟨1, ![65536]⟩
abbrev S1x4000000 : Shape := ⟨2, ![1, 4000000]⟩
abbrev S4000000 : Shape := ⟨1, ![4000000]⟩
abbrev S_ : Shape := ⟨0, ![]⟩
abbrev S150000 : Shape := ⟨1, ![150000]⟩
abbrev S4000000x1 : Shape := ⟨2, ![4000000, 1]⟩
abbrev S4000000x64 : Shape := ⟨2, ![4000000, 64]⟩
abbrev S5000x64 : Shape := ⟨2, ![5000, 64]⟩
abbrev S1x64 : Shape := ⟨2, ![1, 64]⟩
abbrev S5000 : Shape := ⟨1, ![5000]⟩
abbrev S5000x1 : Shape := ⟨2, ![5000, 1]⟩
abbrev S100000x64 : Shape := ⟨2, ![100000, 64]⟩
abbrev S50000x64 : Shape := ⟨2, ![50000, 64]⟩
abbrev S65536x1 : Shape := ⟨2, ![65536, 1]⟩
abbrev S65536x64 : Shape := ⟨2, ![65536, 64]⟩

abbrev nBuf : Space → Nat
  | .hbm => 187
  | .vmem => 13
  | .smem => 0
  | _ => 0

abbrev hbmTy0_0 (i : Nat) : BufTy := match i % 128 with
  | 0 => ⟨S150000x64, .f32⟩
  | 1 => ⟨S150000x64, .f32⟩
  | 2 => ⟨S64x64, .f32⟩
  | 3 => ⟨S64, .f32⟩
  | 4 => ⟨S64x64, .f32⟩
  | 5 => ⟨S64, .f32⟩
  | 6 => ⟨S64x64, .f32⟩
  | 7 => ⟨S64, .f32⟩
  | 8 => ⟨S64x1, .f32⟩
  | 9 => ⟨S2x4000000, .i32⟩
  | 10 => ⟨S65536, .i32⟩
  | 11 => ⟨S65536, .i32⟩
  | 12 => ⟨S65536, .i32⟩
  | 13 => ⟨S65536, .f32⟩
  | 14 => ⟨S1x4000000, .i32⟩
  | 15 => ⟨S4000000, .i32⟩
  | 16 => ⟨S1x4000000, .i32⟩
  | 17 => ⟨S4000000, .i32⟩
  | 18 => ⟨S_, .f32⟩
  | 19 => ⟨S4000000, .f32⟩
  | 20 => ⟨S_, .f32⟩
  | 21 => ⟨S150000, .f32⟩
  | 22 => ⟨S4000000x1, .i32⟩
  | 23 => ⟨S150000, .f32⟩
  | 24 => ⟨S_, .f32⟩
  | 25 => ⟨S150000, .f32⟩
  | 26 => ⟨S150000, .i1⟩
  | 27 => ⟨S150000, .f32⟩
  | 28 => ⟨S_, .f32⟩
  | 29 => ⟨S_, .f32⟩
  | 30 => ⟨S150000, .f32⟩
  | 31 => ⟨S150000, .f32⟩
  | 32 => ⟨S_, .i32⟩
  | 33 => ⟨S4000000, .i32⟩
  | 34 => ⟨S4000000, .i1⟩
  | 35 => ⟨S_, .i32⟩
  | 36 => ⟨S4000000, .i32⟩
  | 37 => ⟨S4000000, .i32⟩
  | 38 => ⟨S4000000, .i32⟩
  | 39 => ⟨S4000000x1, .i32⟩
  | 40 => ⟨S4000000, .f32⟩
  | 41 => ⟨S_, .i32⟩
  | 42 => ⟨S4000000, .i32⟩
  | 43 => ⟨S4000000, .i1⟩
  | 44 => ⟨S_, .i32⟩
  | 45 => ⟨S4000000, .i32⟩
  | 46 => ⟨S4000000, .i32⟩
  | 47 => ⟨S4000000, .i32⟩
  | 48 => ⟨S4000000x1, .i32⟩
  | 49 => ⟨S4000000, .f32⟩
  | 50 => ⟨S4000000, .f32⟩
  | 51 => ⟨S4000000x1, .f32⟩
  | 52 => ⟨S_, .i32⟩
  | 53 => ⟨S4000000, .i32⟩
  | 54 => ⟨S4000000, .i1⟩
  | 55 => ⟨S_, .i32⟩
  | 56 => ⟨S4000000, .i32⟩
  | 57 => ⟨S4000000, .i32⟩
  | 58 => ⟨S4000000, .i32⟩
  | 59 => ⟨S4000000x1, .i32⟩
  | 60 => ⟨S4000000x64, .f32⟩
  | 61 => ⟨S4000000x64, .f32⟩
  | 62 => ⟨S4000000x64, .f32⟩
  | 63 => ⟨S_, .f32⟩
  | 64 => ⟨S150000x64, .f32⟩
  | 65 => ⟨S4000000x1, .i32⟩
  | 66 => ⟨S150000x64, .f32⟩
  | 67 => ⟨S150000x64, .f32⟩
  | 68 => ⟨S4000000x1, .f32⟩
  | 69 => ⟨S_, .i32⟩
  | 70 => ⟨S4000000, .i32⟩
  | 71 => ⟨S4000000, .i1⟩
  | 72 => ⟨S_, .i32⟩
  | 73 => ⟨S4000000, .i32⟩
  | 74 => ⟨S4000000, .i32⟩
  | 75 => ⟨S4000000, .i32⟩
  | 76 => ⟨S4000000x1, .i32⟩
  | 77 => ⟨S4000000x64, .f32⟩
  | 78 => ⟨S4000000x64, .f32⟩
  | 79 => ⟨S4000000x64, .f32⟩
  | 80 => ⟨S_, .f32⟩
  | 81 => ⟨S150000x64, .f32⟩
  | 82 => ⟨S4000000x1, .i32⟩
  | 83 => ⟨S150000x64, .f32⟩
  | 84 => ⟨S150000x64, .f32⟩
  | 85 => ⟨S4000000x1, .f32⟩
  | 86 => ⟨S_, .i32⟩
  | 87 => ⟨S4000000, .i32⟩
  | 88 => ⟨S4000000, .i1⟩
  | 89 => ⟨S_, .i32⟩
  | 90 => ⟨S4000000, .i32⟩
  | 91 => ⟨S4000000, .i32⟩
  | 92 => ⟨S4000000, .i32⟩
  | 93 => ⟨S4000000x1, .i32⟩
  | 94 => ⟨S4000000x64, .f32⟩
  | 95 => ⟨S4000000x64, .f32⟩
  | 96 => ⟨S4000000x64, .f32⟩
  | 97 => ⟨S_, .f32⟩
  | 98 => ⟨S150000x64, .f32⟩
  | 99 => ⟨S4000000x1, .i32⟩
  | 100 => ⟨S150000x64, .f32⟩
  | 101 => ⟨S150000x64, .f32⟩
  | 102 => ⟨S_, .f32⟩
  | 103 => ⟨S150000x64, .f32⟩
  | 104 => ⟨S150000x64, .f32⟩
  | 105 => ⟨S64, .f32⟩
  | 106 => ⟨S150000x64, .f32⟩
  | 107 => ⟨S100000x64, .f32⟩
  | 108 => ⟨S50000x64, .f32⟩
  | 109 => ⟨S_, .i32⟩
  | 110 => ⟨S65536, .i32⟩
  | 111 => ⟨S65536, .i1⟩
  | 112 => ⟨S_, .i32⟩
  | 113 => ⟨S65536, .i32⟩
  | 114 => ⟨S65536, .i32⟩
  | 115 => ⟨S65536, .i32⟩
  | 116 => ⟨S65536x1, .i32⟩
  | 117 => ⟨S65536x64, .f32⟩
  | 118 => ⟨S_, .i32⟩
  | 119 => ⟨S65536, .i32⟩
  | 120 => ⟨S65536, .i1⟩
  | 121 => ⟨S_, .i32⟩
  | 122 => ⟨S65536, .i32⟩
  | 123 => ⟨S65536, .i32⟩
  | 124 => ⟨S65536, .i32⟩
  | 125 => ⟨S65536x1, .i32⟩
  | 126 => ⟨S65536x64, .f32⟩
  | 127 => ⟨S_, .i32⟩
  | _ => ⟨S150000x64, .f32⟩

abbrev hbmTy0_1 (i : Nat) : BufTy := match i % 128 with
  | 0 => ⟨S65536, .i32⟩
  | 1 => ⟨S65536, .i1⟩
  | 2 => ⟨S_, .i32⟩
  | 3 => ⟨S65536, .i32⟩
  | 4 => ⟨S65536, .i32⟩
  | 5 => ⟨S65536, .i32⟩
  | 6 => ⟨S65536x1, .i32⟩
  | 7 => ⟨S65536x64, .f32⟩
  | 8 => ⟨S65536x64, .f32⟩
  | 9 => ⟨S_, .f32⟩
  | 10 => ⟨S65536, .f32⟩
  | 11 => ⟨S65536x64, .f32⟩
  | 12 => ⟨S_, .f32⟩
  | 13 => ⟨S65536, .f32⟩
  | 14 => ⟨S65536, .f32⟩
  | 15 => ⟨S65536, .f32⟩
  | 16 => ⟨S65536, .f32⟩
  | 17 => ⟨S65536, .f32⟩
  | 18 => ⟨S_, .f32⟩
  | 19 => ⟨S65536, .f32⟩
  | 20 => ⟨S65536, .f32⟩
  | 21 => ⟨S_, .f32⟩
  | 22 => ⟨S65536, .f32⟩
  | 23 => ⟨S65536, .f32⟩
  | 24 => ⟨S_, .f32⟩
  | 25 => ⟨S65536, .f32⟩
  | 26 => ⟨S65536, .f32⟩
  | 27 => ⟨S65536, .f32⟩
  | 28 => ⟨S_, .f32⟩
  | 29 => ⟨S_, .f32⟩
  | 30 => ⟨S_, .f32⟩
  | 31 => ⟨S_, .f32⟩
  | 32 => ⟨S_, .f32⟩
  | 33 => ⟨S65536x64, .f32⟩
  | 34 => ⟨S_, .f32⟩
  | 35 => ⟨S65536, .f32⟩
  | 36 => ⟨S_, .f32⟩
  | 37 => ⟨S_, .f32⟩
  | 38 => ⟨S_, .f32⟩
  | 39 => ⟨S_, .f32⟩
  | 40 => ⟨S65536x64, .f32⟩
  | 41 => ⟨S_, .f32⟩
  | 42 => ⟨S65536, .f32⟩
  | 43 => ⟨S_, .f32⟩
  | 44 => ⟨S_, .f32⟩
  | 45 => ⟨S_, .f32⟩
  | 46 => ⟨S_, .f32⟩
  | 47 => ⟨S_, .f32⟩
  | 48 => ⟨S65536x64, .f32⟩
  | 49 => ⟨S_, .f32⟩
  | 50 => ⟨S65536, .f32⟩
  | 51 => ⟨S_, .f32⟩
  | 52 => ⟨S_, .f32⟩
  | 53 => ⟨S_, .f32⟩
  | 54 => ⟨S_, .f32⟩
  | 55 => ⟨S_, .f32⟩
  | 56 => ⟨S_, .f32⟩
  | 57 => ⟨S_, .f32⟩
  | 58 => ⟨S_, .f32⟩
  | _ => ⟨S150000x64, .f32⟩

abbrev hbmTy (i : Nat) : BufTy := match i / 128 with
  | 0 => hbmTy0_0 i
  | 1 => hbmTy0_1 i
  | _ => ⟨S150000x64, .f32⟩

abbrev bufTy : (tb : Table) → Fin (tcTables nBuf tb) → BufTy
  | .hbm, ⟨i, _⟩ => hbmTy i
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x64, .f32⟩
  | .local _ .vmem, ⟨5, _⟩ => ⟨S64, .f32⟩
  | .local _ .vmem, ⟨6, _⟩ => ⟨S64x64, .f32⟩
  | .local _ .vmem, ⟨7, _⟩ => ⟨S64, .f32⟩
  | .local _ .vmem, ⟨8, _⟩ => ⟨S64x64, .f32⟩
  | .local _ .vmem, ⟨9, _⟩ => ⟨S64, .f32⟩
  | .local _ .vmem, ⟨10, _⟩ => ⟨S64, .f32⟩
  | .local _ .vmem, ⟨11, _⟩ => ⟨S5000x64, .f32⟩
  | .local _ .vmem, ⟨12, _⟩ => ⟨S5000x64, .f32⟩
  | _, _ => ⟨S150000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_1 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v11 : Ref sig .tc := ⟨.hbm, 31, rfl⟩
abbrev main_c : Ref sig .tc := ⟨.hbm, 32, rfl⟩
abbrev main_v12 : Ref sig .tc := ⟨.hbm, 33, rfl⟩
abbrev main_v13 : Ref sig .tc := ⟨.hbm, 34, rfl⟩
abbrev main_c_3 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_c_4 : Ref sig .tc := ⟨.hbm, 41, rfl⟩
abbrev main_v19 : Ref sig .tc := ⟨.hbm, 42, rfl⟩
abbrev main_v20 : Ref sig .tc := ⟨.hbm, 43, rfl⟩
abbrev main_c_5 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_c_6 : Ref sig .tc := ⟨.hbm, 52, rfl⟩
abbrev main_v28 : Ref sig .tc := ⟨.hbm, 53, rfl⟩
abbrev main_v29 : Ref sig .tc := ⟨.hbm, 54, rfl⟩
abbrev main_c_7 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_cst_8 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_c_9 : Ref sig .tc := ⟨.hbm, 69, rfl⟩
abbrev main_v42 : Ref sig .tc := ⟨.hbm, 70, rfl⟩
abbrev main_v43 : Ref sig .tc := ⟨.hbm, 71, rfl⟩
abbrev main_c_10 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_cst_11 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_c_12 : Ref sig .tc := ⟨.hbm, 86, rfl⟩
abbrev main_v56 : Ref sig .tc := ⟨.hbm, 87, rfl⟩
abbrev main_v57 : Ref sig .tc := ⟨.hbm, 88, rfl⟩
abbrev main_c_13 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_cst_14 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_cst_15 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_c_16 : Ref sig .tc := ⟨.hbm, 109, rfl⟩
abbrev main_v75 : Ref sig .tc := ⟨.hbm, 110, rfl⟩
abbrev main_v76 : Ref sig .tc := ⟨.hbm, 111, rfl⟩
abbrev main_c_17 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_c_18 : Ref sig .tc := ⟨.hbm, 118, rfl⟩
abbrev main_v82 : Ref sig .tc := ⟨.hbm, 119, rfl⟩
abbrev main_v83 : Ref sig .tc := ⟨.hbm, 120, rfl⟩
abbrev main_c_19 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_c_20 : Ref sig .tc := ⟨.hbm, 127, rfl⟩
abbrev main_v89 : Ref sig .tc := ⟨.hbm, 128, rfl⟩
abbrev main_v90 : Ref sig .tc := ⟨.hbm, 129, rfl⟩
abbrev main_c_21 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_cst_22 : Ref sig .tc := ⟨.hbm, 137, rfl⟩
abbrev main_v97 : Ref sig .tc := ⟨.hbm, 138, rfl⟩
abbrev main_v98 : Ref sig .tc := ⟨.hbm, 139, rfl⟩
abbrev main_cst_23 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_cst_24 : Ref sig .tc := ⟨.hbm, 146, rfl⟩
abbrev main_v104 : Ref sig .tc := ⟨.hbm, 147, rfl⟩
abbrev main_v105 : Ref sig .tc := ⟨.hbm, 148, rfl⟩
abbrev main_cst_25 : Ref sig .tc := ⟨.hbm, 149, rfl⟩
abbrev main_v106 : Ref sig .tc := ⟨.hbm, 150, rfl⟩
abbrev main_v107 : Ref sig .tc := ⟨.hbm, 151, rfl⟩
abbrev main_cst_26 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_cst_27 : Ref sig .tc := ⟨.hbm, 156, rfl⟩
abbrev main_v111 : Ref sig .tc := ⟨.hbm, 157, rfl⟩
abbrev main_cst_28 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_cst_29 : Ref sig .tc := ⟨.hbm, 162, rfl⟩
abbrev main_v115 : Ref sig .tc := ⟨.hbm, 163, rfl⟩
abbrev main_cst_30 : Ref sig .tc := ⟨.hbm, 164, rfl⟩
abbrev main_v116 : Ref sig .tc := ⟨.hbm, 165, rfl⟩
abbrev main_cst_31 : Ref sig .tc := ⟨.hbm, 166, rfl⟩
abbrev main_v117 : Ref sig .tc := ⟨.hbm, 167, rfl⟩
abbrev main_v118 : Ref sig .tc := ⟨.hbm, 168, rfl⟩
abbrev main_cst_32 : Ref sig .tc := ⟨.hbm, 169, rfl⟩
abbrev main_v119 : Ref sig .tc := ⟨.hbm, 170, rfl⟩
abbrev main_cst_33 : Ref sig .tc := ⟨.hbm, 171, rfl⟩
abbrev main_v120 : Ref sig .tc := ⟨.hbm, 172, rfl⟩
abbrev main_cst_34 : Ref sig .tc := ⟨.hbm, 173, rfl⟩
abbrev main_v121 : Ref sig .tc := ⟨.hbm, 174, rfl⟩
abbrev main_v122 : Ref sig .tc := ⟨.hbm, 175, rfl⟩
abbrev main_v123 : Ref sig .tc := ⟨.hbm, 176, rfl⟩
abbrev main_cst_35 : Ref sig .tc := ⟨.hbm, 177, rfl⟩
abbrev main_v124 : Ref sig .tc := ⟨.hbm, 178, rfl⟩
abbrev main_cst_36 : Ref sig .tc := ⟨.hbm, 179, rfl⟩
abbrev main_v125 : Ref sig .tc := ⟨.hbm, 180, rfl⟩
abbrev main_cst_37 : Ref sig .tc := ⟨.hbm, 181, rfl⟩
abbrev main_v126 : Ref sig .tc := ⟨.hbm, 182, rfl⟩
abbrev main_v127 : Ref sig .tc := ⟨.hbm, 183, rfl⟩
abbrev main_cst_38 : Ref sig .tc := ⟨.hbm, 184, rfl⟩
abbrev main_v128 : Ref sig .tc := ⟨.hbm, 185, rfl⟩
abbrev main_v129 : Ref sig .tc := ⟨.hbm, 186, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨1, ![30], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S5000x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  slices_S2x4000000_S1x4000000_0_0 : S2x4000000.Slices ![0, 0] S1x4000000
  shapeCasts_S1x4000000_S4000000 : S1x4000000.ShapeCasts S4000000
  slices_S2x4000000_S1x4000000_1_0 : S2x4000000.Slices ![1, 0] S1x4000000
  bcast_S_S4000000 : S_.BroadcastsInDim S4000000 (![] : Fin 0 → Fin S4000000.rank)
  bcast_S_S150000 : S_.BroadcastsInDim S150000 (![] : Fin 0 → Fin S150000.rank)
  bcast_S4000000_S4000000x1_0 : S4000000.BroadcastsInDim S4000000x1 (![0] : Fin 1 → Fin S4000000x1.rank)
  bcast_S4000000x1_S4000000x64_0_1 : S4000000x1.BroadcastsInDim S4000000x64 (![0, 1] : Fin 2 → Fin S4000000x64.rank)
  bcast_S_S150000x64 : S_.BroadcastsInDim S150000x64 (![] : Fin 0 → Fin S150000x64.rank)
  shapeCasts_S64x1_S64 : S64x1.ShapeCasts S64
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  shapeCasts_S5000x64_S5000x64 : S5000x64.ShapeCasts S5000x64
  shapeCasts_S64_S64 : S64.ShapeCasts S64
  reduces_S5000x64_S5000 : S5000x64.Reduces [1] S5000
  shapeCasts_S5000_S5000x1 : S5000.ShapeCasts S5000x1
  broadcasts_S5000x1_S5000x64 : S5000x1.Broadcasts S5000x64
  slices_S150000x64_S100000x64_0_0 : S150000x64.Slices ![0, 0] S100000x64
  slices_S150000x64_S50000x64_100000_0 : S150000x64.Slices ![100000, 0] S50000x64
  bcast_S_S65536 : S_.BroadcastsInDim S65536 (![] : Fin 0 → Fin S65536.rank)
  bcast_S65536_S65536x1_0 : S65536.BroadcastsInDim S65536x1 (![0] : Fin 1 → Fin S65536x1.rank)
  reducesTo_S65536x64_S65536_d1 : S65536x64.ReducesTo [1] S65536
  h_S_ : 0 < S_.numel
  reducesTo_S65536_S_d0 : S65536.ReducesTo [0] S_
  scatter_S150000_S4000000x1_S4000000_n_0_0_1_wf : ScatterDims.WF S150000 S4000000x1 S4000000 [] [0] [0] 1
  gather_S150000_S4000000x1_S4000000_n_0_n_n_0_1_1_wf : GatherDims.WF S150000 S4000000x1 S4000000 [] [0] [] [0] [] 1 ![1]
  gather_S150000x64_S4000000x1_S4000000x64_1_0_n_n_0_1_164_wf : GatherDims.WF S150000x64 S4000000x1 S4000000x64 [1] [0] [] [0] [] 1 ![1, 64]
  scatter_S150000x64_S4000000x1_S4000000x64_1_0_0_1_wf : ScatterDims.WF S150000x64 S4000000x1 S4000000x64 [1] [0] [0] 1
  dot_S5000x64_S64x64_S5000x64_1_0_0_1_n_n_wf : DotDims.WF S5000x64 S64x64 S5000x64 [1] [0] [0] [1] [] []
  gather_S100000x64_S65536x1_S65536x64_1_0_n_n_0_1_164_wf : GatherDims.WF S100000x64 S65536x1 S65536x64 [1] [0] [] [0] [] 1 ![1, 64]
  gather_S50000x64_S65536x1_S65536x64_1_0_n_n_0_1_164_wf : GatherDims.WF S50000x64 S65536x1 S65536x64 [1] [0] [] [0] [] 1 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S150000x64.size a
  hwx0_0 : ∀ i : grid0.Coords, EltTy.bits .f32 = 32 ∨ (Rect.block (s := S150000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S150000x64.size a
  hwx0_1 : ∀ i : grid0.Coords, EltTy.bits .f32 = 32 ∨ (Rect.block (s := S150000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64.size a ≤ S64.size a
  hwx0_3 : ∀ i : grid0.Coords, EltTy.bits .f32 = 32 ∨ (Rect.block (s := S64) S64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64.size a ≤ S64.size a
  hwx0_5 : ∀ i : grid0.Coords, EltTy.bits .f32 = 32 ∨ (Rect.block (s := S64) S64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x64.size a ≤ S64x64.size a
  hwx0_6 : ∀ i : grid0.Coords, EltTy.bits .f32 = 32 ∨ (Rect.block (s := S64x64) S64x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64.size a ≤ S64.size a
  hwx0_7 : ∀ i : grid0.Coords, EltTy.bits .f32 = 32 ∨ (Rect.block (s := S64) S64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64.size a ≤ S64.size a
  hwx0_8 : ∀ i : grid0.Coords, EltTy.bits .f32 = 32 ∨ (Rect.block (s := S64) S64.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S5000x64.size a ≤ S150000x64.size a
  hwx0_9 : ∀ i : grid0.Coords, EltTy.bits .f32 = 32 ∨ (Rect.block (s := S150000x64) S5000x64.size (cc0_transform_9 i) (hinb0_9 i)).WholeWords (EltTy.packing .f32)

variable [Facts₀]

def scatter_S150000_S4000000x1_S4000000_n_0_0_1 : ScatterDims S150000 S4000000x1 S4000000 where
  updateWindowDims := []
  insertedWindowDims := [0]
  scatterDimsToOperandDims := [0]
  indexVectorDim := 1
  wf := scatter_S150000_S4000000x1_S4000000_n_0_0_1_wf
def gather_S150000_S4000000x1_S4000000_n_0_n_n_0_1_1 : GatherDims S150000 S4000000x1 S4000000 where
  offsetDims := []
  collapsedSliceDims := [0]
  operandBatchingDims := []
  startIndicesBatchingDims := []
  startIndexMap := [0]
  indexVectorDim := 1
  sliceSizes := ![1]
  wf := gather_S150000_S4000000x1_S4000000_n_0_n_n_0_1_1_wf
def gather_S150000x64_S4000000x1_S4000000x64_1_0_n_n_0_1_164 : GatherDims S150000x64 S4000000x1 S4000000x64 where
  offsetDims := [1]
  collapsedSliceDims := [0]
  operandBatchingDims := []
  startIndicesBatchingDims := []
  startIndexMap := [0]
  indexVectorDim := 1
  sliceSizes := ![1, 64]
  wf := gather_S150000x64_S4000000x1_S4000000x64_1_0_n_n_0_1_164_wf
def scatter_S150000x64_S4000000x1_S4000000x64_1_0_0_1 : ScatterDims S150000x64 S4000000x1 S4000000x64 where
  updateWindowDims := [1]
  insertedWindowDims := [0]
  scatterDimsToOperandDims := [0]
  indexVectorDim := 1
  wf := scatter_S150000x64_S4000000x1_S4000000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S100000x64_S65536x1_S65536x64_1_0_n_n_0_1_164 : GatherDims S100000x64 S65536x1 S65536x64 where
  offsetDims := [1]
  collapsedSliceDims := [0]
  operandBatchingDims := []
  startIndicesBatchingDims := []
  startIndexMap := [0]
  indexVectorDim := 1
  sliceSizes := ![1, 64]
  wf := gather_S100000x64_S65536x1_S65536x64_1_0_n_n_0_1_164_wf
def gather_S50000x64_S65536x1_S65536x64_1_0_n_n_0_1_164 : GatherDims S50000x64 S65536x1 S65536x64 where
  offsetDims := [1]
  collapsedSliceDims := [0]
  operandBatchingDims := []
  startIndicesBatchingDims := []
  startIndexMap := [0]
  indexVectorDim := 1
  sliceSizes := ![1, 64]
  wf := gather_S50000x64_S65536x1_S65536x64_1_0_n_n_0_1_164_wf

abbrev win0_0 : Pipeline.Window sig grid0 :=
  Pipeline.Window.ofSpec (Memref.whole main_arg1) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v70) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S64x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v71) S64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v72) S5000x64.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S150000x64 : Shape := ⟨2, ![150000, 64]⟩
abbrev S64x64 : Shape := ⟨2, ![64, 64]⟩
abbrev S64 : Shape := ⟨1, ![64]⟩
abbrev S64x1 : Shape := ⟨2, ![64, 1]⟩
abbrev S2x4000000 : Shape := ⟨2, ![2, 4000000]⟩
abbrev S65536 : Shape := ⟨1, ![65536]⟩
abbrev S1x4000000 : Shape := ⟨2, ![1, 4000000]⟩
abbrev S4000000 : Shape := ⟨1, ![4000000]⟩
abbrev S_ : Shape := ⟨0, ![]⟩
abbrev S150000 : Shape := ⟨1, ![150000]⟩
abbrev S4000000x1 : Shape := ⟨2, ![4000000, 1]⟩
abbrev S4000000x64 : Shape := ⟨2, ![4000000, 64]⟩
abbrev S1x64 : Shape := ⟨2, ![1, 64]⟩
abbrev S150000x1 : Shape := ⟨2, ![150000, 1]⟩
abbrev S150000x2 : Shape := ⟨2, ![150000, 2]⟩
abbrev S100000x64 : Shape := ⟨2, ![100000, 64]⟩
abbrev S50000x64 : Shape := ⟨2, ![50000, 64]⟩
abbrev S65536x1 : Shape := ⟨2, ![65536, 1]⟩
abbrev S65536x64 : Shape := ⟨2, ![65536, 64]⟩

abbrev nBuf : Space → Nat
  | .hbm => 233
  | .vmem => 0
  | .smem => 0
  | _ => 0

abbrev hbmTy0_0 (i : Nat) : BufTy := match i % 128 with
  | 0 => ⟨S150000x64, .f32⟩
  | 1 => ⟨S150000x64, .f32⟩
  | 2 => ⟨S64x64, .f32⟩
  | 3 => ⟨S64, .f32⟩
  | 4 => ⟨S64x64, .f32⟩
  | 5 => ⟨S64, .f32⟩
  | 6 => ⟨S64x64, .f32⟩
  | 7 => ⟨S64, .f32⟩
  | 8 => ⟨S64x1, .f32⟩
  | 9 => ⟨S2x4000000, .i32⟩
  | 10 => ⟨S65536, .i32⟩
  | 11 => ⟨S65536, .i32⟩
  | 12 => ⟨S65536, .i32⟩
  | 13 => ⟨S65536, .f32⟩
  | 14 => ⟨S1x4000000, .i32⟩
  | 15 => ⟨S4000000, .i32⟩
  | 16 => ⟨S1x4000000, .i32⟩
  | 17 => ⟨S4000000, .i32⟩
  | 18 => ⟨S_, .f32⟩
  | 19 => ⟨S4000000, .f32⟩
  | 20 => ⟨S_, .f32⟩
  | 21 => ⟨S150000, .f32⟩
  | 22 => ⟨S4000000x1, .i32⟩
  | 23 => ⟨S150000, .f32⟩
  | 24 => ⟨S_, .f32⟩
  | 25 => ⟨S150000, .f32⟩
  | 26 => ⟨S150000, .i1⟩
  | 27 => ⟨S150000, .f32⟩
  | 28 => ⟨S_, .f32⟩
  | 29 => ⟨S_, .f32⟩
  | 30 => ⟨S150000, .f32⟩
  | 31 => ⟨S150000, .f32⟩
  | 32 => ⟨S_, .i32⟩
  | 33 => ⟨S4000000, .i32⟩
  | 34 => ⟨S4000000, .i1⟩
  | 35 => ⟨S_, .i32⟩
  | 36 => ⟨S4000000, .i32⟩
  | 37 => ⟨S4000000, .i32⟩
  | 38 => ⟨S4000000, .i32⟩
  | 39 => ⟨S4000000x1, .i32⟩
  | 40 => ⟨S4000000, .f32⟩
  | 41 => ⟨S_, .i32⟩
  | 42 => ⟨S4000000, .i32⟩
  | 43 => ⟨S4000000, .i1⟩
  | 44 => ⟨S_, .i32⟩
  | 45 => ⟨S4000000, .i32⟩
  | 46 => ⟨S4000000, .i32⟩
  | 47 => ⟨S4000000, .i32⟩
  | 48 => ⟨S4000000x1, .i32⟩
  | 49 => ⟨S4000000, .f32⟩
  | 50 => ⟨S4000000, .f32⟩
  | 51 => ⟨S4000000x1, .f32⟩
  | 52 => ⟨S_, .i32⟩
  | 53 => ⟨S4000000, .i32⟩
  | 54 => ⟨S4000000, .i1⟩
  | 55 => ⟨S_, .i32⟩
  | 56 => ⟨S4000000, .i32⟩
  | 57 => ⟨S4000000, .i32⟩
  | 58 => ⟨S4000000, .i32⟩
  | 59 => ⟨S4000000x1, .i32⟩
  | 60 => ⟨S4000000x64, .f32⟩
  | 61 => ⟨S4000000x64, .f32⟩
  | 62 => ⟨S4000000x64, .f32⟩
  | 63 => ⟨S_, .f32⟩
  | 64 => ⟨S150000x64, .f32⟩
  | 65 => ⟨S4000000x1, .i32⟩
  | 66 => ⟨S150000x64, .f32⟩
  | 67 => ⟨S150000x64, .f32⟩
  | 68 => ⟨S4000000x1, .f32⟩
  | 69 => ⟨S_, .i32⟩
  | 70 => ⟨S4000000, .i32⟩
  | 71 => ⟨S4000000, .i1⟩
  | 72 => ⟨S_, .i32⟩
  | 73 => ⟨S4000000, .i32⟩
  | 74 => ⟨S4000000, .i32⟩
  | 75 => ⟨S4000000, .i32⟩
  | 76 => ⟨S4000000x1, .i32⟩
  | 77 => ⟨S4000000x64, .f32⟩
  | 78 => ⟨S4000000x64, .f32⟩
  | 79 => ⟨S4000000x64, .f32⟩
  | 80 => ⟨S_, .f32⟩
  | 81 => ⟨S150000x64, .f32⟩
  | 82 => ⟨S4000000x1, .i32⟩
  | 83 => ⟨S150000x64, .f32⟩
  | 84 => ⟨S150000x64, .f32⟩
  | 85 => ⟨S4000000x1, .f32⟩
  | 86 => ⟨S_, .i32⟩
  | 87 => ⟨S4000000, .i32⟩
  | 88 => ⟨S4000000, .i1⟩
  | 89 => ⟨S_, .i32⟩
  | 90 => ⟨S4000000, .i32⟩
  | 91 => ⟨S4000000, .i32⟩
  | 92 => ⟨S4000000, .i32⟩
  | 93 => ⟨S4000000x1, .i32⟩
  | 94 => ⟨S4000000x64, .f32⟩
  | 95 => ⟨S4000000x64, .f32⟩
  | 96 => ⟨S4000000x64, .f32⟩
  | 97 => ⟨S_, .f32⟩
  | 98 => ⟨S150000x64, .f32⟩
  | 99 => ⟨S4000000x1, .i32⟩
  | 100 => ⟨S150000x64, .f32⟩
  | 101 => ⟨S150000x64, .f32⟩
  | 102 => ⟨S_, .f32⟩
  | 103 => ⟨S150000x64, .f32⟩
  | 104 => ⟨S150000x64, .f32⟩
  | 105 => ⟨S150000x64, .f32⟩
  | 106 => ⟨S1x64, .f32⟩
  | 107 => ⟨S150000x64, .f32⟩
  | 108 => ⟨S150000x64, .f32⟩
  | 109 => ⟨S_, .f32⟩
  | 110 => ⟨S150000x64, .f32⟩
  | 111 => ⟨S150000x64, .f32⟩
  | 112 => ⟨S150000x64, .f32⟩
  | 113 => ⟨S1x64, .f32⟩
  | 114 => ⟨S150000x64, .f32⟩
  | 115 => ⟨S150000x64, .f32⟩
  | 116 => ⟨S_, .f32⟩
  | 117 => ⟨S150000x64, .f32⟩
  | 118 => ⟨S150000x64, .f32⟩
  | 119 => ⟨S150000x64, .f32⟩
  | 120 => ⟨S1x64, .f32⟩
  | 121 => ⟨S150000x64, .f32⟩
  | 122 => ⟨S150000x64, .f32⟩
  | 123 => ⟨S150000x64, .f32⟩
  | 124 => ⟨S150000x1, .f32⟩
  | 125 => ⟨S150000x64, .f32⟩
  | 126 => ⟨S1x64, .f32⟩
  | 127 => ⟨S150000x64, .f32⟩
  | _ => ⟨S150000x64, .f32⟩

abbrev hbmTy0_1 (i : Nat) : BufTy := match i % 128 with
  | 0 => ⟨S150000x64, .f32⟩
  | 1 => ⟨S150000x64, .f32⟩
  | 2 => ⟨S150000x1, .f32⟩
  | 3 => ⟨S150000x2, .f32⟩
  | 4 => ⟨S_, .f32⟩
  | 5 => ⟨S150000, .f32⟩
  | 6 => ⟨S_, .f32⟩
  | 7 => ⟨S150000, .f32⟩
  | 8 => ⟨S150000, .f32⟩
  | 9 => ⟨S150000x1, .f32⟩
  | 10 => ⟨S150000x2, .f32⟩
  | 11 => ⟨S150000x2, .f32⟩
  | 12 => ⟨S150000x2, .f32⟩
  | 13 => ⟨S_, .f32⟩
  | 14 => ⟨S150000, .f32⟩
  | 15 => ⟨S150000x1, .f32⟩
  | 16 => ⟨S150000x2, .f32⟩
  | 17 => ⟨S150000x2, .f32⟩
  | 18 => ⟨S150000x1, .f32⟩
  | 19 => ⟨S150000x64, .f32⟩
  | 20 => ⟨S150000x64, .f32⟩
  | 21 => ⟨S150000x1, .f32⟩
  | 22 => ⟨S150000x64, .f32⟩
  | 23 => ⟨S150000x64, .f32⟩
  | 24 => ⟨S150000x64, .f32⟩
  | 25 => ⟨S100000x64, .f32⟩
  | 26 => ⟨S50000x64, .f32⟩
  | 27 => ⟨S_, .i32⟩
  | 28 => ⟨S65536, .i32⟩
  | 29 => ⟨S65536, .i1⟩
  | 30 => ⟨S_, .i32⟩
  | 31 => ⟨S65536, .i32⟩
  | 32 => ⟨S65536, .i32⟩
  | 33 => ⟨S65536, .i32⟩
  | 34 => ⟨S65536x1, .i32⟩
  | 35 => ⟨S65536x64, .f32⟩
  | 36 => ⟨S_, .i32⟩
  | 37 => ⟨S65536, .i32⟩
  | 38 => ⟨S65536, .i1⟩
  | 39 => ⟨S_, .i32⟩
  | 40 => ⟨S65536, .i32⟩
  | 41 => ⟨S65536, .i32⟩
  | 42 => ⟨S65536, .i32⟩
  | 43 => ⟨S65536x1, .i32⟩
  | 44 => ⟨S65536x64, .f32⟩
  | 45 => ⟨S_, .i32⟩
  | 46 => ⟨S65536, .i32⟩
  | 47 => ⟨S65536, .i1⟩
  | 48 => ⟨S_, .i32⟩
  | 49 => ⟨S65536, .i32⟩
  | 50 => ⟨S65536, .i32⟩
  | 51 => ⟨S65536, .i32⟩
  | 52 => ⟨S65536x1, .i32⟩
  | 53 => ⟨S65536x64, .f32⟩
  | 54 => ⟨S65536x64, .f32⟩
  | 55 => ⟨S_, .f32⟩
  | 56 => ⟨S65536, .f32⟩
  | 57 => ⟨S65536x64, .f32⟩
  | 58 => ⟨S_, .f32⟩
  | 59 => ⟨S65536, .f32⟩
  | 60 => ⟨S65536, .f32⟩
  | 61 => ⟨S65536, .f32⟩
  | 62 => ⟨S65536, .f32⟩
  | 63 => ⟨S65536, .f32⟩
  | 64 => ⟨S_, .f32⟩
  | 65 => ⟨S65536, .f32⟩
  | 66 => ⟨S65536, .f32⟩
  | 67 => ⟨S_, .f32⟩
  | 68 => ⟨S65536, .f32⟩
  | 69 => ⟨S65536, .f32⟩
  | 70 => ⟨S_, .f32⟩
  | 71 => ⟨S65536, .f32⟩
  | 72 => ⟨S65536, .f32⟩
  | 73 => ⟨S65536, .f32⟩
  | 74 => ⟨S_, .f32⟩
  | 75 => ⟨S_, .f32⟩
  | 76 => ⟨S_, .f32⟩
  | 77 => ⟨S_, .f32⟩
  | 78 => ⟨S_, .f32⟩
  | 79 => ⟨S65536x64, .f32⟩
  | 80 => ⟨S_, .f32⟩
  | 81 => ⟨S65536, .f32⟩
  | 82 => ⟨S_, .f32⟩
  | 83 => ⟨S_, .f32⟩
  | 84 => ⟨S_, .f32⟩
  | 85 => ⟨S_, .f32⟩
  | 86 => ⟨S65536x64, .f32⟩
  | 87 => ⟨S_, .f32⟩
  | 88 => ⟨S65536, .f32⟩
  | 89 => ⟨S_, .f32⟩
  | 90 => ⟨S_, .f32⟩
  | 91 => ⟨S_, .f32⟩
  | 92 => ⟨S_, .f32⟩
  | 93 => ⟨S_, .f32⟩
  | 94 => ⟨S65536x64, .f32⟩
  | 95 => ⟨S_, .f32⟩
  | 96 => ⟨S65536, .f32⟩
  | 97 => ⟨S_, .f32⟩
  | 98 => ⟨S_, .f32⟩
  | 99 => ⟨S_, .f32⟩
  | 100 => ⟨S_, .f32⟩
  | 101 => ⟨S_, .f32⟩
  | 102 => ⟨S_, .f32⟩
  | 103 => ⟨S_, .f32⟩
  | 104 => ⟨S_, .f32⟩
  | _ => ⟨S150000x64, .f32⟩

abbrev hbmTy (i : Nat) : BufTy := match i / 128 with
  | 0 => hbmTy0_0 i
  | 1 => hbmTy0_1 i
  | _ => ⟨S150000x64, .f32⟩

abbrev bufTy : (tb : Table) → Fin (tcTables nBuf tb) → BufTy
  | .hbm, ⟨i, _⟩ => hbmTy i
  | _, _ => ⟨S150000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_1 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v11 : Ref sig .tc := ⟨.hbm, 31, rfl⟩
abbrev main_c : Ref sig .tc := ⟨.hbm, 32, rfl⟩
abbrev main_v12 : Ref sig .tc := ⟨.hbm, 33, rfl⟩
abbrev main_v13 : Ref sig .tc := ⟨.hbm, 34, rfl⟩
abbrev main_c_3 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_c_4 : Ref sig .tc := ⟨.hbm, 41, rfl⟩
abbrev main_v19 : Ref sig .tc := ⟨.hbm, 42, rfl⟩
abbrev main_v20 : Ref sig .tc := ⟨.hbm, 43, rfl⟩
abbrev main_c_5 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_c_6 : Ref sig .tc := ⟨.hbm, 52, rfl⟩
abbrev main_v28 : Ref sig .tc := ⟨.hbm, 53, rfl⟩
abbrev main_v29 : Ref sig .tc := ⟨.hbm, 54, rfl⟩
abbrev main_c_7 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_cst_8 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_c_9 : Ref sig .tc := ⟨.hbm, 69, rfl⟩
abbrev main_v42 : Ref sig .tc := ⟨.hbm, 70, rfl⟩
abbrev main_v43 : Ref sig .tc := ⟨.hbm, 71, rfl⟩
abbrev main_c_10 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_cst_11 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_c_12 : Ref sig .tc := ⟨.hbm, 86, rfl⟩
abbrev main_v56 : Ref sig .tc := ⟨.hbm, 87, rfl⟩
abbrev main_v57 : Ref sig .tc := ⟨.hbm, 88, rfl⟩
abbrev main_c_13 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_cst_14 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_cst_15 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_call1_cst : Ref sig .tc := ⟨.hbm, 109, rfl⟩
abbrev main_call1_v0 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_call2_cst : Ref sig .tc := ⟨.hbm, 116, rfl⟩
abbrev main_call2_v0 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_cst_16 : Ref sig .tc := ⟨.hbm, 132, rfl⟩
abbrev main_v94 : Ref sig .tc := ⟨.hbm, 133, rfl⟩
abbrev main_cst_17 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_cst_18 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_c_19 : Ref sig .tc := ⟨.hbm, 155, rfl⟩
abbrev main_v114 : Ref sig .tc := ⟨.hbm, 156, rfl⟩
abbrev main_v115 : Ref sig .tc := ⟨.hbm, 157, rfl⟩
abbrev main_c_20 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_c_21 : Ref sig .tc := ⟨.hbm, 164, rfl⟩
abbrev main_v121 : Ref sig .tc := ⟨.hbm, 165, rfl⟩
abbrev main_v122 : Ref sig .tc := ⟨.hbm, 166, rfl⟩
abbrev main_c_22 : Ref sig .tc := ⟨.hbm, 167, rfl⟩
abbrev main_v123 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_c_23 : Ref sig .tc := ⟨.hbm, 173, rfl⟩
abbrev main_v128 : Ref sig .tc := ⟨.hbm, 174, rfl⟩
abbrev main_v129 : Ref sig .tc := ⟨.hbm, 175, rfl⟩
abbrev main_c_24 : Ref sig .tc := ⟨.hbm, 176, rfl⟩
abbrev main_v130 : Ref sig .tc := ⟨.hbm, 177, rfl⟩
abbrev main_v131 : Ref sig .tc := ⟨.hbm, 178, rfl⟩
abbrev main_v132 : Ref sig .tc := ⟨.hbm, 179, rfl⟩
abbrev main_v133 : Ref sig .tc := ⟨.hbm, 180, rfl⟩
abbrev main_v134 : Ref sig .tc := ⟨.hbm, 181, rfl⟩
abbrev main_v135 : Ref sig .tc := ⟨.hbm, 182, rfl⟩
abbrev main_cst_25 : Ref sig .tc := ⟨.hbm, 183, rfl⟩
abbrev main_v136 : Ref sig .tc := ⟨.hbm, 184, rfl⟩
abbrev main_v137 : Ref sig .tc := ⟨.hbm, 185, rfl⟩
abbrev main_cst_26 : Ref sig .tc := ⟨.hbm, 186, rfl⟩
abbrev main_v138 : Ref sig .tc := ⟨.hbm, 187, rfl⟩
abbrev main_v139 : Ref sig .tc := ⟨.hbm, 188, rfl⟩
abbrev main_v140 : Ref sig .tc := ⟨.hbm, 189, rfl⟩
abbrev main_v141 : Ref sig .tc := ⟨.hbm, 190, rfl⟩
abbrev main_v142 : Ref sig .tc := ⟨.hbm, 191, rfl⟩
abbrev main_cst_27 : Ref sig .tc := ⟨.hbm, 192, rfl⟩
abbrev main_v143 : Ref sig .tc := ⟨.hbm, 193, rfl⟩
abbrev main_v144 : Ref sig .tc := ⟨.hbm, 194, rfl⟩
abbrev main_cst_28 : Ref sig .tc := ⟨.hbm, 195, rfl⟩
abbrev main_v145 : Ref sig .tc := ⟨.hbm, 196, rfl⟩
abbrev main_v146 : Ref sig .tc := ⟨.hbm, 197, rfl⟩
abbrev main_cst_29 : Ref sig .tc := ⟨.hbm, 198, rfl⟩
abbrev main_v147 : Ref sig .tc := ⟨.hbm, 199, rfl⟩
abbrev main_v148 : Ref sig .tc := ⟨.hbm, 200, rfl⟩
abbrev main_v149 : Ref sig .tc := ⟨.hbm, 201, rfl⟩
abbrev main_cst_30 : Ref sig .tc := ⟨.hbm, 202, rfl⟩
abbrev main_v150 : Ref sig .tc := ⟨.hbm, 203, rfl⟩
abbrev main_cst_31 : Ref sig .tc := ⟨.hbm, 204, rfl⟩
abbrev main_v151 : Ref sig .tc := ⟨.hbm, 205, rfl⟩
abbrev main_v152 : Ref sig .tc := ⟨.hbm, 206, rfl⟩
abbrev main_v153 : Ref sig .tc := ⟨.hbm, 207, rfl⟩
abbrev main_cst_32 : Ref sig .tc := ⟨.hbm, 208, rfl⟩
abbrev main_v154 : Ref sig .tc := ⟨.hbm, 209, rfl⟩
abbrev main_cst_33 : Ref sig .tc := ⟨.hbm, 210, rfl⟩
abbrev main_v155 : Ref sig .tc := ⟨.hbm, 211, rfl⟩
abbrev main_cst_34 : Ref sig .tc := ⟨.hbm, 212, rfl⟩
abbrev main_v156 : Ref sig .tc := ⟨.hbm, 213, rfl⟩
abbrev main_v157 : Ref sig .tc := ⟨.hbm, 214, rfl⟩
abbrev main_cst_35 : Ref sig .tc := ⟨.hbm, 215, rfl⟩
abbrev main_v158 : Ref sig .tc := ⟨.hbm, 216, rfl⟩
abbrev main_cst_36 : Ref sig .tc := ⟨.hbm, 217, rfl⟩
abbrev main_v159 : Ref sig .tc := ⟨.hbm, 218, rfl⟩
abbrev main_cst_37 : Ref sig .tc := ⟨.hbm, 219, rfl⟩
abbrev main_v160 : Ref sig .tc := ⟨.hbm, 220, rfl⟩
abbrev main_v161 : Ref sig .tc := ⟨.hbm, 221, rfl⟩
abbrev main_v162 : Ref sig .tc := ⟨.hbm, 222, rfl⟩
abbrev main_cst_38 : Ref sig .tc := ⟨.hbm, 223, rfl⟩
abbrev main_v163 : Ref sig .tc := ⟨.hbm, 224, rfl⟩
abbrev main_cst_39 : Ref sig .tc := ⟨.hbm, 225, rfl⟩
abbrev main_v164 : Ref sig .tc := ⟨.hbm, 226, rfl⟩
abbrev main_cst_40 : Ref sig .tc := ⟨.hbm, 227, rfl⟩
abbrev main_v165 : Ref sig .tc := ⟨.hbm, 228, rfl⟩
abbrev main_v166 : Ref sig .tc := ⟨.hbm, 229, rfl⟩
abbrev main_cst_41 : Ref sig .tc := ⟨.hbm, 230, rfl⟩
abbrev main_v167 : Ref sig .tc := ⟨.hbm, 231, rfl⟩
abbrev main_v168 : Ref sig .tc := ⟨.hbm, 232, rfl⟩

abbrev nD : Nat := 1
abbrev τ : Topo := Topo.v7x

variable {F : FTy → Type} [FloatOps F]

class Facts₀ : Prop where
  slices_S2x4000000_S1x4000000_0_0 : S2x4000000.Slices ![0, 0] S1x4000000
  shapeCasts_S1x4000000_S4000000 : S1x4000000.ShapeCasts S4000000
  slices_S2x4000000_S1x4000000_1_0 : S2x4000000.Slices ![1, 0] S1x4000000
  bcast_S_S4000000 : S_.BroadcastsInDim S4000000 (![] : Fin 0 → Fin S4000000.rank)
  bcast_S_S150000 : S_.BroadcastsInDim S150000 (![] : Fin 0 → Fin S150000.rank)
  bcast_S4000000_S4000000x1_0 : S4000000.BroadcastsInDim S4000000x1 (![0] : Fin 1 → Fin S4000000x1.rank)
  bcast_S4000000x1_S4000000x64_0_1 : S4000000x1.BroadcastsInDim S4000000x64 (![0, 1] : Fin 2 → Fin S4000000x64.rank)
  bcast_S_S150000x64 : S_.BroadcastsInDim S150000x64 (![] : Fin 0 → Fin S150000x64.rank)
  bcast_S64_S1x64_1 : S64.BroadcastsInDim S1x64 (![1] : Fin 1 → Fin S1x64.rank)
  bcast_S1x64_S150000x64_0_1 : S1x64.BroadcastsInDim S150000x64 (![0, 1] : Fin 2 → Fin S150000x64.rank)
  concatenates_S150000x1_S150000x1_S150000x2_d1 : Shape.Concatenates [S150000x1, S150000x1] S150000x2 1
  reducesTo_S150000x2_S150000_d1 : S150000x2.ReducesTo [1] S150000
  h_S_ : 0 < S_.numel
  bcast_S150000_S150000x1_0 : S150000.BroadcastsInDim S150000x1 (![0] : Fin 1 → Fin S150000x1.rank)
  bcast_S150000x1_S150000x2_0_1 : S150000x1.BroadcastsInDim S150000x2 (![0, 1] : Fin 2 → Fin S150000x2.rank)
  slices_S150000x2_S150000x1_0_0 : S150000x2.Slices ![0, 0] S150000x1
  bcast_S150000x1_S150000x64_0_1 : S150000x1.BroadcastsInDim S150000x64 (![0, 1] : Fin 2 → Fin S150000x64.rank)
  slices_S150000x2_S150000x1_0_1 : S150000x2.Slices ![0, 1] S150000x1
  slices_S150000x64_S100000x64_0_0 : S150000x64.Slices ![0, 0] S100000x64
  slices_S150000x64_S50000x64_100000_0 : S150000x64.Slices ![100000, 0] S50000x64
  bcast_S_S65536 : S_.BroadcastsInDim S65536 (![] : Fin 0 → Fin S65536.rank)
  bcast_S65536_S65536x1_0 : S65536.BroadcastsInDim S65536x1 (![0] : Fin 1 → Fin S65536x1.rank)
  reducesTo_S65536x64_S65536_d1 : S65536x64.ReducesTo [1] S65536
  reducesTo_S65536_S_d0 : S65536.ReducesTo [0] S_
  scatter_S150000_S4000000x1_S4000000_n_0_0_1_wf : ScatterDims.WF S150000 S4000000x1 S4000000 [] [0] [0] 1
  gather_S150000_S4000000x1_S4000000_n_0_n_n_0_1_1_wf : GatherDims.WF S150000 S4000000x1 S4000000 [] [0] [] [0] [] 1 ![1]
  gather_S150000x64_S4000000x1_S4000000x64_1_0_n_n_0_1_164_wf : GatherDims.WF S150000x64 S4000000x1 S4000000x64 [1] [0] [] [0] [] 1 ![1, 64]
  scatter_S150000x64_S4000000x1_S4000000x64_1_0_0_1_wf : ScatterDims.WF S150000x64 S4000000x1 S4000000x64 [1] [0] [0] 1
  dot_S150000x64_S64x64_S150000x64_1_0_0_1_n_n_wf : DotDims.WF S150000x64 S64x64 S150000x64 [1] [0] [0] [1] [] []
  dot_S150000x64_S64x1_S150000x1_1_0_0_1_n_n_wf : DotDims.WF S150000x64 S64x1 S150000x1 [1] [0] [0] [1] [] []
  gather_S100000x64_S65536x1_S65536x64_1_0_n_n_0_1_164_wf : GatherDims.WF S100000x64 S65536x1 S65536x64 [1] [0] [] [0] [] 1 ![1, 64]
  gather_S50000x64_S65536x1_S65536x64_1_0_n_n_0_1_164_wf : GatherDims.WF S50000x64 S65536x1 S65536x64 [1] [0] [] [0] [] 1 ![1, 64]

variable [Facts₀]

def scatter_S150000_S4000000x1_S4000000_n_0_0_1 : ScatterDims S150000 S4000000x1 S4000000 where
  updateWindowDims := []
  insertedWindowDims := [0]
  scatterDimsToOperandDims := [0]
  indexVectorDim := 1
  wf := scatter_S150000_S4000000x1_S4000000_n_0_0_1_wf
def gather_S150000_S4000000x1_S4000000_n_0_n_n_0_1_1 : GatherDims S150000 S4000000x1 S4000000 where
  offsetDims := []
  collapsedSliceDims := [0]
  operandBatchingDims := []
  startIndicesBatchingDims := []
  startIndexMap := [0]
  indexVectorDim := 1
  sliceSizes := ![1]
  wf := gather_S150000_S4000000x1_S4000000_n_0_n_n_0_1_1_wf
def gather_S150000x64_S4000000x1_S4000000x64_1_0_n_n_0_1_164 : GatherDims S150000x64 S4000000x1 S4000000x64 where
  offsetDims := [1]
  collapsedSliceDims := [0]
  operandBatchingDims := []
  startIndicesBatchingDims := []
  startIndexMap := [0]
  indexVectorDim := 1
  sliceSizes := ![1, 64]
  wf := gather_S150000x64_S4000000x1_S4000000x64_1_0_n_n_0_1_164_wf
def scatter_S150000x64_S4000000x1_S4000000x64_1_0_0_1 : ScatterDims S150000x64 S4000000x1 S4000000x64 where
  updateWindowDims := [1]
  insertedWindowDims := [0]
  scatterDimsToOperandDims := [0]
  indexVectorDim := 1
  wf := scatter_S150000x64_S4000000x1_S4000000x64_1_0_0_1_wf
def dot_S150000x64_S64x64_S150000x64_1_0_0_1_n_n : DotDims S150000x64 S64x64 S150000x64 where
  lhsContracting := [1]
  rhsContracting := [0]
  lhsNonContracting := [0]
  rhsNonContracting := [1]
  lhsBatch := []
  rhsBatch := []
  wf := dot_S150000x64_S64x64_S150000x64_1_0_0_1_n_n_wf
def dot_S150000x64_S64x1_S150000x1_1_0_0_1_n_n : DotDims S150000x64 S64x1 S150000x1 where
  lhsContracting := [1]
  rhsContracting := [0]
  lhsNonContracting := [0]
  rhsNonContracting := [1]
  lhsBatch := []
  rhsBatch := []
  wf := dot_S150000x64_S64x1_S150000x1_1_0_0_1_n_n_wf
def gather_S100000x64_S65536x1_S65536x64_1_0_n_n_0_1_164 : GatherDims S100000x64 S65536x1 S65536x64 where
  offsetDims := [1]
  collapsedSliceDims := [0]
  operandBatchingDims := []
  startIndicesBatchingDims := []
  startIndexMap := [0]
  indexVectorDim := 1
  sliceSizes := ![1, 64]
  wf := gather_S100000x64_S65536x1_S65536x64_1_0_n_n_0_1_164_wf
def gather_S50000x64_S65536x1_S65536x64_1_0_n_n_0_1_164 : GatherDims S50000x64 S65536x1 S65536x64 where
  offsetDims := [1]
  collapsedSliceDims := [0]
  operandBatchingDims := []
  startIndicesBatchingDims := []
  startIndexMap := [0]
  indexVectorDim := 1
  sliceSizes := ![1, 64]
  wf := gather_S50000x64_S65536x1_S65536x64_1_0_n_n_0_1_164_wf

class Facts : Prop extends Facts₀ where

variable [Facts]
-- ==== Proof.FrameDefsK.lean ====
/-
  What the fused row-block kernel's launch is described by, at any float instance.

  The program runs three stretches of host operations, then one region over a grid of 30 points, then a
  last stretch of host operations. At a point the region hands the body one 5000-row block of each of
  the two 150000 x 64 streams and the seven small parameter arrays whole, and takes back one 5000-row
  block of the fused output. This module fixes the vocabulary the two halves of the argument share:
  the contents the region finds, a window's block at a point, what the body leaves in the output
  buffer as a function of the nine input blocks, and the data the launch theorem is instantiated with.
-/
import proofs.«174919_j3401614098655_1_alg».proof.Proof.Gen.Kernel.Launch
import proofs.«174919_j3401614098655_1_alg».proof.Proof.Gen.Kernel.Skeleton
import proofs.«174919_j3401614098655_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-! ## The contents the region finds -/

/-- A core's buffer contents when the region is entered: the launch contents carried through the three
    stretches of host operations that precede it (the graph propagation and the reshape of the gate
    vector). -/
abbrev V0 (c : Dev nD) : Valuation τ sig (Elt F) :=
  StableHlo.after (List.flatten [hostOps0, hostOps0_1, hostOps0_2]) (fun b => m (c, b))

/-- The same, read at a reference. -/
abbrev V (c : Dev nD) (b : Ref sig .tc) : Buf (Elt F) ((c : Thread nD τ).loc b) := V0 m c (Proc.devRef .tc b)

/-- Window `w`'s block at grid point `t`, read off its array as the region finds it. -/
def iblk (c : Dev nD) (w : Fin cfg0.W) (t : Fin cfg0.N) :
    ((cfg0.win w).xblock (cfg0.grid.coords t)).Idx → Elt F (cfg0.win w).elt :=
  ((cfg0.win w).blk t).view.read (Elt F) (V m c (Pipeline.arrRef spec0 w))

/-! ## The body's accesses: each buffer is read, and the output written, whole -/

abbrev rBlk : Rect S5000x64 := Rect.unit (s := S5000x64) ![0, 0] S5000x64.size inb_S5000x64_S5000x64_0_0
abbrev rMat : Rect S64x64 := Rect.unit (s := S64x64) ![0, 0] S64x64.size inb_S64x64_S64x64_0_0
abbrev rVec : Rect S64 := Rect.unit (s := S64) ![0] S64.size inb_S64_S64_0

/-- The output buffer after the body, from the nine input blocks: its one store, of the convex
    combination of the propagated block `x1` and the two-layer perceptron of the block `x0`, weighted by
    the logistic of the difference of their two gates. -/
def out0_9 (x0 x1 : Vec F S5000x64 .f32) (x2 : Vec F S64x64 .f32) (x3 : Vec F S64 .f32) (x4 : Vec F S64x64 .f32)
    (x5 : Vec F S64 .f32) (x6 : Vec F S64x64 .f32) (x7 x8 : Vec F S64 .f32) : Vec F S5000x64 .f32 :=
  View.canon [⟨rBlk, k0_pay1
    (k0_pay2 (View.ld x0 rBlk) (View.ld x2 rMat) (View.ld x3 rVec) (View.ld x4 rMat) (View.ld x5 rVec))
    (k0_pay3 (View.ld x1 rBlk)) (k0_pay4 (View.ld x6 rMat)) (View.ld x7 rVec) (k0_pay5 (View.ld x8 rVec))
    (k0_pay6 (View.ld x1 rBlk) (View.ld x6 rMat) (View.ld x7 rVec) (View.ld x8 rVec))⟩]

/-! ## The launch theorem's data -/

/-- On core `c`: the arrays as the region finds them; after the body at point `t` each input buffer
    still at its block and the output buffer at `out0_9` of the nine input blocks; nothing kept between
    points, nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => out0_9 (iblk m c 0 t) (iblk m c 1 t) (iblk m c 2 t) (iblk m c 3 t) (iblk m c 4 t)
        (iblk m c 5 t) (iblk m c 6 t) (iblk m c 7 t) (iblk m c 8 t)
  Φ _ := Pipeline.ΦA spec0 c
  q _ := fullShare
  owed _ := 0

/-- The data's arrays are the region-entry contents, by projection. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t =
    out0_9 (iblk m c 0 t) (iblk m c 1 t) (iblk m c 2 t) (iblk m c 3 t) (iblk m c 4 t)
      (iblk m c 5 t) (iblk m c 6 t) (iblk m c 7 t) (iblk m c 8 t) := by dsimp only [dats]

end Cert.Kernel.Frm

end
-- ==== Proof.FrameRunK.lean ====
/-
  The run of the fused row-block program, and its frame.

  The program is three stretches of host operations, one region over a grid of 30 points, and a last
  stretch of host operations. Every host operation writes exactly one buffer, its own result, and no
  result buffer is an argument of the program; so the arguments reach the region as launched, and the
  seven that bypass the region also leave the last stretch as launched. At a point the region's body
  reads its nine input buffers whole and stores the output buffer whole, which fixes what each staging
  buffer holds after the body; the launch theorem then gives the run, and the frame reads off it.
-/
import proofs.«174919_j3401614098655_1_alg».proof.Proof.FrameDefsK

-- membership in a rectangle of 5000 rows, and lists of eighty operations, recurse past the default depth
set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each stretch of host operations writes -/

/-- An operation whose written set is the one buffer `y` writes within any list of references holding `y`. -/
theorem wsub {W : List (Ref sig .tc)} {op : HloOp τ sig (Elt F)} {y : Ref sig .tc}
    (e : op.writes = {Proc.devRef .tc y}) (h : y ∈ W) :
    op.writes ⊆ (W.map (Proc.devRef (τ := τ) .tc)).toFinset := by
  rw [e, Finset.singleton_subset_iff, List.mem_toFinset]
  exact List.mem_map.mpr ⟨y, h, rfl⟩

/-- A reference outside a list holding everything a stretch writes is written by none of its operations. -/
theorem keeps_of_writes {W : List (Ref sig .tc)} {ops : List (HloOp τ sig (Elt F))}
    (hW : ops.Forall fun op => op.writes ⊆ (W.map (Proc.devRef (τ := τ) .tc)).toFinset) {r : Ref sig .tc} (hr : r ∉ W) :
    ∀ op ∈ ops, Proc.devRef .tc r ∉ op.writes := fun op hop hb => by
  obtain ⟨y, hy, he⟩ := List.mem_map.mp (List.mem_toFinset.mp ((List.forall_iff_forall_mem.mp hW) op hop hb))
  exact hr (Proc.devRef_injective _ he ▸ hy)

/-- The results of the first stretch, in order. -/
abbrev W0 : List (Ref sig .tc) :=
  [main_v0, main_v1, main_v2, main_v3, main_cst, main_v4, main_cst_0, main_v5, main_v6, main_v7, main_cst_1, main_v8, main_v9, main_v10, main_cst_2]
theorem hostOps0_writes : (hostOps0 : List (HloOp τ sig (Elt F))).Forall fun op =>
    op.writes ⊆ (W0.map (Proc.devRef (τ := τ) .tc)).toFinset := by
  unfold hostOps0
  repeat' (first | exact trivial | refine (List.forall_cons _ _ _).mpr ⟨?_, ?_⟩ | exact wsub rfl (by decide))

/-- The results of the second stretch (the inlined selection), in order. -/
abbrev W0_1 : List (Ref sig .tc) :=
  [main_call0_v0, main_call0_v1, main_v11]
theorem hostOps0_1_writes : (hostOps0_1 : List (HloOp τ sig (Elt F))).Forall fun op =>
    op.writes ⊆ (W0_1.map (Proc.devRef (τ := τ) .tc)).toFinset := by
  unfold hostOps0_1
  repeat' (first | exact trivial | refine (List.forall_cons _ _ _).mpr ⟨?_, ?_⟩ | exact wsub rfl (by decide))

/-- The results of the third stretch, in order: its last two are the arrays of windows 1 and 8. -/
abbrev W0_2 : List (Ref sig .tc) :=
  [main_c, main_v12, main_v13, main_c_3, main_v14, main_v15, main_v16, main_v17, main_v18, main_c_4, main_v19, main_v20, main_c_5, main_v21, main_v22, main_v23, main_v24, main_v25, main_v26, main_v27, main_c_6, main_v28, main_v29, main_c_7, main_v30, main_v31, main_v32, main_v33, main_v34, main_v35, main_v36, main_cst_8, main_v37, main_v38, main_v39, main_v40, main_v41, main_c_9, main_v42, main_v43, main_c_10, main_v44, main_v45, main_v46, main_v47, main_v48, main_v49, main_v50, main_cst_11, main_v51, main_v52, main_v53, main_v54, main_v55, main_c_12, main_v56, main_v57, main_c_13, main_v58, main_v59, main_v60, main_v61, main_v62, main_v63, main_v64, main_cst_14, main_v65, main_v66, main_v67, main_v68, main_cst_15, main_v69, main_v70, main_v71]
theorem hostOps0_2_writes : (hostOps0_2 : List (HloOp τ sig (Elt F))).Forall fun op =>
    op.writes ⊆ (W0_2.map (Proc.devRef (τ := τ) .tc)).toFinset := by
  unfold hostOps0_2
  repeat' (first | exact trivial | refine (List.forall_cons _ _ _).mpr ⟨?_, ?_⟩ | exact wsub rfl (by decide))

/-- The results of the stretch after the region, in order. -/
abbrev W1 : List (Ref sig .tc) :=
  [main_v73, main_v74, main_c_16, main_v75, main_v76, main_c_17, main_v77, main_v78, main_v79, main_v80, main_v81, main_c_18, main_v82, main_v83, main_c_19, main_v84, main_v85, main_v86, main_v87, main_v88, main_c_20, main_v89, main_v90, main_c_21, main_v91, main_v92, main_v93, main_v94, main_v95, main_v96, main_cst_22, main_v97, main_v98, main_cst_23, main_v99, main_v100, main_v101, main_v102, main_v103, main_cst_24, main_v104, main_v105, main_cst_25, main_v106, main_v107, main_cst_26, main_v108, main_v109, main_v110, main_cst_27, main_v111, main_cst_28, main_v112, main_v113, main_v114, main_cst_29, main_v115, main_cst_30, main_v116, main_cst_31, main_v117, main_v118, main_cst_32, main_v119, main_cst_33, main_v120, main_cst_34, main_v121, main_v122, main_v123, main_cst_35, main_v124, main_cst_36, main_v125, main_cst_37, main_v126, main_v127, main_cst_38, main_v128, main_v129]
theorem hostOps1_writes : (hostOps1 : List (HloOp τ sig (Elt F))).Forall fun op =>
    op.writes ⊆ (W1.map (Proc.devRef (τ := τ) .tc)).toFinset := by
  unfold hostOps1
  repeat' (first | exact trivial | refine (List.forall_cons _ _ _).mpr ⟨?_, ?_⟩ | exact wsub rfl (by decide))

/-! ## No host operation allocates -/

theorem hostOps0_fresh : (hostOps0 : List (HloOp τ sig (Elt F))).Forall fun op => op.fresh = ∅ := by
  unfold hostOps0
  repeat' (first | exact trivial | refine (List.forall_cons _ _ _).mpr ⟨?_, ?_⟩ | rfl)
theorem hostOps0_1_fresh : (hostOps0_1 : List (HloOp τ sig (Elt F))).Forall fun op => op.fresh = ∅ := by
  unfold hostOps0_1
  repeat' (first | exact trivial | refine (List.forall_cons _ _ _).mpr ⟨?_, ?_⟩ | rfl)
theorem hostOps0_2_fresh : (hostOps0_2 : List (HloOp τ sig (Elt F))).Forall fun op => op.fresh = ∅ := by
  unfold hostOps0_2
  repeat' (first | exact trivial | refine (List.forall_cons _ _ _).mpr ⟨?_, ?_⟩ | rfl)
theorem hostOps1_fresh : (hostOps1 : List (HloOp τ sig (Elt F))).Forall fun op => op.fresh = ∅ := by
  unfold hostOps1
  repeat' (first | exact trivial | refine (List.forall_cons _ _ _).mpr ⟨?_, ?_⟩ | rfl)

variable (m : (ℓ : Loc nD τ sig) → Buf (Elt F) ℓ) (ρ : Dev nD → PrngReg)

/-! ## The program around its region -/

/-- The program is the three stretches, the region, and the last stretch: it reduces to the region
    continued by the last stretch, entered at the contents the three stretches leave. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2] [hostOps1]
    ⟨hostOps0_sub, hostOps0_1_sub, hostOps0_2_sub⟩ ⟨hostOps0_fresh, hostOps0_1_fresh, hostOps0_2_fresh⟩ main_chain

/-- The last stretch touches unscoped buffers only, and with nothing prefetched every unscoped buffer is
    an array of the region or a buffer that bypasses it. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)

/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

/-- And it writes no array of the region: no result of it is one. -/
theorem sfx_keeps : ∀ ops ∈ ([hostOps1] : List (List (HloOp τ sig (Elt F)))), ∀ op ∈ ops,
    ∀ w, Proc.devRef .tc (Pipeline.arrRef spec0 w) ∉ op.writes := by
  intro ops hops op hop w
  simp only [List.mem_cons, List.mem_nil_iff, or_false] at hops
  rcases hops with rfl
  exact keeps_of_writes hostOps1_writes ((by decide : ∀ w : Fin 10, Pipeline.arrRef spec0 w ∉ W1) w) op hop

/-! ## The arguments before and after the region -/

/-- A reference that is no result of the three stretches before the region is written by none of them. -/
theorem pre_keeps {r : Ref sig .tc} (h0 : r ∉ W0) (h1 : r ∉ W0_1) (h2 : r ∉ W0_2) :
    ∀ op ∈ List.flatten [hostOps0, hostOps0_1, (hostOps0_2 : List (HloOp τ sig (Elt F)))],
      Proc.devRef .tc r ∉ op.writes := by
  intro op hop
  obtain ⟨l, hl, hop⟩ := List.mem_flatten.mp hop
  simp only [List.mem_cons, List.mem_nil_iff, or_false] at hl
  rcases hl with rfl | rfl | rfl
  · exact keeps_of_writes hostOps0_writes h0 op hop
  · exact keeps_of_writes hostOps0_1_writes h1 op hop
  · exact keeps_of_writes hostOps0_2_writes h2 op hop

/-- So the region finds it as launched. -/
theorem V_of_not_written (c : Dev nD) {r : Ref sig .tc} (h0 : r ∉ W0) (h1 : r ∉ W0_1) (h2 : r ∉ W0_2) :
    V m c r = m ((c : Thread nD τ).loc r) :=
  StableHlo.after_of_forall_not_mem (b := Proc.devRef .tc r) _ _ (pre_keeps h0 h1 h2)

/-- No host operation before the region writes argument 0. -/
theorem V_main_arg0 (c : Dev nD) : V m c main_arg0 = m ((c : Thread nD τ).loc main_arg0) :=
  V_of_not_written m c (by decide) (by decide) (by decide)
/-- No host operation before the region writes argument 1. -/
theorem V_main_arg1 (c : Dev nD) : V m c main_arg1 = m ((c : Thread nD τ).loc main_arg1) :=
  V_of_not_written m c (by decide) (by decide) (by decide)
/-- No host operation before the region writes argument 2. -/
theorem V_main_arg2 (c : Dev nD) : V m c main_arg2 = m ((c : Thread nD τ).loc main_arg2) :=
  V_of_not_written m c (by decide) (by decide) (by decide)
/-- No host operation before the region writes argument 3. -/
theorem V_main_arg3 (c : Dev nD) : V m c main_arg3 = m ((c : Thread nD τ).loc main_arg3) :=
  V_of_not_written m c (by decide) (by decide) (by decide)
/-- No host operation before the region writes argument 4. -/
theorem V_main_arg4 (c : Dev nD) : V m c main_arg4 = m ((c : Thread nD τ).loc main_arg4) :=
  V_of_not_written m c (by decide) (by decide) (by decide)
/-- No host operation before the region writes argument 5. -/
theorem V_main_arg5 (c : Dev nD) : V m c main_arg5 = m ((c : Thread nD τ).loc main_arg5) :=
  V_of_not_written m c (by decide) (by decide) (by decide)
/-- No host operation before the region writes argument 6. -/
theorem V_main_arg6 (c : Dev nD) : V m c main_arg6 = m ((c : Thread nD τ).loc main_arg6) :=
  V_of_not_written m c (by decide) (by decide) (by decide)
/-- No host operation before the region writes argument 7. -/
theorem V_main_arg7 (c : Dev nD) : V m c main_arg7 = m ((c : Thread nD τ).loc main_arg7) :=
  V_of_not_written m c (by decide) (by decide) (by decide)
/-- No host operation before the region writes argument 8. -/
theorem V_main_arg8 (c : Dev nD) : V m c main_arg8 = m ((c : Thread nD τ).loc main_arg8) :=
  V_of_not_written m c (by decide) (by decide) (by decide)
/-- No host operation before the region writes argument 9. -/
theorem V_main_arg9 (c : Dev nD) : V m c main_arg9 = m ((c : Thread nD τ).loc main_arg9) :=
  V_of_not_written m c (by decide) (by decide) (by decide)
/-- No host operation before the region writes argument 10. -/
theorem V_main_arg10 (c : Dev nD) : V m c main_arg10 = m ((c : Thread nD τ).loc main_arg10) :=
  V_of_not_written m c (by decide) (by decide) (by decide)
/-- No host operation before the region writes argument 11. -/
theorem V_main_arg11 (c : Dev nD) : V m c main_arg11 = m ((c : Thread nD τ).loc main_arg11) :=
  V_of_not_written m c (by decide) (by decide) (by decide)
/-- No host operation before the region writes argument 12. -/
theorem V_main_arg12 (c : Dev nD) : V m c main_arg12 = m ((c : Thread nD τ).loc main_arg12) :=
  V_of_not_written m c (by decide) (by decide) (by decide)
/-- No host operation before the region writes argument 13. -/
theorem V_main_arg13 (c : Dev nD) : V m c main_arg13 = m ((c : Thread nD τ).loc main_arg13) :=
  V_of_not_written m c (by decide) (by decide) (by decide)

/-- A reference that is no result of the last stretch and no array of the region holds after the last
    stretch what the region found in it. -/
theorem W_of_not_written (dats : (p : Fin 1) → (c : Dev nD) → Dat τ (Elt F) Unit ℕ (UR sig nD τ) ℕ (cfgs p) c) (c : Dev nD)
    {r : Ref sig .tc} (h1 : r ∉ W1) (hw : ∀ w, Pipeline.arrRef spec0 w ≠ r) :
    Pipeline.afterTail₀ cfgs dats 0 (V0 m) [hostOps1] c r = V m c r := by
  unfold Pipeline.afterTail₀
  rw [StableHlo.after_of_forall_not_mem (b := Proc.devRef .tc r) _ _ (fun op hop => by
      obtain ⟨l, hl, hop⟩ := List.mem_flatten.mp hop
      simp only [List.mem_cons, List.mem_nil_iff, or_false] at hl
      rcases hl with rfl
      exact keeps_of_writes hostOps1_writes h1 op hop),
    Pipeline.withArrays_of_ne _ c (V0 m c) _ r hw]

/-- Argument 0 bypasses the region and no host operation after it writes it: it ends as launched. -/
theorem W_main_arg0 (dats : (p : Fin 1) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) :=
  (W_of_not_written m dats c (by decide) (by decide)).trans (V_main_arg0 m c)
/-- Argument 8 bypasses the region and no host operation after it writes it: it ends as launched. -/
theorem W_main_arg8 (dats : (p : Fin 1) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) :=
  (W_of_not_written m dats c (by decide) (by decide)).trans (V_main_arg8 m c)
/-- Argument 9 bypasses the region and no host operation after it writes it: it ends as launched. -/
theorem W_main_arg9 (dats : (p : Fin 1) → (c : Dev nD) → Dat τ (Elt F) Unit ℕ (UR sig nD τ) ℕ (cfgs p) c) (c : Dev nD) :
    Pipeline.afterTail₀ cfgs dats 0 (V0 m) [hostOps1] c main_arg9 = m ((c : Thread nD τ).loc main_arg9) :=
  (W_of_not_written m dats c (by decide) (by decide)).trans (V_main_arg9 m c)
/-- Argument 10 bypasses the region and no host operation after it writes it: it ends as launched. -/
theorem W_main_arg10 (dats : (p : Fin 1) → (c : Dev nD) → Dat τ (Elt F) Unit ℕ (UR sig nD τ) ℕ (cfgs p) c) (c : Dev nD) :
    Pipeline.afterTail₀ cfgs dats 0 (V0 m) [hostOps1] c main_arg10 = m ((c : Thread nD τ).loc main_arg10) :=
  (W_of_not_written m dats c (by decide) (by decide)).trans (V_main_arg10 m c)
/-- Argument 11 bypasses the region and no host operation after it writes it: it ends as launched. -/
theorem W_main_arg11 (dats : (p : Fin 1) → (c : Dev nD) → Dat τ (Elt F) Unit ℕ (UR sig nD τ) ℕ (cfgs p) c) (c : Dev nD) :
    Pipeline.afterTail₀ cfgs dats 0 (V0 m) [hostOps1] c main_arg11 = m ((c : Thread nD τ).loc main_arg11) :=
  (W_of_not_written m dats c (by decide) (by decide)).trans (V_main_arg11 m c)
/-- Argument 12 bypasses the region and no host operation after it writes it: it ends as launched. -/
theorem W_main_arg12 (dats : (p : Fin 1) → (c : Dev nD) → Dat τ (Elt F) Unit ℕ (UR sig nD τ) ℕ (cfgs p) c) (c : Dev nD) :
    Pipeline.afterTail₀ cfgs dats 0 (V0 m) [hostOps1] c main_arg12 = m ((c : Thread nD τ).loc main_arg12) :=
  (W_of_not_written m dats c (by decide) (by decide)).trans (V_main_arg12 m c)
/-- Argument 13 bypasses the region and no host operation after it writes it: it ends as launched. -/
theorem W_main_arg13 (dats : (p : Fin 1) → (c : Dev nD) → Dat τ (Elt F) Unit ℕ (UR sig nD τ) ℕ (cfgs p) c) (c : Dev nD) :
    Pipeline.afterTail₀ cfgs dats 0 (V0 m) [hostOps1] c main_arg13 = m ((c : Thread nD τ).loc main_arg13) :=
  (W_of_not_written m dats c (by decide) (by decide)).trans (V_main_arg13 m c)

/-! ## Each input buffer holds its block -/

/-- Input window 0's current staging buffer holds its block at every point, fetched there or not, for any
    launch data whose array is the region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_0 (c : Dev nD) (t : Fin cfg0.N) (d) : (dats m 0 c).before 0 t d = iblk m c 0 t :=
  before0_0_of m (dats m 0 c) (A_eq m c 0) (after0_0 m c) t d

/-- Input window 1's current staging buffer holds its block at every point, fetched there or not, for any
    launch data whose array is the region-entry contents and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_1 (c : Dev nD) (t : Fin cfg0.N) (d) : (dats m 0 c).before 1 t d = iblk m c 1 t :=
  before0_1_of m (dats m 0 c) (A_eq m c 1) (after0_1 m c) t d

/-- Input window 2's current staging buffer holds its block at every point, fetched there or not, for any
    launch data whose array is the region-entry contents and whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_2 (c : Dev nD) (t : Fin cfg0.N) (d) : (dats m 0 c).before 2 t d = iblk m c 2 t :=
  before0_2_of m (dats m 0 c) (A_eq m c 2) (after0_2 m c) t d

/-- Input window 3's current staging buffer holds its block at every point, fetched there or not, for any
    launch data whose array is the region-entry contents and whose body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_3 (c : Dev nD) (t : Fin cfg0.N) (d) : (dats m 0 c).before 3 t d = iblk m c 3 t :=
  before0_3_of m (dats m 0 c) (A_eq m c 3) (after0_3 m c) t d

/-- Input window 4's current staging buffer holds its block at every point, fetched there or not, for any
    launch data whose array is the region-entry contents and whose body leaves the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_4 (c : Dev nD) (t : Fin cfg0.N) (d) : (dats m 0 c).before 4 t d = iblk m c 4 t :=
  before0_4_of m (dats m 0 c) (A_eq m c 4) (after0_4 m c) t d

/-- Input window 5's current staging buffer holds its block at every point, fetched there or not, for any
    launch data whose array is the region-entry contents and whose body leaves the block in place. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_5 (c : Dev nD) (t : Fin cfg0.N) (d) : (dats m 0 c).before 5 t d = iblk m c 5 t :=
  before0_5_of m (dats m 0 c) (A_eq m c 5) (after0_5 m c) t d

/-- Input window 6's current staging buffer holds its block at every point, fetched there or not, for any
    launch data whose array is the region-entry contents and whose body leaves the block in place. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_6 (c : Dev nD) (t : Fin cfg0.N) (d) : (dats m 0 c).before 6 t d = iblk m c 6 t :=
  before0_6_of m (dats m 0 c) (A_eq m c 6) (after0_6 m c) t d

/-- Input window 7's current staging buffer holds its block at every point, fetched there or not, for any
    launch data whose array is the region-entry contents and whose body leaves the block in place. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_7 (c : Dev nD) (t : Fin cfg0.N) (d) : (dats m 0 c).before 7 t d = iblk m c 7 t :=
  before0_7_of m (dats m 0 c) (A_eq m c 7) (after0_7 m c) t d

/-- Input window 8's current staging buffer holds its block at every point, fetched there or not, for any
    launch data whose array is the region-entry contents and whose body leaves the block in place. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before0_8 (c : Dev nD) (t : Fin cfg0.N) (d) : (dats m 0 c).before 8 t d = iblk m c 8 t :=
  before0_8_of m (dats m 0 c) (A_eq m c 8) (after0_8 m c) t d

/-! ## The body's triple -/

/-- The one store covers the output buffer: it is the whole buffer. -/
theorem cover0_9 (p0 : Vec F S5000x64 .f32) (y : S5000x64.Idx) :
    ∃ pc ∈ ([⟨rBlk, p0⟩] : List (View.Piece (Elt F) S5000x64 .f32)), y ∈ pc.1.set :=
  View.cover_of_tiled [⟨rBlk, p0⟩] S5000x64.size (by rfl) y

set_option maxHeartbeats 4000000 in
/-- The body on whole staging buffers, the nine inputs' reading `x0 … x8` and the output's holding anything, runs
    to the continuation with the inputs' as they were and the output's reading `out0_9` of them: nine whole loads,
    a load of the output buffer whose value is unused, and one whole store of the fused block. -/
theorem sound_kernel (c : Dev nD) (E : Set ℕ) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S64 .f32) (harg4 : arg4.IsWhole) (arg5 : Memref sig .tc .vmem S64x64 .f32) (harg5 : arg5.IsWhole) (arg6 : Memref sig .tc .vmem S64 .f32) (harg6 : arg6.IsWhole) (arg7 : Memref sig .tc .vmem S64x64 .f32) (harg7 : arg7.IsWhole) (arg8 : Memref sig .tc .vmem S64 .f32) (harg8 : arg8.IsWhole) (arg9 : Memref sig .tc .vmem S64 .f32) (harg9 : arg9.IsWhole) (arg10 : Memref sig .tc .vmem S5000x64 .f32) (harg10 : arg10.IsWhole)
    (x0 : Vec F S5000x64 .f32) (x1 : Vec F S5000x64 .f32) (x2 : Vec F S64x64 .f32) (x3 : Vec F S64 .f32) (x4 : Vec F S64x64 .f32) (x5 : Vec F S64 .f32) (x6 : Vec F S64x64 .f32) (x7 : Vec F S64 .f32) (x8 : Vec F S64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out0_9 x0 x1 x2 x3 x4 x5 x6 x7 x8)) -∗ K ⟨⟩))
      ⊢ wp frame (wpE (defs₀ (F := F)) Variants.none c none) E (cc0__fusion_kernel i arg1 harg1 arg2 harg2 arg3 harg3 arg4 harg4 arg5 harg5 arg6 harg6 arg7 harg7 arg8 harg8 arg9 harg9 arg10 harg10) K := by
  simp only [cc0__fusion_kernel_eq_skeleton]; unfold cc0__fusion_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0; subst hf1; subst hf2; subst hf3; subst hf4; subst hf5; subst hf6; subst hf7; subst hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover0_9 _)

/-! ## The launch theorem's body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

set_option maxHeartbeats 1000000 in
/-- The body at any point: each input buffer holds its block, so the body's triple applies; the invariant and the
    core's obligations pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ (grid0.coords t) _ _ _ _ _ _ _ _ _ _ _ _ _ _ _ _ _ _ _ _
    (iblk m c 0 t) (iblk m c 1 t) (iblk m c 2 t) (iblk m c 3 t) (iblk m c 4 t) (iblk m c 5 t) (iblk m c 6 t) (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The launch theorem's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the launch theorem's implicit arguments are found by unifying its conclusion with this one, which takes unfolding
-- plain definitions in the type of an unknown
set_option backward.isDefEq.respectTransparency.types false in
/-- For any values, from any memory with zero counters: every weakly fair execution of the program on the TensorCore
    terminates, and every final state has every array of the region at what the launch data compute and every other
    unscoped buffer as the last stretch leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame from a run: an argument a window stages is an input array, which the region never writes back and which
    the region found as launched; an argument that bypasses the region is written by no host operation at all. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨((h c).2 main_arg0 (Pipeline.mem_restRefs_of main_arg0 (by decide) (by decide))).trans (W_main_arg0 m dats c),
      ((h c).1 0).trans (((dats 0 c).arrAt_in 0 rfl _).trans ((hA c 0).trans (V_main_arg1 m c))),
      ((h c).1 2).trans (((dats 0 c).arrAt_in 2 rfl _).trans ((hA c 2).trans (V_main_arg2 m c))),
      ((h c).1 3).trans (((dats 0 c).arrAt_in 3 rfl _).trans ((hA c 3).trans (V_main_arg3 m c))),
      ((h c).1 4).trans (((dats 0 c).arrAt_in 4 rfl _).trans ((hA c 4).trans (V_main_arg4 m c))),
      ((h c).1 5).trans (((dats 0 c).arrAt_in 5 rfl _).trans ((hA c 5).trans (V_main_arg5 m c))),
      ((h c).1 6).trans (((dats 0 c).arrAt_in 6 rfl _).trans ((hA c 6).trans (V_main_arg6 m c))),
      ((h c).1 7).trans (((dats 0 c).arrAt_in 7 rfl _).trans ((hA c 7).trans (V_main_arg7 m c))),
      ((h c).2 main_arg8 (Pipeline.mem_restRefs_of main_arg8 (by decide) (by decide))).trans (W_main_arg8 m dats c),
      ((h c).2 main_arg9 (Pipeline.mem_restRefs_of main_arg9 (by decide) (by decide))).trans (W_main_arg9 m dats c),
      ((h c).2 main_arg10 (Pipeline.mem_restRefs_of main_arg10 (by decide) (by decide))).trans (W_main_arg10 m dats c),
      ((h c).2 main_arg11 (Pipeline.mem_restRefs_of main_arg11 (by decide) (by decide))).trans (W_main_arg11 m dats c),
      ((h c).2 main_arg12 (Pipeline.mem_restRefs_of main_arg12 (by decide) (by decide))).trans (W_main_arg12 m dats c),
      ((h c).2 main_arg13 (Pipeline.mem_restRefs_of main_arg13 (by decide) (by decide))).trans (W_main_arg13 m dats c)⟩) h

/-- The program runs and its fourteen argument arrays end unchanged, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  frame_of m ρ (dats m) (A_eq m) (run_main m ρ)

end Cert.Kernel.Frm

end
-- ==== Proof.FrameDefsKI.lean ====
/-
  What the fused row-block kernel's launch is described by, at any float instance.

  The program runs three stretches of host operations, then one region over a grid of 30 points, then a
  last stretch of host operations. At a point the region hands the body one 5000-row block of each of
  the two 150000 x 64 streams and the seven small parameter arrays whole, and takes back one 5000-row
  block of the fused output. This module fixes the vocabulary the two halves of the argument share:
  the contents the region finds, a window's block at a point, what the body leaves in the output
  buffer as a function of the nine input blocks, and the data the launch theorem is instantiated with.
-/
import proofs.«174919_j3401614098655_1_alg».proof.Proof.Gen.KernelIdeal.Launch
import proofs.«174919_j3401614098655_1_alg».proof.Proof.Gen.KernelIdeal.Skeleton
import proofs.«174919_j3401614098655_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-! ## The contents the region finds -/

/-- A core's buffer contents when the region is entered: the launch contents carried through the three
    stretches of host operations that precede it (the graph propagation and the reshape of the gate
    vector). -/
abbrev V0 (c : Dev nD) : Valuation τ sig (Elt F) :=
  StableHlo.after (List.flatten [hostOps0, hostOps0_1, hostOps0_2]) (fun b => m (c, b))

/-- The same, read at a reference. -/
abbrev V (c : Dev nD) (b : Ref sig .tc) : Buf (Elt F) ((c : Thread nD τ).loc b) := V0 m c (Proc.devRef .tc b)

/-- Window `w`'s block at grid point `t`, read off its array as the region finds it. -/
def iblk (c : Dev nD) (w : Fin cfg0.W) (t : Fin cfg0.N) :
    ((cfg0.win w).xblock (cfg0.grid.coords t)).Idx → Elt F (cfg0.win w).elt :=
  ((cfg0.win w).blk t).view.read (Elt F) (V m c (Pipeline.arrRef spec0 w))

/-! ## The body's accesses: each buffer is read, and the output written, whole -/

abbrev rBlk : Rect S5000x64 := Rect.unit (s := S5000x64) ![0, 0] S5000x64.size inb_S5000x64_S5000x64_0_0
abbrev rMat : Rect S64x64 := Rect.unit (s := S64x64) ![0, 0] S64x64.size inb_S64x64_S64x64_0_0
abbrev rVec : Rect S64 := Rect.unit (s := S64) ![0] S64.size inb_S64_S64_0

/-- The output buffer after the body, from the nine input blocks: its one store, of the convex
    combination of the propagated block `x1` and the two-layer perceptron of the block `x0`, weighted by
    the logistic of the difference of their two gates. -/
def out0_9 (x0 x1 : Vec F S5000x64 .f32) (x2 : Vec F S64x64 .f32) (x3 : Vec F S64 .f32) (x4 : Vec F S64x64 .f32)
    (x5 : Vec F S64 .f32) (x6 : Vec F S64x64 .f32) (x7 x8 : Vec F S64 .f32) : Vec F S5000x64 .f32 :=
  View.canon [⟨rBlk, k0_pay1
    (k0_pay2 (View.ld x0 rBlk) (View.ld x2 rMat) (View.ld x3 rVec) (View.ld x4 rMat) (View.ld x5 rVec))
    (k0_pay3 (View.ld x1 rBlk)) (k0_pay4 (View.ld x6 rMat)) (View.ld x7 rVec) (k0_pay5 (View.ld x8 rVec))
    (k0_pay6 (View.ld x1 rBlk) (View.ld x6 rMat) (View.ld x7 rVec) (View.ld x8 rVec))⟩]

/-! ## The launch theorem's data -/

/-- On core `c`: the arrays as the region finds them; after the body at point `t` each input buffer
    still at its block and the output buffer at `out0_9` of the nine input blocks; nothing kept between
    points, nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => out0_9 (iblk m c 0 t) (iblk m c 1 t) (iblk m c 2 t) (iblk m c 3 t) (iblk m c 4 t)
        (iblk m c 5 t) (iblk m c 6 t) (iblk m c 7 t) (iblk m c 8 t)
  Φ _ := Pipeline.ΦA spec0 c
  q _ := fullShare
  owed _ := 0

/-- The data's arrays are the region-entry contents, by projection. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t =
    out0_9 (iblk m c 0 t) (iblk m c 1 t) (iblk m c 2 t) (iblk m c 3 t) (iblk m c 4 t)
      (iblk m c 5 t) (iblk m c 6 t) (iblk m c 7 t) (iblk m c 8 t) := by dsimp only [dats]

end Cert.KernelIdeal.Frm

end
-- ==== Proof.FrameRunKI.lean ====
/-
  The run of the fused row-block program, and its frame.

  The program is three stretches of host operations, one region over a grid of 30 points, and a last
  stretch of host operations. Every host operation writes exactly one buffer, its own result, and no
  result buffer is an argument of the program; so the arguments reach the region as launched, and the
  seven that bypass the region also leave the last stretch as launched. At a point the region's body
  reads its nine input buffers whole and stores the output buffer whole, which fixes what each staging
  buffer holds after the body; the launch theorem then gives the run, and the frame reads off it.
-/
import proofs.«174919_j3401614098655_1_alg».proof.Proof.FrameDefsKI

-- membership in a rectangle of 5000 rows, and lists of eighty operations, recurse past the default depth
set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each stretch of host operations writes -/

/-- An operation whose written set is the one buffer `y` writes within any list of references holding `y`. -/
theorem wsub {W : List (Ref sig .tc)} {op : HloOp τ sig (Elt F)} {y : Ref sig .tc}
    (e : op.writes = {Proc.devRef .tc y}) (h : y ∈ W) :
    op.writes ⊆ (W.map (Proc.devRef (τ := τ) .tc)).toFinset := by
  rw [e, Finset.singleton_subset_iff, List.mem_toFinset]
  exact List.mem_map.mpr ⟨y, h, rfl⟩

/-- A reference outside a list holding everything a stretch writes is written by none of its operations. -/
theorem keeps_of_writes {W : List (Ref sig .tc)} {ops : List (HloOp τ sig (Elt F))}
    (hW : ops.Forall fun op => op.writes ⊆ (W.map (Proc.devRef (τ := τ) .tc)).toFinset) {r : Ref sig .tc} (hr : r ∉ W) :
    ∀ op ∈ ops, Proc.devRef .tc r ∉ op.writes := fun op hop hb => by
  obtain ⟨y, hy, he⟩ := List.mem_map.mp (List.mem_toFinset.mp ((List.forall_iff_forall_mem.mp hW) op hop hb))
  exact hr (Proc.devRef_injective _ he ▸ hy)

/-- The results of the first stretch, in order. -/
abbrev W0 : List (Ref sig .tc) :=
  [main_v0, main_v1, main_v2, main_v3, main_cst, main_v4, main_cst_0, main_v5, main_v6, main_v7, main_cst_1, main_v8, main_v9, main_v10, main_cst_2]
theorem hostOps0_writes : (hostOps0 : List (HloOp τ sig (Elt F))).Forall fun op =>
    op.writes ⊆ (W0.map (Proc.devRef (τ := τ) .tc)).toFinset := by
  unfold hostOps0
  repeat' (first | exact trivial | refine (List.forall_cons _ _ _).mpr ⟨?_, ?_⟩ | exact wsub rfl (by decide))

/-- The results of the second stretch (the inlined selection), in order. -/
abbrev W0_1 : List (Ref sig .tc) :=
  [main_call0_v0, main_call0_v1, main_v11]
theorem hostOps0_1_writes : (hostOps0_1 : List (HloOp τ sig (Elt F))).Forall fun op =>
    op.writes ⊆ (W0_1.map (Proc.devRef (τ := τ) .tc)).toFinset := by
  unfold hostOps0_1
  repeat' (first | exact trivial | refine (List.forall_cons _ _ _).mpr ⟨?_, ?_⟩ | exact wsub rfl (by decide))

/-- The results of the third stretch, in order: its last two are the arrays of windows 1 and 8. -/
abbrev W0_2 : List (Ref sig .tc) :=
  [main_c, main_v12, main_v13, main_c_3, main_v14, main_v15, main_v16, main_v17, main_v18, main_c_4, main_v19, main_v20, main_c_5, main_v21, main_v22, main_v23, main_v24, main_v25, main_v26, main_v27, main_c_6, main_v28, main_v29, main_c_7, main_v30, main_v31, main_v32, main_v33, main_v34, main_v35, main_v36, main_cst_8, main_v37, main_v38, main_v39, main_v40, main_v41, main_c_9, main_v42, main_v43, main_c_10, main_v44, main_v45, main_v46, main_v47, main_v48, main_v49, main_v50, main_cst_11, main_v51, main_v52, main_v53, main_v54, main_v55, main_c_12, main_v56, main_v57, main_c_13, main_v58, main_v59, main_v60, main_v61, main_v62, main_v63, main_v64, main_cst_14, main_v65, main_v66, main_v67, main_v68, main_cst_15, main_v69, main_v70, main_v71]
theorem hostOps0_2_writes : (hostOps0_2 : List (HloOp τ sig (Elt F))).Forall fun op =>
    op.writes ⊆ (W0_2.map (Proc.devRef (τ := τ) .tc)).toFinset := by
  unfold hostOps0_2
  repeat' (first | exact trivial | refine (List.forall_cons _ _ _).mpr ⟨?_, ?_⟩ | exact wsub rfl (by decide))

/-- The results of the stretch after the region, in order. -/
abbrev W1 : List (Ref sig .tc) :=
  [main_v73, main_v74, main_c_16, main_v75, main_v76, main_c_17, main_v77, main_v78, main_v79, main_v80, main_v81, main_c_18, main_v82, main_v83, main_c_19, main_v84, main_v85, main_v86, main_v87, main_v88, main_c_20, main_v89, main_v90, main_c_21, main_v91, main_v92, main_v93, main_v94, main_v95, main_v96, main_cst_22, main_v97, main_v98, main_cst_23, main_v99, main_v100, main_v101, main_v102, main_v103, main_cst_24, main_v104, main_v105, main_cst_25, main_v106, main_v107, main_cst_26, main_v108, main_v109, main_v110, main_cst_27, main_v111, main_cst_28, main_v112, main_v113, main_v114, main_cst_29, main_v115, main_cst_30, main_v116, main_cst_31, main_v117, main_v118, main_cst_32, main_v119, main_cst_33, main_v120, main_cst_34, main_v121, main_v122, main_v123, main_cst_35, main_v124, main_cst_36, main_v125, main_cst_37, main_v126, main_v127, main_cst_38, main_v128, main_v129]
theorem hostOps1_writes : (hostOps1 : List (HloOp τ sig (Elt F))).Forall fun op =>
    op.writes ⊆ (W1.map (Proc.devRef (τ := τ) .tc)).toFinset := by
  unfold hostOps1
  repeat' (first | exact trivial | refine (List.forall_cons _ _ _).mpr ⟨?_, ?_⟩ | exact wsub rfl (by decide))

/-! ## No host operation allocates -/

theorem hostOps0_fresh : (hostOps0 : List (HloOp τ sig (Elt F))).Forall fun op => op.fresh = ∅ := by
  unfold hostOps0
  repeat' (first | exact trivial | refine (List.forall_cons _ _ _).mpr ⟨?_, ?_⟩ | rfl)
theorem hostOps0_1_fresh : (hostOps0_1 : List (HloOp τ sig (Elt F))).Forall fun op => op.fresh = ∅ := by
  unfold hostOps0_1
  repeat' (first | exact trivial | refine (List.forall_cons _ _ _).mpr ⟨?_, ?_⟩ | rfl)
theorem hostOps0_2_fresh : (hostOps0_2 : List (HloOp τ sig (Elt F))).Forall fun op => op.fresh = ∅ := by
  unfold hostOps0_2
  repeat' (first | exact trivial | refine (List.forall_cons _ _ _).mpr ⟨?_, ?_⟩ | rfl)
theorem hostOps1_fresh : (hostOps1 : List (HloOp τ sig (Elt F))).Forall fun op => op.fresh = ∅ := by
  unfold hostOps1
  repeat' (first | exact trivial | refine (List.forall_cons _ _ _).mpr ⟨?_, ?_⟩ | rfl)

variable (m : (ℓ : Loc nD τ sig) → Buf (Elt F) ℓ) (ρ : Dev nD → PrngReg)

/-! ## The program around its region -/

/-- The program is the three stretches, the region, and the last stretch: it reduces to the region
    continued by the last stretch, entered at the contents the three stretches leave. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2] [hostOps1]
    ⟨hostOps0_sub, hostOps0_1_sub, hostOps0_2_sub⟩ ⟨hostOps0_fresh, hostOps0_1_fresh, hostOps0_2_fresh⟩ main_chain

/-- The last stretch touches unscoped buffers only, and with nothing prefetched every unscoped buffer is
    an array of the region or a buffer that bypasses it. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)

/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

/-- And it writes no array of the region: no result of it is one. -/
theorem sfx_keeps : ∀ ops ∈ ([hostOps1] : List (List (HloOp τ sig (Elt F)))), ∀ op ∈ ops,
    ∀ w, Proc.devRef .tc (Pipeline.arrRef spec0 w) ∉ op.writes := by
  intro ops hops op hop w
  simp only [List.mem_cons, List.mem_nil_iff, or_false] at hops
  rcases hops with rfl
  exact keeps_of_writes hostOps1_writes ((by decide : ∀ w : Fin 10, Pipeline.arrRef spec0 w ∉ W1) w) op hop

/-! ## The arguments before and after the region -/

/-- A reference that is no result of the three stretches before the region is written by none of them. -/
theorem pre_keeps {r : Ref sig .tc} (h0 : r ∉ W0) (h1 : r ∉ W0_1) (h2 : r ∉ W0_2) :
    ∀ op ∈ List.flatten [hostOps0, hostOps0_1, (hostOps0_2 : List (HloOp τ sig (Elt F)))],
      Proc.devRef .tc r ∉ op.writes := by
  intro op hop
  obtain ⟨l, hl, hop⟩ := List.mem_flatten.mp hop
  simp only [List.mem_cons, List.mem_nil_iff, or_false] at hl
  rcases hl with rfl | rfl | rfl
  · exact keeps_of_writes hostOps0_writes h0 op hop
  · exact keeps_of_writes hostOps0_1_writes h1 op hop
  · exact keeps_of_writes hostOps0_2_writes h2 op hop

/-- So the region finds it as launched. -/
theorem V_of_not_written (c : Dev nD) {r : Ref sig .tc} (h0 : r ∉ W0) (h1 : r ∉ W0_1) (h2 : r ∉ W0_2) :
    V m c r = m ((c : Thread nD τ).loc r) :=
  StableHlo.after_of_forall_not_mem (b := Proc.devRef .tc r) _ _ (pre_keeps h0 h1 h2)

/-- No host operation before the region writes argument 0. -/
theorem V_main_arg0 (c : Dev nD) : V m c main_arg0 = m ((c : Thread nD τ).loc main_arg0) :=
  V_of_not_written m c (by decide) (by decide) (by decide)
/-- No host operation before the region writes argument 1. -/
theorem V_main_arg1 (c : Dev nD) : V m c main_arg1 = m ((c : Thread nD τ).loc main_arg1) :=
  V_of_not_written m c (by decide) (by decide) (by decide)
/-- No host operation before the region writes argument 2. -/
theorem V_main_arg2 (c : Dev nD) : V m c main_arg2 = m ((c : Thread nD τ).loc main_arg2) :=
  V_of_not_written m c (by decide) (by decide) (by decide)
/-- No host operation before the region writes argument 3. -/
theorem V_main_arg3 (c : Dev nD) : V m c main_arg3 = m ((c : Thread nD τ).loc main_arg3) :=
  V_of_not_written m c (by decide) (by decide) (by decide)
/-- No host operation before the region writes argument 4. -/
theorem V_main_arg4 (c : Dev nD) : V m c main_arg4 = m ((c : Thread nD τ).loc main_arg4) :=
  V_of_not_written m c (by decide) (by decide) (by decide)
/-- No host operation before the region writes argument 5. -/
theorem V_main_arg5 (c : Dev nD) : V m c main_arg5 = m ((c : Thread nD τ).loc main_arg5) :=
  V_of_not_written m c (by decide) (by decide) (by decide)
/-- No host operation before the region writes argument 6. -/
theorem V_main_arg6 (c : Dev nD) : V m c main_arg6 = m ((c : Thread nD τ).loc main_arg6) :=
  V_of_not_written m c (by decide) (by decide) (by decide)
/-- No host operation before the region writes argument 7. -/
theorem V_main_arg7 (c : Dev nD) : V m c main_arg7 = m ((c : Thread nD τ).loc main_arg7) :=
  V_of_not_written m c (by decide) (by decide) (by decide)
/-- No host operation before the region writes argument 8. -/
theorem V_main_arg8 (c : Dev nD) : V m c main_arg8 = m ((c : Thread nD τ).loc main_arg8) :=
  V_of_not_written m c (by decide) (by decide) (by decide)
/-- No host operation before the region writes argument 9. -/
theorem V_main_arg9 (c : Dev nD) : V m c main_arg9 = m ((c : Thread nD τ).loc main_arg9) :=
  V_of_not_written m c (by decide) (by decide) (by decide)
/-- No host operation before the region writes argument 10. -/
theorem V_main_arg10 (c : Dev nD) : V m c main_arg10 = m ((c : Thread nD τ).loc main_arg10) :=
  V_of_not_written m c (by decide) (by decide) (by decide)
/-- No host operation before the region writes argument 11. -/
theorem V_main_arg11 (c : Dev nD) : V m c main_arg11 = m ((c : Thread nD τ).loc main_arg11) :=
  V_of_not_written m c (by decide) (by decide) (by decide)
/-- No host operation before the region writes argument 12. -/
theorem V_main_arg12 (c : Dev nD) : V m c main_arg12 = m ((c : Thread nD τ).loc main_arg12) :=
  V_of_not_written m c (by decide) (by decide) (by decide)
/-- No host operation before the region writes argument 13. -/
theorem V_main_arg13 (c : Dev nD) : V m c main_arg13 = m ((c : Thread nD τ).loc main_arg13) :=
  V_of_not_written m c (by decide) (by decide) (by decide)

/-- A reference that is no result of the last stretch and no array of the region holds after the last
    stretch what the region found in it. -/
theorem W_of_not_written (dats : (p : Fin 1) → (c : Dev nD) → Dat τ (Elt F) Unit ℕ (UR sig nD τ) ℕ (cfgs p) c) (c : Dev nD)
    {r : Ref sig .tc} (h1 : r ∉ W1) (hw : ∀ w, Pipeline.arrRef spec0 w ≠ r) :
    Pipeline.afterTail₀ cfgs dats 0 (V0 m) [hostOps1] c r = V m c r := by
  unfold Pipeline.afterTail₀
  rw [StableHlo.after_of_forall_not_mem (b := Proc.devRef .tc r) _ _ (fun op hop => by
      obtain ⟨l, hl, hop⟩ := List.mem_flatten.mp hop
      simp only [List.mem_cons, List.mem_nil_iff, or_false] at hl
      rcases hl with rfl
      exact keeps_of_writes hostOps1_writes h1 op hop),
    Pipeline.withArrays_of_ne _ c (V0 m c) _ r hw]

/-- Argument 0 bypasses the region and no host operation after it writes it: it ends as launched. -/
theorem W_main_arg0 (dats : (p : Fin 1) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) :=
  (W_of_not_written m dats c (by decide) (by decide)).trans (V_main_arg0 m c)
/-- Argument 8 bypasses the region and no host operation after it writes it: it ends as launched. -/
theorem W_main_arg8 (dats : (p : Fin 1) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) :=
  (W_of_not_written m dats c (by decide) (by decide)).trans (V_main_arg8 m c)
/-- Argument 9 bypasses the region and no host operation after it writes it: it ends as launched. -/
theorem W_main_arg9 (dats : (p : Fin 1) → (c : Dev nD) → Dat τ (Elt F) Unit ℕ (UR sig nD τ) ℕ (cfgs p) c) (c : Dev nD) :
    Pipeline.afterTail₀ cfgs dats 0 (V0 m) [hostOps1] c main_arg9 = m ((c : Thread nD τ).loc main_arg9) :=
  (W_of_not_written m dats c (by decide) (by decide)).trans (V_main_arg9 m c)
/-- Argument 10 bypasses the region and no host operation after it writes it: it ends as launched. -/
theorem W_main_arg10 (dats : (p : Fin 1) → (c : Dev nD) → Dat τ (Elt F) Unit ℕ (UR sig nD τ) ℕ (cfgs p) c) (c : Dev nD) :
    Pipeline.afterTail₀ cfgs dats 0 (V0 m) [hostOps1] c main_arg10 = m ((c : Thread nD τ).loc main_arg10) :=
  (W_of_not_written m dats c (by decide) (by decide)).trans (V_main_arg10 m c)
/-- Argument 11 bypasses the region and no host operation after it writes it: it ends as launched. -/
theorem W_main_arg11 (dats : (p : Fin 1) → (c : Dev nD) → Dat τ (Elt F) Unit ℕ (UR sig nD τ) ℕ (cfgs p) c) (c : Dev nD) :
    Pipeline.afterTail₀ cfgs dats 0 (V0 m) [hostOps1] c main_arg11 = m ((c : Thread nD τ).loc main_arg11) :=
  (W_of_not_written m dats c (by decide) (by decide)).trans (V_main_arg11 m c)
/-- Argument 12 bypasses the region and no host operation after it writes it: it ends as launched. -/
theorem W_main_arg12 (dats : (p : Fin 1) → (c : Dev nD) → Dat τ (Elt F) Unit ℕ (UR sig nD τ) ℕ (cfgs p) c) (c : Dev nD) :
    Pipeline.afterTail₀ cfgs dats 0 (V0 m) [hostOps1] c main_arg12 = m ((c : Thread nD τ).loc main_arg12) :=
  (W_of_not_written m dats c (by decide) (by decide)).trans (V_main_arg12 m c)
/-- Argument 13 bypasses the region and no host operation after it writes it: it ends as launched. -/
theorem W_main_arg13 (dats : (p : Fin 1) → (c : Dev nD) → Dat τ (Elt F) Unit ℕ (UR sig nD τ) ℕ (cfgs p) c) (c : Dev nD) :
    Pipeline.afterTail₀ cfgs dats 0 (V0 m) [hostOps1] c main_arg13 = m ((c : Thread nD τ).loc main_arg13) :=
  (W_of_not_written m dats c (by decide) (by decide)).trans (V_main_arg13 m c)

/-! ## Each input buffer holds its block -/

/-- Input window 0's current staging buffer holds its block at every point, fetched there or not, for any
    launch data whose array is the region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_0 (c : Dev nD) (t : Fin cfg0.N) (d) : (dats m 0 c).before 0 t d = iblk m c 0 t :=
  before0_0_of m (dats m 0 c) (A_eq m c 0) (after0_0 m c) t d

/-- Input window 1's current staging buffer holds its block at every point, fetched there or not, for any
    launch data whose array is the region-entry contents and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_1 (c : Dev nD) (t : Fin cfg0.N) (d) : (dats m 0 c).before 1 t d = iblk m c 1 t :=
  before0_1_of m (dats m 0 c) (A_eq m c 1) (after0_1 m c) t d

/-- Input window 2's current staging buffer holds its block at every point, fetched there or not, for any
    launch data whose array is the region-entry contents and whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_2 (c : Dev nD) (t : Fin cfg0.N) (d) : (dats m 0 c).before 2 t d = iblk m c 2 t :=
  before0_2_of m (dats m 0 c) (A_eq m c 2) (after0_2 m c) t d

/-- Input window 3's current staging buffer holds its block at every point, fetched there or not, for any
    launch data whose array is the region-entry contents and whose body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_3 (c : Dev nD) (t : Fin cfg0.N) (d) : (dats m 0 c).before 3 t d = iblk m c 3 t :=
  before0_3_of m (dats m 0 c) (A_eq m c 3) (after0_3 m c) t d

/-- Input window 4's current staging buffer holds its block at every point, fetched there or not, for any
    launch data whose array is the region-entry contents and whose body leaves the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_4 (c : Dev nD) (t : Fin cfg0.N) (d) : (dats m 0 c).before 4 t d = iblk m c 4 t :=
  before0_4_of m (dats m 0 c) (A_eq m c 4) (after0_4 m c) t d

/-- Input window 5's current staging buffer holds its block at every point, fetched there or not, for any
    launch data whose array is the region-entry contents and whose body leaves the block in place. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_5 (c : Dev nD) (t : Fin cfg0.N) (d) : (dats m 0 c).before 5 t d = iblk m c 5 t :=
  before0_5_of m (dats m 0 c) (A_eq m c 5) (after0_5 m c) t d

/-- Input window 6's current staging buffer holds its block at every point, fetched there or not, for any
    launch data whose array is the region-entry contents and whose body leaves the block in place. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_6 (c : Dev nD) (t : Fin cfg0.N) (d) : (dats m 0 c).before 6 t d = iblk m c 6 t :=
  before0_6_of m (dats m 0 c) (A_eq m c 6) (after0_6 m c) t d

/-- Input window 7's current staging buffer holds its block at every point, fetched there or not, for any
    launch data whose array is the region-entry contents and whose body leaves the block in place. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_7 (c : Dev nD) (t : Fin cfg0.N) (d) : (dats m 0 c).before 7 t d = iblk m c 7 t :=
  before0_7_of m (dats m 0 c) (A_eq m c 7) (after0_7 m c) t d

/-- Input window 8's current staging buffer holds its block at every point, fetched there or not, for any
    launch data whose array is the region-entry contents and whose body leaves the block in place. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before0_8 (c : Dev nD) (t : Fin cfg0.N) (d) : (dats m 0 c).before 8 t d = iblk m c 8 t :=
  before0_8_of m (dats m 0 c) (A_eq m c 8) (after0_8 m c) t d

/-! ## The body's triple -/

/-- The one store covers the output buffer: it is the whole buffer. -/
theorem cover0_9 (p0 : Vec F S5000x64 .f32) (y : S5000x64.Idx) :
    ∃ pc ∈ ([⟨rBlk, p0⟩] : List (View.Piece (Elt F) S5000x64 .f32)), y ∈ pc.1.set :=
  View.cover_of_tiled [⟨rBlk, p0⟩] S5000x64.size (by rfl) y

set_option maxHeartbeats 4000000 in
/-- The body on whole staging buffers, the nine inputs' reading `x0 … x8` and the output's holding anything, runs
    to the continuation with the inputs' as they were and the output's reading `out0_9` of them: nine whole loads,
    a load of the output buffer whose value is unused, and one whole store of the fused block. -/
theorem sound_kernel (c : Dev nD) (E : Set ℕ) (i : grid0.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S64 .f32) (harg4 : arg4.IsWhole) (arg5 : Memref sig .tc .vmem S64x64 .f32) (harg5 : arg5.IsWhole) (arg6 : Memref sig .tc .vmem S64 .f32) (harg6 : arg6.IsWhole) (arg7 : Memref sig .tc .vmem S64x64 .f32) (harg7 : arg7.IsWhole) (arg8 : Memref sig .tc .vmem S64 .f32) (harg8 : arg8.IsWhole) (arg9 : Memref sig .tc .vmem S64 .f32) (harg9 : arg9.IsWhole) (arg10 : Memref sig .tc .vmem S5000x64 .f32) (harg10 : arg10.IsWhole)
    (x0 : Vec F S5000x64 .f32) (x1 : Vec F S5000x64 .f32) (x2 : Vec F S64x64 .f32) (x3 : Vec F S64 .f32) (x4 : Vec F S64x64 .f32) (x5 : Vec F S64 .f32) (x6 : Vec F S64x64 .f32) (x7 : Vec F S64 .f32) (x8 : Vec F S64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out0_9 x0 x1 x2 x3 x4 x5 x6 x7 x8)) -∗ K ⟨⟩))
      ⊢ wp frame (wpE (defs₀ (F := F)) Variants.none c none) E (cc0__fusion_kernel i arg1 harg1 arg2 harg2 arg3 harg3 arg4 harg4 arg5 harg5 arg6 harg6 arg7 harg7 arg8 harg8 arg9 harg9 arg10 harg10) K := by
  simp only [cc0__fusion_kernel_eq_skeleton]; unfold cc0__fusion_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0; subst hf1; subst hf2; subst hf3; subst hf4; subst hf5; subst hf6; subst hf7; subst hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover0_9 _)

/-! ## The launch theorem's body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

set_option maxHeartbeats 1000000 in
/-- The body at any point: each input buffer holds its block, so the body's triple applies; the invariant and the
    core's obligations pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ (grid0.coords t) _ _ _ _ _ _ _ _ _ _ _ _ _ _ _ _ _ _ _ _
    (iblk m c 0 t) (iblk m c 1 t) (iblk m c 2 t) (iblk m c 3 t) (iblk m c 4 t) (iblk m c 5 t) (iblk m c 6 t) (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The launch theorem's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the launch theorem's implicit arguments are found by unifying its conclusion with this one, which takes unfolding
-- plain definitions in the type of an unknown
set_option backward.isDefEq.respectTransparency.types false in
/-- For any values, from any memory with zero counters: every weakly fair execution of the program on the TensorCore
    terminates, and every final state has every array of the region at what the launch data compute and every other
    unscoped buffer as the last stretch leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame from a run: an argument a window stages is an input array, which the region never writes back and which
    the region found as launched; an argument that bypasses the region is written by no host operation at all. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨((h c).2 main_arg0 (Pipeline.mem_restRefs_of main_arg0 (by decide) (by decide))).trans (W_main_arg0 m dats c),
      ((h c).1 0).trans (((dats 0 c).arrAt_in 0 rfl _).trans ((hA c 0).trans (V_main_arg1 m c))),
      ((h c).1 2).trans (((dats 0 c).arrAt_in 2 rfl _).trans ((hA c 2).trans (V_main_arg2 m c))),
      ((h c).1 3).trans (((dats 0 c).arrAt_in 3 rfl _).trans ((hA c 3).trans (V_main_arg3 m c))),
      ((h c).1 4).trans (((dats 0 c).arrAt_in 4 rfl _).trans ((hA c 4).trans (V_main_arg4 m c))),
      ((h c).1 5).trans (((dats 0 c).arrAt_in 5 rfl _).trans ((hA c 5).trans (V_main_arg5 m c))),
      ((h c).1 6).trans (((dats 0 c).arrAt_in 6 rfl _).trans ((hA c 6).trans (V_main_arg6 m c))),
      ((h c).1 7).trans (((dats 0 c).arrAt_in 7 rfl _).trans ((hA c 7).trans (V_main_arg7 m c))),
      ((h c).2 main_arg8 (Pipeline.mem_restRefs_of main_arg8 (by decide) (by decide))).trans (W_main_arg8 m dats c),
      ((h c).2 main_arg9 (Pipeline.mem_restRefs_of main_arg9 (by decide) (by decide))).trans (W_main_arg9 m dats c),
      ((h c).2 main_arg10 (Pipeline.mem_restRefs_of main_arg10 (by decide) (by decide))).trans (W_main_arg10 m dats c),
      ((h c).2 main_arg11 (Pipeline.mem_restRefs_of main_arg11 (by decide) (by decide))).trans (W_main_arg11 m dats c),
      ((h c).2 main_arg12 (Pipeline.mem_restRefs_of main_arg12 (by decide) (by decide))).trans (W_main_arg12 m dats c),
      ((h c).2 main_arg13 (Pipeline.mem_restRefs_of main_arg13 (by decide) (by decide))).trans (W_main_arg13 m dats c)⟩) h

/-- The program runs and its fourteen argument arrays end unchanged, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  frame_of m ρ (dats m) (A_eq m) (run_main m ρ)

end Cert.KernelIdeal.Frm

end
-- ==== Proof.HostBridge.lean ====
/-
  The host operations around the region, read on the kernel's side.

  Before the region the kernel's program runs the same graph propagation as the reference (degrees by a
  scatter of ones, their inverse square roots, three rounds of gather, scale and scatter-add, the mean of the
  four tables) and reshapes the 64 x 1 gate vector to length 64; after the region it runs the same loss
  (three row gathers out of the fused table, two inner products, the logistic and logarithm, three mean
  squared norms). Operation for operation these are the reference's own lines, so each buffer they produce
  is the reference's stage of the same name, read at the launch contents: nothing is opened, the two
  sequences are unfolded side by side.
-/
import proofs.«174919_j3401614098655_1_alg».proof.Proof.FrameRunKI
import proofs.«174919_j3401614098655_1_alg».proof.Proof.RefReadP

set_option maxRecDepth 16384

noncomputable section

namespace Cert.KernelIdeal.HostValue

open Cert.KernelIdeal Cert.KernelIdeal.Gen Cert.KernelIdeal.Frm
open Idealize.ShloMosaic Idealize.ShloMosaic.TcCoe Idealize.ShloMosaic.ValueIdx Idealize.ShloMosaic.StableHlo
open Idealize.SL Idealize.SL.Sem

variable (m : (ℓ : Loc nD τ sig) → Buf (Elt Ideal) ℓ)

/-- The contents after two lists of operations in a row. -/
theorem after_append {Val : EltTy → Type} (l₁ l₂ : List (HloOp τ sig Val)) (W : Valuation τ sig Val) :
    StableHlo.after (l₁ ++ l₂) W = StableHlo.after l₂ (StableHlo.after l₁ W) := by
  induction l₁ generalizing W with
  | nil => rfl
  | cons op l ih => exact ih (op.result W)

/-! ### What the first stretch leaves: the two edge lists, the degree test, the inverse square roots -/

theorem s1_v1 (c : Dev nD) :
    StableHlo.after hostOps0 (fun b => m (c, b)) (Proc.devRef .tc main_v1) = Cert.ReferenceIdeal.ReadP.val_main_v1 (F := Ideal) (m ((c : Thread nD τ).loc main_arg9)) := by
  simp only [hostOps0]
  after_results_simp
  rfl

theorem s1_v3 (c : Dev nD) :
    StableHlo.after hostOps0 (fun b => m (c, b)) (Proc.devRef .tc main_v3) = Cert.ReferenceIdeal.ReadP.val_main_v3 (F := Ideal) (m ((c : Thread nD τ).loc main_arg9)) := by
  simp only [hostOps0]
  after_results_simp
  rfl

theorem s1_v9 (c : Dev nD) :
    StableHlo.after hostOps0 (fun b => m (c, b)) (Proc.devRef .tc main_v9) = Cert.ReferenceIdeal.ReadP.val_main_v9 (F := Ideal) (m ((c : Thread nD τ).loc main_arg9)) := by
  simp only [hostOps0]
  after_results_simp
  rfl

theorem s1_v10 (c : Dev nD) :
    StableHlo.after hostOps0 (fun b => m (c, b)) (Proc.devRef .tc main_v10) = Cert.ReferenceIdeal.ReadP.val_main_v10 (F := Ideal) (m ((c : Thread nD τ).loc main_arg9)) := by
  simp only [hostOps0]
  after_results_simp
  rfl

theorem s1_cst_2 (c : Dev nD) :
    StableHlo.after hostOps0 (fun b => m (c, b)) (Proc.devRef .tc main_cst_2) = Cert.ReferenceIdeal.ReadP.val_main_cst_2 (F := Ideal) := by
  simp only [hostOps0]
  after_results_simp
  rfl

theorem s1_arg0 (c : Dev nD) :
    StableHlo.after hostOps0 (fun b => m (c, b)) (Proc.devRef .tc main_arg0) = (m ((c : Thread nD τ).loc main_arg0)) := by
  simp only [hostOps0]
  after_results_simp

/-! ### The second stretch: zero where a node has no edge -/

/-- The outlined test names each of its buffers with the value's type attached; re-reading contents at that type is the
    identity, the buffer's type being that type. -/
theorem of_v9 (p1 p2 p3) (v : (main_v9 : Ref sig .tc).ty.Contents (Elt Ideal)) :
    (TRef.of (T := (⟨S150000, .i1⟩ : BufTy)) main_v9 p1 p2 p3).ofBuf v = v := rfl
theorem to_v9 (p1 p2 p3) (v : (⟨S150000, .i1⟩ : BufTy).Contents (Elt Ideal)) :
    (TRef.of (T := (⟨S150000, .i1⟩ : BufTy)) main_v9 p1 p2 p3).toBuf v = v := rfl
theorem of_v10 (p1 p2 p3) (v : (main_v10 : Ref sig .tc).ty.Contents (Elt Ideal)) :
    (TRef.of (T := (⟨S150000, .f32⟩ : BufTy)) main_v10 p1 p2 p3).ofBuf v = v := rfl
theorem to_v10 (p1 p2 p3) (v : (⟨S150000, .f32⟩ : BufTy).Contents (Elt Ideal)) :
    (TRef.of (T := (⟨S150000, .f32⟩ : BufTy)) main_v10 p1 p2 p3).toBuf v = v := rfl
theorem of_v11 (p1 p2 p3) (v : (main_v11 : Ref sig .tc).ty.Contents (Elt Ideal)) :
    (TRef.of (T := (⟨S150000, .f32⟩ : BufTy)) main_v11 p1 p2 p3).ofBuf v = v := rfl
theorem to_v11 (p1 p2 p3) (v : (⟨S150000, .f32⟩ : BufTy).Contents (Elt Ideal)) :
    (TRef.of (T := (⟨S150000, .f32⟩ : BufTy)) main_v11 p1 p2 p3).toBuf v = v := rfl
theorem of_c1 (p1 p2 p3) (v : (main_call0_v1 : Ref sig .tc).ty.Contents (Elt Ideal)) :
    (TRef.of (T := (⟨S150000, .f32⟩ : BufTy)) main_call0_v1 p1 p2 p3).ofBuf v = v := rfl
theorem to_c1 (p1 p2 p3) (v : (⟨S150000, .f32⟩ : BufTy).Contents (Elt Ideal)) :
    (TRef.of (T := (⟨S150000, .f32⟩ : BufTy)) main_call0_v1 p1 p2 p3).toBuf v = v := rfl
theorem of_c0 (p1 p2 p3) (v : (main_call0_v0 : Ref sig .tc).ty.Contents (Elt Ideal)) :
    (TRef.of (T := (⟨S_, .f32⟩ : BufTy)) main_call0_v0 p1 p2 p3).ofBuf v = v := rfl
theorem to_c0 (p1 p2 p3) (v : (⟨S_, .f32⟩ : BufTy).Contents (Elt Ideal)) :
    (TRef.of (T := (⟨S_, .f32⟩ : BufTy)) main_call0_v0 p1 p2 p3).toBuf v = v := rfl
theorem of_cst (p1 p2 p3) (v : (main_cst_2 : Ref sig .tc).ty.Contents (Elt Ideal)) :
    (TRef.of (T := (⟨S_, .f32⟩ : BufTy)) main_cst_2 p1 p2 p3).ofBuf v = v := rfl
theorem to_cst (p1 p2 p3) (v : (⟨S_, .f32⟩ : BufTy).Contents (Elt Ideal)) :
    (TRef.of (T := (⟨S_, .f32⟩ : BufTy)) main_cst_2 p1 p2 p3).toBuf v = v := rfl

/-- The outlined test, from any contents that have the reference's stages where the first stretch put them. -/
theorem call_eq (W : Valuation τ sig (Elt Ideal)) (x9 : (⟨Cert.ReferenceIdeal.S2x4000000, .i32⟩ : BufTy).Contents (Elt Ideal))
    (h9 : W (Proc.devRef .tc main_v9) = Cert.ReferenceIdeal.ReadP.val_main_v9 (F := Ideal) x9)
    (h10 : W (Proc.devRef .tc main_v10) = Cert.ReferenceIdeal.ReadP.val_main_v10 (F := Ideal) x9)
    (hc : W (Proc.devRef .tc main_cst_2) = Cert.ReferenceIdeal.ReadP.val_main_cst_2 (F := Ideal)) :
    StableHlo.after hostOps0_1 W (Proc.devRef .tc main_v11) = Cert.ReferenceIdeal.ReadP.val_main_v11 (F := Ideal) x9 := by
  simp only [hostOps0_1]
  after_results_simp
  simp only [of_v9, of_v10, to_v11, of_c1, to_c1, of_c0, to_c0, of_cst]
  rw [h9, h10, hc]
  rfl

/-- The second stretch writes neither edge list nor the first embedding table. -/
theorem call_keeps_v1 (W : Valuation τ sig (Elt Ideal)) :
    StableHlo.after hostOps0_1 W (Proc.devRef .tc main_v1) = W (Proc.devRef .tc main_v1) := by
  simp only [hostOps0_1]
  after_results_simp
theorem call_keeps_v3 (W : Valuation τ sig (Elt Ideal)) :
    StableHlo.after hostOps0_1 W (Proc.devRef .tc main_v3) = W (Proc.devRef .tc main_v3) := by
  simp only [hostOps0_1]
  after_results_simp
theorem call_keeps_arg0 (W : Valuation τ sig (Elt Ideal)) :
    StableHlo.after hostOps0_1 W (Proc.devRef .tc main_arg0) = W (Proc.devRef .tc main_arg0) := by
  simp only [hostOps0_1]
  after_results_simp

/-! ### The third stretch: three rounds of propagation and their mean -/

set_option maxHeartbeats 8000000 in
/-- The propagated table after the third stretch, from any contents that have the reference's stages where the first two
    stretches put them. -/
theorem prop_eq (W : Valuation τ sig (Elt Ideal)) (x0 : (⟨Cert.ReferenceIdeal.S150000x64, .f32⟩ : BufTy).Contents (Elt Ideal)) (x9 : (⟨Cert.ReferenceIdeal.S2x4000000, .i32⟩ : BufTy).Contents (Elt Ideal))
    (h11 : W (Proc.devRef .tc main_v11) = Cert.ReferenceIdeal.ReadP.val_main_v11 (F := Ideal) x9)
    (h1 : W (Proc.devRef .tc main_v1) = Cert.ReferenceIdeal.ReadP.val_main_v1 (F := Ideal) x9)
    (h3 : W (Proc.devRef .tc main_v3) = Cert.ReferenceIdeal.ReadP.val_main_v3 (F := Ideal) x9)
    (h0 : W (Proc.devRef .tc main_arg0) = x0) :
    StableHlo.after hostOps0_2 W (Proc.devRef .tc main_v70) = Cert.ReferenceIdeal.ReadP.val_main_v70 (F := Ideal) x0 x9 := by
  simp only [hostOps0_2]
  after_results_simp
  rw [h11, h1, h3, h0]
  rfl

/-- The region-entry contents are the third stretch's, from the first two's. -/
theorem V0_split (c : Dev nD) :
    V0 m c = StableHlo.after hostOps0_2 (StableHlo.after hostOps0_1 (StableHlo.after hostOps0 (fun b => m (c, b)))) := by
  dsimp only [V0]
  simp only [List.flatten_cons, List.flatten_nil, List.append_nil]
  rw [after_append, after_append]

/-- THE PROPAGATED TABLE the region finds is the reference's propagated table of the launch contents. -/
theorem V_v70_eq (c : Dev nD) :
    V m c main_v70 = Cert.ReferenceIdeal.ReadP.val_main_v70 (F := Ideal) (m ((c : Thread nD τ).loc main_arg0)) (m ((c : Thread nD τ).loc main_arg9)) := by
  show V0 m c (Proc.devRef .tc main_v70) = _
  rw [V0_split]
  exact prop_eq _ _ _ (call_eq _ _ (s1_v9 m c) (s1_v10 m c) (s1_cst_2 m c))
    ((call_keeps_v1 _).trans (s1_v1 m c)) ((call_keeps_v3 _).trans (s1_v3 m c)) ((call_keeps_arg0 _).trans (s1_arg0 m c))

/-- The gate vector the region finds is the 64 x 1 gate column, entry by entry. -/
theorem V_v71_apply (c : Dev nD) (k : Fin 64) :
    V m c main_v71 (ix1 k) = (m ((c : Thread nD τ).loc main_arg8)) (ix2 k (0 : Fin 1)) := by
  have e : V m c main_v71 = shapeCast S64 (m ((c : Thread nD τ).loc main_arg8)) shapeCasts_S64x1_S64 := by
    dsimp only [V, V0]
    simp only [hostOps0, hostOps0_1, hostOps0_2, List.flatten_cons, List.flatten_nil, List.append_nil, List.cons_append,
      List.nil_append]
    after_results_simp
    rfl
  rw [e]
  exact shapeCast_apply _ _ _ _ (by
    show (S64x1.rowMajor (ix2 k (0 : Fin 1))).val = (S64.rowMajor (ix1 k)).val
    rw [Shape.rowMajor_val_two, Shape.rowMajor_val_one]
    show k.val * 1 + 0 = k.val
    omega)

set_option maxHeartbeats 8000000 in
/-- THE LOSS after the region is the reference's last stage, for any contents that have the reference's fused table
    where the region's output is and the four batch arrays where they are. -/
theorem tail_eq (W : Valuation τ sig (Elt Ideal))
    (x0 x1 : (⟨Cert.ReferenceIdeal.S150000x64, .f32⟩ : BufTy).Contents (Elt Ideal)) (x2 : (⟨Cert.ReferenceIdeal.S64x64, .f32⟩ : BufTy).Contents (Elt Ideal)) (x3 : (⟨Cert.ReferenceIdeal.S64, .f32⟩ : BufTy).Contents (Elt Ideal))
    (x4 : (⟨Cert.ReferenceIdeal.S64x64, .f32⟩ : BufTy).Contents (Elt Ideal)) (x5 : (⟨Cert.ReferenceIdeal.S64, .f32⟩ : BufTy).Contents (Elt Ideal)) (x6 : (⟨Cert.ReferenceIdeal.S64x64, .f32⟩ : BufTy).Contents (Elt Ideal)) (x7 : (⟨Cert.ReferenceIdeal.S64, .f32⟩ : BufTy).Contents (Elt Ideal))
    (x8 : (⟨Cert.ReferenceIdeal.S64x1, .f32⟩ : BufTy).Contents (Elt Ideal)) (x9 : (⟨Cert.ReferenceIdeal.S2x4000000, .i32⟩ : BufTy).Contents (Elt Ideal))
    (x10 x11 x12 : (⟨Cert.ReferenceIdeal.S65536, .i32⟩ : BufTy).Contents (Elt Ideal)) (x13 : (⟨Cert.ReferenceIdeal.S65536, .f32⟩ : BufTy).Contents (Elt Ideal))
    (hZ : W (Proc.devRef .tc main_v72) = Cert.ReferenceIdeal.ReadP.val_main_v111 (F := Ideal) x0 x1 x2 x3 x4 x5 x6 x7 x8 x9)
    (h10 : W (Proc.devRef .tc main_arg10) = x10) (h11 : W (Proc.devRef .tc main_arg11) = x11)
    (h12 : W (Proc.devRef .tc main_arg12) = x12) (h13 : W (Proc.devRef .tc main_arg13) = x13) :
    StableHlo.after hostOps1 W (Proc.devRef .tc main_v129)
      = Cert.ReferenceIdeal.ReadP.val_main_v168 (F := Ideal) x0 x1 x2 x3 x4 x5 x6 x7 x8 x9 x10 x11 x12 x13 := by
  simp only [hostOps1]
  after_results_simp
  rw [hZ, h10, h11, h12, h13]
  rfl

end Cert.KernelIdeal.HostValue

end
-- ==== Proof.Spec.lean ====
/-
  The fused embedding, row by row, over the extended reals.

  A row `e` of the second embedding table goes through two dense layers, each followed by the positive
  part; call the result `zn`. A row `z` of the propagated first table and the row `zn` are each given a
  scalar gate: the hyperbolic tangent of one more dense layer, paired against a fixed vector `qw`. The
  fused row is the convex combination of `z` and `zn` whose weight on `z` is the logistic function of
  the difference of the two gates.

  The two float words that occur are kept as words: `z0` is the word of zero, `one` the word of one.
-/
import Idealize.ShloMosaic.PureOps.Ideal
import Idealize.ShloMosaic.PureOps.Ideal.Laws
import Idealize.ShloMosaic.Lib.ValueIdx

noncomputable section

namespace Cert.Fusion

open Idealize.ShloMosaic Idealize.ShloMosaic.ValueIdx

/-- A row of 64 extended reals. -/
abbrev Row := Fin 64 → EReal
/-- A 64 x 64 matrix of extended reals, row index first. -/
abbrev Mat := Fin 64 → Fin 64 → EReal

/-- The word of zero. -/
abbrev z0 : EReal := Ideal.ofBits .f32 0x00000000#32
/-- The word of one. -/
abbrev one : EReal := Ideal.ofBits .f32 0x3F800000#32

/-- One dense layer followed by the positive part: entry `j` is `max (∑ₖ eₖ · wₖⱼ + bⱼ) 0`. -/
def layer (e : Row) (w : Mat) (b : Row) : Row := fun j => max ((∑ k, e k * w k j) + b j) z0

/-- The two-layer perceptron of a row. -/
def mlp (e : Row) (w0 : Mat) (b0 : Row) (w1 : Mat) (b1 : Row) : Row := layer (layer e w0 b0) w1 b1

/-- The gate of a row: `∑ₖ tanh (∑ₗ zₗ · awₗₖ + abₖ) · qwₖ`. -/
def gate (z : Row) (aw : Mat) (ab qw : Row) : EReal := ∑ k, Ideal.tanh ((∑ l, z l * aw l k) + ab k) * qw k

/-- The weight the fused row puts on the propagated row. -/
def weight (e z : Row) (w0 : Mat) (b0 : Row) (w1 : Mat) (b1 : Row) (aw : Mat) (ab qw : Row) : EReal :=
  Ideal.logistic (gate z aw ab qw - gate (mlp e w0 b0 w1 b1) aw ab qw)

/-- The fused row. -/
def fuse (e z : Row) (w0 : Mat) (b0 : Row) (w1 : Mat) (b1 : Row) (aw : Mat) (ab qw : Row) : Row := fun j =>
  weight e z w0 b0 w1 b1 aw ab qw * z j + (one - weight e z w0 b0 w1 b1 aw ab qw) * mlp e w0 b0 w1 b1 j

/-! ## The same over arrays of literal shapes -/

abbrev Sn : Shape := ⟨2, ![150000, 64]⟩
abbrev Sm : Shape := ⟨2, ![64, 64]⟩
abbrev Sv : Shape := ⟨1, ![64]⟩

/-- Row `r` of an array of rows. -/
abbrev rowOf {n : ℕ} (x : (⟨2, ![n, 64]⟩ : Shape).Idx → EReal) (r : Fin n) : Row := fun k => x (ix2 r k)
/-- A 64 x 64 array as a matrix. -/
abbrev matOf (w : Sm.Idx → EReal) : Mat := fun k j => w (ix2 k j)
/-- A length-64 array as a row. -/
abbrev vecOf (b : Sv.Idx → EReal) : Row := fun j => b (ix1 j)

/-- The fused table: entry `(r, j)` is entry `j` of the fused row of rows `r` of the two tables. -/
def fused {n : ℕ} (en zp : (⟨2, ![n, 64]⟩ : Shape).Idx → EReal) (w0 : Sm.Idx → EReal) (b0 : Sv.Idx → EReal)
    (w1 : Sm.Idx → EReal) (b1 : Sv.Idx → EReal) (aw : Sm.Idx → EReal) (ab qw : Sv.Idx → EReal) :
    (⟨2, ![n, 64]⟩ : Shape).Idx → EReal := fun i =>
  fuse (rowOf en (i 0)) (rowOf zp (i 0)) (matOf w0) (vecOf b0) (matOf w1) (vecOf b1) (matOf aw) (vecOf ab) (vecOf qw) (i 1)

end Cert.Fusion

end
-- ==== Proof.LibRowOps.lean ====
/-
  Rows and columns of rank-2 vectors read at an index, at the ideal values (extended reals, exact operations).

  * the keep-dimensions column forms: a length-`a` vector cast to `[a, 1]`, and an `[a, 1]` column broadcast over
    `b` lanes, read at `(p, c)`;
  * a bias row: a length-`b` vector cast to `[1, b]` and broadcast over `a` rows reads, at `(p, c)`, its entry `c`;
  * the sum over the lanes of a row (`vector.multi_reduction <add>` over axis 1 of an `[a, b]` vector into the zero
    accumulator) is the `Fin b`-indexed sum of the row's entries;
  * a plain `M×K` by `K×N` matrix product into the zero accumulator is, at `(r, j)`, the sum over `k : Fin K` of
    `lhs (r, k) * rhs (k, j)`, whatever the operands' float formats;
  * a sum over `Fin (m + n)` splits into the sums over its first `m` and its last `n` indices.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LibRowOps

open Idealize.ShloMosaic Idealize.ShloMosaic.ValueIdx

variable {α : Type}

/-- A length-`a` vector cast to an `[a, 1]` column reads, at `(p, u)`, its entry `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast over `b` lanes reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A bias row: a length-`b` vector cast to `[1, b]` and broadcast over `a` rows reads, at `(p, c)`, its entry `c`. -/
theorem biasRow_apply {a b : ℕ} (x : (⟨1, ![b]⟩ : Shape).Idx → α) (h : (⟨1, ![b]⟩ : Shape).ShapeCasts ⟨2, ![1, b]⟩)
    (h' : (⟨2, ![1, b]⟩ : Shape).Broadcasts ⟨2, ![a, b]⟩) (p : Fin a) (c : Fin b) :
    broadcastTo ⟨2, ![a, b]⟩ (shapeCast ⟨2, ![1, b]⟩ x h) h' (ix2 p c) = x (ix1 c) :=
  (broadcastTo_1b_ab_apply _ h' p c).trans (shapeCast_a_1a_apply x h 0 c)

/-- A keep-dimensions column: a length-`a` vector `s` cast to `[a, 1]`, mapped entry by entry by `f`, and broadcast over
    `b` lanes reads, at `(p, c)`, `f` of the entry `p`. -/
theorem keepCol_apply {β : Type} {a b : ℕ} (x : (⟨1, ![a]⟩ : Shape).Idx → α) (h : (⟨1, ![a]⟩ : Shape).ShapeCasts ⟨2, ![a, 1]⟩)
    (f : α → β) (h' : (⟨2, ![a, 1]⟩ : Shape).Broadcasts ⟨2, ![a, b]⟩) (p : Fin a) (c : Fin b) :
    broadcastTo ⟨2, ![a, b]⟩ (fun i => f (shapeCast ⟨2, ![a, 1]⟩ x h i)) h' (ix2 p c) = f (x (ix1 p)) :=
  (broadcastTo_a1_ab_apply _ h' p c).trans (congrArg f (shapeCast_a_a1_apply x h p 0))

/-- The sum over the lanes of row `p` of an `[a, b]` vector, into the zero accumulator, at the ideal values. -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) := by
  refine (Ideal.multiReduction_add_single src acc h hφ hacc (ix1 p)).trans ?_
  refine Finset.sum_congr rfl fun k _ => congrArg src (funext fun ax => Fin.ext ?_)
  match ax with
  | ⟨0, _⟩ => rfl
  | ⟨1, _⟩ => rfl

/-- In a plain product the left operand's index at output `(r, j)` keeps the output row on its first axis; -/
theorem plain_lhs0 (M K N : ℕ) (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch by simp [DotDims.plain]),
    dif_pos (show (0 : Fin 2) ∈ (DotDims.plain M K N).lhsNonContracting by simp [DotDims.plain])]
  rfl
/-- and the right operand's keeps the output lane on its second. -/
theorem plain_rhs1 (M K N : ℕ) (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch by simp [DotDims.plain]),
    dif_pos (show (1 : Fin 2) ∈ (DotDims.plain M K N).rhsNonContracting by simp [DotDims.plain])]
  rfl

/-- A plain `M×K` by `K×N` product into the zero accumulator, at `(r, j)`: the sum over `k` of `lhs (r, k) * rhs (k, j)`. -/
theorem matmul_plain_apply {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂) (r : Fin M) (j : Fin N) :
    FloatOps.matmul d prec lhs rhs (constant ⟨2, ![M, N]⟩ .f32 0x00000000#32) (ix2 r j)
      = ∑ k : Fin K, lhs (ix2 r k) * rhs (ix2 k j) := by
  subst hd
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r j) ((contrEquiv1 (DotDims.plain M K N) K rfl rfl).symm k) = ix2 r k :=
    funext fun ax => Fin.ext (by
      match ax with
      | ⟨0, _⟩ => exact plain_lhs0 M K N _ _
      | ⟨1, _⟩ => exact ((DotDims.plain M K N).lhsIdx_val_of_single (cl := (1 : Fin 2)) rfl _ _).trans hk)
  have er : (DotDims.plain M K N).rhsIdx (ix2 r j) ((contrEquiv1 (DotDims.plain M K N) K rfl rfl).symm k) = ix2 k j :=
    funext fun ax => Fin.ext (by
      match ax with
      | ⟨0, _⟩ => exact ((DotDims.plain M K N).rhsIdx_val_of_single (cr := (0 : Fin 2)) rfl _ _).trans hk
      | ⟨1, _⟩ => exact plain_rhs1 M K N _ _)
  rw [el, er]

/-- A sum over `Fin (m + n)` is the sum over its first `m` indices plus the sum over its last `n`. -/
theorem sum_fin_split {M : Type} [AddCommMonoid M] (m n : ℕ) (f : Fin (m + n) → M) :
    ∑ k, f k = (∑ a : Fin m, f ⟨a.val, by omega⟩) + ∑ a : Fin n, f ⟨m + a.val, by omega⟩ :=
  Fin.sum_univ_add f

end Cert.LibRowOps

end
-- ==== Proof.KernelRow.lean ====
/-
  The body's arithmetic, read at one entry of a 5000-row block.

  Every matrix product of the body is a plain 5000 x 64 by 64 x 64 product into the zero accumulator, so
  at entry (p, q) it is the sum over k of (row p of the left operand) times (column q of the right);
  a bias is a length-64 vector laid along the rows; a gate is the sum over the 64 lanes of row p. Changes
  of float format are the identity here. So entry (p, q) of what the body stores depends on rows p of
  the two streamed blocks only, and is the specification's fused row at q.
-/
import proofs.«174919_j3401614098655_1_alg».proof.Proof.Gen.KernelIdeal.Skeleton
import proofs.«174919_j3401614098655_1_alg».proof.Proof.Spec
import proofs.«174919_j3401614098655_1_alg».proof.Proof.LibRowOps

set_option maxRecDepth 16384

noncomputable section

namespace Cert.KernelIdeal.RowValue

open Cert.KernelIdeal Cert.KernelIdeal.Gen Cert.Fusion Cert.LibRowOps
open Idealize.ShloMosaic Idealize.ShloMosaic.ValueIdx

/-- The body's matrix products are plain ones. -/
theorem dot_plain : dot_S5000x64_S64x64_S5000x64_1_0_0_1_n_n = DotDims.plain 5000 64 64 := rfl

/-- A dense layer at entry (p, q): the row-by-column sum plus the bias entry q. -/
theorem dense_apply (lhs : FVec Ideal S5000x64 .bf16) (rhs : FVec Ideal S64x64 .bf16) (b : Vec Ideal S64 .f32)
    (p : Fin 5000) (q : Fin 64) :
    addf (matmul dot_S5000x64_S64x64_S5000x64_1_0_0_1_n_n none lhs rhs (constant (F := Ideal) S5000x64 .f32 0x00000000#32))
        (broadcastTo S5000x64 (shapeCast S1x64 b shapeCasts_S64_S1x64) broadcasts_S1x64_S5000x64) (ix2 p q)
      = (∑ k : Fin 64, lhs (ix2 p k) * rhs (ix2 k q)) + b (ix1 q) := by
  rw [addf_apply, biasRow_apply]
  exact congrArg (fun t : EReal => t + b (ix1 q)) (matmul_plain_apply _ dot_plain none lhs rhs p q)

/-- A dense layer followed by the positive part, at entry (p, q). -/
theorem layer_apply (lhs : FVec Ideal S5000x64 .bf16) (rhs : FVec Ideal S64x64 .bf16) (b : Vec Ideal S64 .f32)
    (p : Fin 5000) (q : Fin 64) :
    maximumf (addf (matmul dot_S5000x64_S64x64_S5000x64_1_0_0_1_n_n none lhs rhs (constant (F := Ideal) S5000x64 .f32 0x00000000#32))
        (broadcastTo S5000x64 (shapeCast S1x64 b shapeCasts_S64_S1x64) broadcasts_S1x64_S5000x64))
        (broadcast S5000x64 (Scalar.ofBits (F := Ideal) .f32 0x00000000#32)) (ix2 p q)
      = layer (fun k => lhs (ix2 p k)) (fun k j => rhs (ix2 k j)) (vecOf b) q := by
  rw [maximumf_apply, dense_apply]
  rfl

/-- The two-layer perceptron payload at entry (p, q) is the perceptron of row p. -/
theorem pay2_apply (x0 : Vec Ideal S5000x64 .f32) (x2 : Vec Ideal S64x64 .f32) (x3 : Vec Ideal S64 .f32)
    (x4 : Vec Ideal S64x64 .f32) (x5 : Vec Ideal S64 .f32) (p : Fin 5000) (q : Fin 64) :
    k0_pay2 (F := Ideal) x0 x2 x3 x4 x5 (ix2 p q) = mlp (rowOf x0 p) (matOf x2) (vecOf x3) (matOf x4) (vecOf x5) q := by
  unfold k0_pay2 mlp
  rw [layer_apply]
  refine congrArg (fun e : Row => layer e (matOf x4) (vecOf x5) q) (funext fun k => ?_)
  exact layer_apply (truncf .bf16 x0 bitsLt_bf16_f32) (truncf .bf16 x2 bitsLt_bf16_f32) x3 p k

/-- A gate at row p: the lane sum of the hyperbolic tangent of a dense layer, paired against the gate vector. -/
theorem gate_apply (lhs : FVec Ideal S5000x64 .bf16) (aw : FVec Ideal S64x64 .bf16) (ab : Vec Ideal S64 .f32)
    (qw : FVec Ideal S64 .f32) (p : Fin 5000) (u : Fin 1) :
    shapeCast S5000x1 (multiReduction .add [1] S5000
        (mulf (tanh (addf (matmul dot_S5000x64_S64x64_S5000x64_1_0_0_1_n_n none lhs aw (constant (F := Ideal) S5000x64 .f32 0x00000000#32))
            (broadcastTo S5000x64 (shapeCast S1x64 ab shapeCasts_S64_S1x64) broadcasts_S1x64_S5000x64)))
          (broadcastTo S5000x64 (shapeCast S1x64 qw shapeCasts_S64_S1x64) broadcasts_S1x64_S5000x64))
        0x00000000#32 reduces_S5000x64_S5000 (.inl rfl) rfl) shapeCasts_S5000_S5000x1 (ix2 p u)
      = gate (fun l => lhs (ix2 p l)) (fun l k => aw (ix2 l k)) (vecOf ab) (vecOf qw) := by
  rw [shapeCast_a_a1_apply]
  refine (rowSum_apply _ _ _ _ _ p).trans ?_
  unfold gate
  refine Finset.sum_congr rfl fun k _ => ?_
  rw [mulf_apply, biasRow_apply]
  refine congrArg (fun t : EReal => t * qw (ix1 k)) ?_
  exact congrArg Ideal.tanh (dense_apply lhs aw ab p k)

/-- The gate payload of the propagated block at row p. -/
theorem pay6_apply (x1 : Vec Ideal S5000x64 .f32) (x6 : Vec Ideal S64x64 .f32) (x7 x8 : Vec Ideal S64 .f32)
    (p : Fin 5000) (u : Fin 1) :
    k0_pay6 (F := Ideal) x1 x6 x7 x8 (ix2 p u) = gate (rowOf x1 p) (matOf x6) (vecOf x7) (vecOf x8) := by
  unfold k0_pay6 k0_pay3 k0_pay4 k0_pay5
  rw [gate_apply, shapeCast_self, shapeCast_self]
  rfl

/-- What the body stores, at entry (p, q), from its six intermediate values. -/
theorem pay1_apply (v20 v22 : FVec Ideal S5000x64 .f32) (v24 : FVec Ideal S64x64 .bf16) (v25 : Vec Ideal S64 .f32)
    (v27 : FVec Ideal S64 .f32) (v38 : FVec Ideal S5000x1 .f32) (p : Fin 5000) (q : Fin 64) :
    k0_pay1 (F := Ideal) v20 v22 v24 v25 v27 v38 (ix2 p q)
      = Ideal.logistic (v38 (ix2 p 0) - gate (fun l => v20 (ix2 p l)) (fun l k => v24 (ix2 l k)) (vecOf v25) (vecOf v27)) * v22 (ix2 p q)
        + (one - Ideal.logistic (v38 (ix2 p 0) - gate (fun l => v20 (ix2 p l)) (fun l k => v24 (ix2 l k)) (vecOf v25) (vecOf v27))) * v20 (ix2 p q) := by
  unfold k0_pay1
  rw [addf_apply, mulf_apply, mulf_apply, broadcastTo_a1_ab_apply, broadcastTo_a1_ab_apply, subf_apply, broadcast_apply]
  have hg := gate_apply (truncf .bf16 v20 bitsLt_bf16_f32) v24 v25 v27 p 0
  have hl : (logistic (subf v38 (shapeCast S5000x1 (multiReduction .add [1] S5000
        (mulf (tanh (addf (matmul dot_S5000x64_S64x64_S5000x64_1_0_0_1_n_n none (truncf .bf16 v20 bitsLt_bf16_f32) v24 (constant (F := Ideal) S5000x64 .f32 0x00000000#32))
            (broadcastTo S5000x64 (shapeCast S1x64 v25 shapeCasts_S64_S1x64) broadcasts_S1x64_S5000x64)))
          (broadcastTo S5000x64 (shapeCast S1x64 v27 shapeCasts_S64_S1x64) broadcasts_S1x64_S5000x64))
        0x00000000#32 reduces_S5000x64_S5000 (.inl rfl) rfl) shapeCasts_S5000_S5000x1)) : FVec Ideal S5000x1 .f32) (ix2 p (0 : Fin 1))
      = Ideal.logistic (v38 (ix2 p 0) - gate (fun l => v20 (ix2 p l)) (fun l k => v24 (ix2 l k)) (vecOf v25) (vecOf v27)) := by
    show Ideal.logistic (v38 (ix2 p 0) - _) = _
    rw [hg]
    rfl
  rw [hl]
  rfl

/-- THE BLOCK'S ENTRY: entry (p, q) of what the body stores, from the nine input blocks, is entry q of the
    fused row of rows p of the two streamed blocks. -/
theorem stored_apply (x0 x1 : Vec Ideal S5000x64 .f32) (x2 : Vec Ideal S64x64 .f32) (x3 : Vec Ideal S64 .f32)
    (x4 : Vec Ideal S64x64 .f32) (x5 : Vec Ideal S64 .f32) (x6 : Vec Ideal S64x64 .f32) (x7 x8 : Vec Ideal S64 .f32)
    (p : Fin 5000) (q : Fin 64) :
    k0_pay1 (F := Ideal) (k0_pay2 x0 x2 x3 x4 x5) (k0_pay3 x1) (k0_pay4 x6) x7 (k0_pay5 x8) (k0_pay6 x1 x6 x7 x8) (ix2 p q)
      = fuse (rowOf x0 p) (rowOf x1 p) (matOf x2) (vecOf x3) (matOf x4) (vecOf x5) (matOf x6) (vecOf x7) (vecOf x8) q := by
  rw [pay1_apply, pay6_apply]
  have e2 : (fun l => k0_pay2 (F := Ideal) x0 x2 x3 x4 x5 (ix2 p l)) = mlp (rowOf x0 p) (matOf x2) (vecOf x3) (matOf x4) (vecOf x5) :=
    funext fun l => pay2_apply x0 x2 x3 x4 x5 p l
  have e3 : k0_pay3 (F := Ideal) x1 = x1 := by unfold k0_pay3; exact shapeCast_self _ _
  have e5 : k0_pay5 (F := Ideal) x8 = x8 := by unfold k0_pay5; exact shapeCast_self _ _
  rw [e2, e3, e5, pay2_apply]
  rfl

end Cert.KernelIdeal.RowValue

end
-- ==== Proof.KernelArray.lean ====
/-
  From what each grid point writes back to the whole fused table.

  Grid point t hands the body rows 5000 t … 5000 t + 4999 of the two streamed tables and the seven
  parameter arrays whole, and writes rows 5000 t … 5000 t + 4999 of the output back. By the previous
  module entry (p, q) of what it writes is entry q of the fused row of rows p of its two blocks, that is
  of rows 5000 t + p of the two tables: the block written back is the restriction of ONE table, the
  fused table of the arrays the region finds. The thirty blocks tile the 150000 rows, so after the last
  point the output array is that table.
-/
import proofs.«174919_j3401614098655_1_alg».proof.Proof.FrameDefsKI
import proofs.«174919_j3401614098655_1_alg».proof.Proof.KernelRow

set_option maxRecDepth 16384

noncomputable section

namespace Cert.KernelIdeal.ArrayValue

open Cert.KernelIdeal Cert.KernelIdeal.Gen Cert.KernelIdeal.Frm Cert.KernelIdeal.RowValue Cert.Fusion
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ)

theorem hz2 : (![0, 0] : Fin 2 → Nat) = fun _ => 0 := funext fun a => by fin_cases a <;> rfl
theorem hz1 : (![0] : Fin 1 → Nat) = fun _ => 0 := funext fun a => by fin_cases a; rfl

/-- Row `p` of block `b` is row `5000 b + p` of the table. -/
abbrev rowAt (b : Fin 30) (p : Fin 5000) : Fin 150000 := ⟨b.val * 5000 + p.val, by have := b.isLt; have := p.isLt; omega⟩

/-- ONE ENTRY OF A BLOCK, over variables: if the two streamed blocks are rows 5000 b … of two tables and
    the seven small blocks are the parameter arrays whole, entry `j` of what the body stores is the
    fused table's entry in row `5000 b + j₀`, lane `j₁`. -/
theorem block_entry (A0 A1 : S150000x64.Idx → EReal) (A2 : S64x64.Idx → EReal) (A3 : S64.Idx → EReal)
    (A4 : S64x64.Idx → EReal) (A5 : S64.Idx → EReal) (A6 : S64x64.Idx → EReal) (A7 A8 : S64.Idx → EReal)
    (x0 x1 : Vec Ideal S5000x64 .f32) (x2 : Vec Ideal S64x64 .f32) (x3 : Vec Ideal S64 .f32)
    (x4 : Vec Ideal S64x64 .f32) (x5 : Vec Ideal S64 .f32) (x6 : Vec Ideal S64x64 .f32) (x7 x8 : Vec Ideal S64 .f32)
    (b : Fin 30)
    (h0 : ∀ (p : Fin 5000) (k : Fin 64), x0 (ix2 p k) = A0 (ix2 (rowAt b p) k))
    (h1 : ∀ (p : Fin 5000) (k : Fin 64), x1 (ix2 p k) = A1 (ix2 (rowAt b p) k))
    (h2 : x2 = A2) (h3 : x3 = A3) (h4 : x4 = A4) (h5 : x5 = A5) (h6 : x6 = A6) (h7 : x7 = A7) (h8 : x8 = A8)
    (j : S5000x64.Idx) :
    k0_pay1 (F := Ideal) (k0_pay2 x0 x2 x3 x4 x5) (k0_pay3 x1) (k0_pay4 x6) x7 (k0_pay5 x8) (k0_pay6 x1 x6 x7 x8) j
      = fused (n := 150000) A0 A1 A2 A3 A4 A5 A6 A7 A8 (ix2 (rowAt b (j 0)) (j 1)) := by
  obtain ⟨p, q, rfl⟩ : ∃ (p : Fin 5000) (q : Fin 64), j = ix2 p q := ⟨j 0, j 1, eq_ix2 j⟩
  subst h2 h3 h4 h5 h6 h7 h8
  rw [stored_apply]
  have e0 : rowOf x0 p = rowOf (n := 150000) A0 (rowAt b p) := funext fun k => h0 p k
  have e1 : rowOf x1 p = rowOf (n := 150000) A1 (rowAt b p) := funext fun k => h1 p k
  rw [e0, e1]
  rfl

/-- The printed index maps, decided over the grid: the two streamed windows and the output move together,
    one block of rows per point, all 64 lanes; the seven parameter windows stay at their whole arrays. -/
theorem idx_facts : ∀ t : Fin cfg0.N,
    win0_9.index t (0 : Fin 2) = t.val ∧ win0_9.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = 0 ∧ win0_6.index t (1 : Fin 2) = 0
    ∧ win0_7.index t (0 : Fin 1) = 0
    ∧ win0_8.index t (0 : Fin 1) = 0 :=
  (by decide +kernel : ∀ t : Fin grid0.N, _)

theorem t_lt (t : Fin cfg0.N) : t.val < 30 := lt_of_lt_of_eq t.isLt N_0

/-- A streamed window's block at point `t` holds rows 5000 t … of its table. -/
theorem iblk0_eq (c : Dev nD) (t : Fin cfg0.N) (p : Fin 5000) (k : Fin 64) :
    iblk m c 0 t (ix2 p k) = V m c main_arg1 (ix2 (rowAt ⟨t.val, t_lt t⟩ p) k) := by
  obtain ⟨-, -, e0, e1, -⟩ := idx_facts t
  show V m c main_arg1 (((cfg0.win 0).blk t).view.emb (ix2 p k)) = V m c main_arg1 _
  refine congrArg (V m c main_arg1) (funext fun a => Fin.ext ?_)
  match a with
  | ⟨0, _⟩ => show win0_0.index t (0 : Fin 2) * 5000 + 1 * p.val = t.val * 5000 + p.val; omega
  | ⟨1, _⟩ => show win0_0.index t (1 : Fin 2) * 64 + 1 * k.val = k.val; omega

theorem iblk1_eq (c : Dev nD) (t : Fin cfg0.N) (p : Fin 5000) (k : Fin 64) :
    iblk m c 1 t (ix2 p k) = V m c main_v70 (ix2 (rowAt ⟨t.val, t_lt t⟩ p) k) := by
  obtain ⟨-, -, -, -, e0, e1, -⟩ := idx_facts t
  show V m c main_v70 (((cfg0.win 1).blk t).view.emb (ix2 p k)) = V m c main_v70 _
  refine congrArg (V m c main_v70) (funext fun a => Fin.ext ?_)
  match a with
  | ⟨0, _⟩ => show win0_1.index t (0 : Fin 2) * 5000 + 1 * p.val = t.val * 5000 + p.val; omega
  | ⟨1, _⟩ => show win0_1.index t (1 : Fin 2) * 64 + 1 * k.val = k.val; omega

/-- A parameter window's block is its array whole, at every point. -/
theorem iblk2_eq (c : Dev nD) (t : Fin cfg0.N) : iblk m c 2 t = V m c main_arg2 := by
  obtain ⟨-, -, -, -, -, -, e0, e1, -⟩ := idx_facts t
  funext y
  show V m c main_arg2 (((cfg0.win 2).blk t).view.emb y) = V m c main_arg2 y
  refine congrArg (V m c main_arg2) (funext fun a => Fin.ext ?_)
  match a with
  | ⟨0, _⟩ => show win0_2.index t (0 : Fin 2) * 64 + 1 * (y 0).val = (y 0).val; omega
  | ⟨1, _⟩ => show win0_2.index t (1 : Fin 2) * 64 + 1 * (y 1).val = (y 1).val; omega

theorem iblk3_eq (c : Dev nD) (t : Fin cfg0.N) : iblk m c 3 t = V m c main_arg3 := by
  obtain ⟨-, -, -, -, -, -, -, -, e0, -⟩ := idx_facts t
  funext y
  show V m c main_arg3 (((cfg0.win 3).blk t).view.emb y) = V m c main_arg3 y
  refine congrArg (V m c main_arg3) (funext fun a => Fin.ext ?_)
  match a with
  | ⟨0, _⟩ => show win0_3.index t (0 : Fin 1) * 64 + 1 * (y 0).val = (y 0).val; omega

theorem iblk4_eq (c : Dev nD) (t : Fin cfg0.N) : iblk m c 4 t = V m c main_arg4 := by
  obtain ⟨-, -, -, -, -, -, -, -, -, e0, e1, -⟩ := idx_facts t
  funext y
  show V m c main_arg4 (((cfg0.win 4).blk t).view.emb y) = V m c main_arg4 y
  refine congrArg (V m c main_arg4) (funext fun a => Fin.ext ?_)
  match a with
  | ⟨0, _⟩ => show win0_4.index t (0 : Fin 2) * 64 + 1 * (y 0).val = (y 0).val; omega
  | ⟨1, _⟩ => show win0_4.index t (1 : Fin 2) * 64 + 1 * (y 1).val = (y 1).val; omega

theorem iblk5_eq (c : Dev nD) (t : Fin cfg0.N) : iblk m c 5 t = V m c main_arg5 := by
  obtain ⟨-, -, -, -, -, -, -, -, -, -, -, e0, -⟩ := idx_facts t
  funext y
  show V m c main_arg5 (((cfg0.win 5).blk t).view.emb y) = V m c main_arg5 y
  refine congrArg (V m c main_arg5) (funext fun a => Fin.ext ?_)
  match a with
  | ⟨0, _⟩ => show win0_5.index t (0 : Fin 1) * 64 + 1 * (y 0).val = (y 0).val; omega

theorem iblk6_eq (c : Dev nD) (t : Fin cfg0.N) : iblk m c 6 t = V m c main_arg6 := by
  obtain ⟨-, -, -, -, -, -, -, -, -, -, -, -, e0, e1, -⟩ := idx_facts t
  funext y
  show V m c main_arg6 (((cfg0.win 6).blk t).view.emb y) = V m c main_arg6 y
  refine congrArg (V m c main_arg6) (funext fun a => Fin.ext ?_)
  match a with
  | ⟨0, _⟩ => show win0_6.index t (0 : Fin 2) * 64 + 1 * (y 0).val = (y 0).val; omega
  | ⟨1, _⟩ => show win0_6.index t (1 : Fin 2) * 64 + 1 * (y 1).val = (y 1).val; omega

theorem iblk7_eq (c : Dev nD) (t : Fin cfg0.N) : iblk m c 7 t = V m c main_arg7 := by
  obtain ⟨-, -, -, -, -, -, -, -, -, -, -, -, -, -, e0, -⟩ := idx_facts t
  funext y
  show V m c main_arg7 (((cfg0.win 7).blk t).view.emb y) = V m c main_arg7 y
  refine congrArg (V m c main_arg7) (funext fun a => Fin.ext ?_)
  match a with
  | ⟨0, _⟩ => show win0_7.index t (0 : Fin 1) * 64 + 1 * (y 0).val = (y 0).val; omega

theorem iblk8_eq (c : Dev nD) (t : Fin cfg0.N) : iblk m c 8 t = V m c main_v71 := by
  obtain ⟨-, -, -, -, -, -, -, -, -, -, -, -, -, -, -, e0⟩ := idx_facts t
  funext y
  show V m c main_v71 (((cfg0.win 8).blk t).view.emb y) = V m c main_v71 y
  refine congrArg (V m c main_v71) (funext fun a => Fin.ext ?_)
  match a with
  | ⟨0, _⟩ => show win0_8.index t (0 : Fin 1) * 64 + 1 * (y 0).val = (y 0).val; omega

/-- The fused table of the arrays the region finds. -/
abbrev table (c : Dev nD) : S150000x64.Idx → EReal :=
  fused (n := 150000) (V m c main_arg1) (V m c main_v70) (V m c main_arg2) (V m c main_arg3) (V m c main_arg4)
    (V m c main_arg5) (V m c main_arg6) (V m c main_arg7) (V m c main_v71)

/-- WHAT POINT `t` WRITES BACK is block `t` of the fused table. -/
theorem flushed_eq (c : Dev nD) (t : Fin cfg0.N) :
    (dats m 0 c).flushed 9 t = ((cfg0.win 9).blk t).view.read (Elt Ideal) (table m c) := by
  show (cfg0.win 9).cut (grid0.coords t) ((dats m 0 c).after 9 t) = _
  rw [after0_9]
  unfold out0_9
  rw [View.canon_unit_zero hz2]
  simp only [View.ld_unit_zero (S := S5000x64) hz2, View.ld_unit_zero (S := S64x64) hz2, View.ld_unit_zero (S := S64) hz1]
  obtain ⟨e0, e1, -⟩ := idx_facts t
  funext j
  refine (block_entry (V m c main_arg1) (V m c main_v70) (V m c main_arg2) (V m c main_arg3) (V m c main_arg4)
    (V m c main_arg5) (V m c main_arg6) (V m c main_arg7) (V m c main_v71)
    (iblk m c 0 t) (iblk m c 1 t) (iblk m c 2 t) (iblk m c 3 t) (iblk m c 4 t) (iblk m c 5 t) (iblk m c 6 t)
    (iblk m c 7 t) (iblk m c 8 t) ⟨t.val, t_lt t⟩ (iblk0_eq m c t) (iblk1_eq m c t) (iblk2_eq m c t) (iblk3_eq m c t)
    (iblk4_eq m c t) (iblk5_eq m c t) (iblk6_eq m c t) (iblk7_eq m c t) (iblk8_eq m c t) j).trans ?_
  show table m c _ = table m c (((cfg0.win 9).blk t).view.emb j)
  refine congrArg (table m c) (funext fun a => Fin.ext ?_)
  match a with
  | ⟨0, _⟩ => show t.val * 5000 + (j 0).val = win0_9.index t (0 : Fin 2) * 5000 + 1 * (j 0).val; omega
  | ⟨1, _⟩ => show (j 1).val = win0_9.index t (1 : Fin 2) * 64 + 1 * (j 1).val; omega

/-- An index of the table is in point `t`'s block iff its row is one of rows 5000 t … 5000 t + 4999. -/
theorem mem_blk (t : Fin cfg0.N) (i : S150000x64.Idx) :
    i ∈ ((cfg0.win 9).blk t).view.set ↔ ∀ a : Fin 2, win0_9.index t a * S5000x64.size a ≤ (i a).val
      ∧ (i a).val < win0_9.index t a * S5000x64.size a + S5000x64.size a := by
  show i ∈ ((View.whole main_v72).slice (win0_9.rect t)).set ↔ _
  rw [View.set_slice_whole, Rect.mem_set_unit]
  exact Iff.rfl

/-- Every index of the table lies in the block of the point its row's quotient by 5000 names. -/
theorem cover (i : S150000x64.Idx) : ∃ t : Fin cfg0.N, (cfg0.win 9).flush t = true ∧ i ∈ ((cfg0.win 9).blk t).view.set := by
  have hi0 : (i 0).val < 150000 := (i 0).isLt
  have hi1 : (i 1).val < 64 := (i 1).isLt
  let t : Fin cfg0.N := ⟨(i 0).val / 5000, lt_of_lt_of_eq (by omega : (i 0).val / 5000 < 30) N_0.symm⟩
  obtain ⟨e0, e1, -⟩ := idx_facts t
  have ht : t.val = (i 0).val / 5000 := rfl
  refine ⟨t, flush0_9 t, ?_⟩
  rw [mem_blk]
  intro a
  match a with
  | ⟨0, _⟩ => show win0_9.index t (0 : Fin 2) * 5000 ≤ (i 0).val ∧ (i 0).val < win0_9.index t (0 : Fin 2) * 5000 + 5000; omega
  | ⟨1, _⟩ => show win0_9.index t (1 : Fin 2) * 64 ≤ (i 1).val ∧ (i 1).val < win0_9.index t (1 : Fin 2) * 64 + 64; omega

/-- THE OUTPUT ARRAY after the last point is the fused table of the arrays the region finds. -/
theorem final (c : Dev nD) : (dats m 0 c).arrAt 9 cfg0.N = table m c :=
  (dats m 0 c).arrAt_eq_of_cover 9 (table m c) (fun t _ => flushed_eq m c t) cover

end Cert.KernelIdeal.ArrayValue

end
-- ==== Proof.LibSoftmaxPair.lean ====
/-
  The softmax of two logits against the logistic function of their difference.

  For real `a`, `b` and any real shift `M` (the softmax subtracts the larger logit, but the identity
  does not care which real is subtracted):
    e^(a-M) / (e^(a-M) + e^(b-M)) = 1 / (1 + e^(-(a-b))),
    e^(b-M) / (e^(a-M) + e^(b-M)) = 1 - 1 / (1 + e^(-(a-b))).
  Both follow from e^(-(a-b)) = e^(b-M) / e^(a-M) and clearing the positive denominators.

  Over the extended reals the same two identities hold when `a`, `b`, `M` are real: the exponentials are
  then positive reals, their sum is a nonzero real, and the quotient by it is the product with its
  inverse. They FAIL at an infinite logit (at a = +∞ the left side of the first is 0 / 0 = 0 and the
  right side is 1), which is why the gates' finiteness is needed where these are used.
-/
import Mathlib.Analysis.SpecialFunctions.Exp
import Mathlib.Tactic.FieldSimp
import Mathlib.Tactic.Ring
import Idealize.ShloMosaic.PureOps.Ideal
import Idealize.ShloMosaic.PureOps.Ideal.Laws

namespace Cert.LibSoftmaxPair

open Idealize.ShloMosaic

theorem exp_neg_sub_eq_div (a b M : ℝ) : Real.exp (-(a - b)) = Real.exp (b - M) / Real.exp (a - M) := by
  rw [← Real.exp_sub]; congr 1; ring

/-- The softmax weight of the first of two logits is the logistic function of their difference. -/
theorem softmax_fst (a b M : ℝ) :
    Real.exp (a - M) / (Real.exp (a - M) + Real.exp (b - M)) = (1 + Real.exp (-(a - b)))⁻¹ := by
  have ha : 0 < Real.exp (a - M) := Real.exp_pos _
  have hb : 0 < Real.exp (b - M) := Real.exp_pos _
  rw [exp_neg_sub_eq_div a b M]
  field_simp

/-- The softmax weight of the second is the complement. -/
theorem softmax_snd (a b M : ℝ) :
    Real.exp (b - M) / (Real.exp (a - M) + Real.exp (b - M)) = 1 - (1 + Real.exp (-(a - b)))⁻¹ := by
  have ha : 0 < Real.exp (a - M) := Real.exp_pos _
  have hb : 0 < Real.exp (b - M) := Real.exp_pos _
  rw [exp_neg_sub_eq_div a b M]
  field_simp
  ring

/-- The word of one denotes the real one. -/
theorem ofBits_one : Ideal.ofBits .f32 0x3F800000#32 = (1 : EReal) := by
  simp [Ideal.ofBits, Ideal.ieee, -EReal.coe_mul]; norm_num

/-- The word of minus infinity denotes the bottom element. -/
theorem ofBits_negInf : Ideal.ofBits .f32 0xFF800000#32 = (⊥ : EReal) := by
  simp [Ideal.ofBits, Ideal.ieee]

/-- The first softmax weight of two real logits, over the extended reals. -/
theorem ereal_softmax_fst (a b M : ℝ) :
    Ideal.div (Ideal.exp ((a : EReal) - (M : EReal)))
        (Ideal.exp ((a : EReal) - (M : EReal)) + Ideal.exp ((b : EReal) - (M : EReal)))
      = Ideal.logistic ((a : EReal) - (b : EReal)) := by
  have hpos : Real.exp (a - M) + Real.exp (b - M) ≠ 0 := ne_of_gt (add_pos (Real.exp_pos _) (Real.exp_pos _))
  rw [← EReal.coe_sub, ← EReal.coe_sub, ← EReal.coe_sub, Ideal.exp_coe, Ideal.exp_coe, ← EReal.coe_add,
    Ideal.div_coe hpos, ← EReal.coe_mul, Ideal.logistic_coe, EReal.coe_eq_coe_iff, ← softmax_fst a b M]
  ring

/-- The second, as the complement of the first. -/
theorem ereal_softmax_snd (a b M : ℝ) :
    Ideal.div (Ideal.exp ((b : EReal) - (M : EReal)))
        (Ideal.exp ((a : EReal) - (M : EReal)) + Ideal.exp ((b : EReal) - (M : EReal)))
      = Ideal.ofBits .f32 0x3F800000#32 - Ideal.logistic ((a : EReal) - (b : EReal)) := by
  have hpos : Real.exp (a - M) + Real.exp (b - M) ≠ 0 := ne_of_gt (add_pos (Real.exp_pos _) (Real.exp_pos _))
  rw [ofBits_one, ← EReal.coe_sub, ← EReal.coe_sub, ← EReal.coe_sub, Ideal.exp_coe, Ideal.exp_coe, ← EReal.coe_add,
    Ideal.div_coe hpos, ← EReal.coe_mul, Ideal.logistic_coe, ← EReal.coe_one, ← EReal.coe_sub, EReal.coe_eq_coe_iff,
    ← softmax_snd a b M]
  ring

end Cert.LibSoftmaxPair
-- ==== Proof.GateReal.lean ====
/-
  A gate is a real number when the gate vector is.

  The hyperbolic tangent of any extended real is a real in [-1, 1] (it is -1 at -∞ and 1 at +∞), so each
  summand of a gate, tanh (…) · qwₖ, is a product of two reals, and the gate, a sum of 64 of them, is a
  real. Nothing is assumed of the row or of the layer's weights: they may be infinite.
-/
import proofs.«174919_j3401614098655_1_alg».proof.Proof.Spec

noncomputable section

namespace Cert.Fusion

open Idealize.ShloMosaic

/-- The hyperbolic tangent of an extended real is a real. -/
theorem tanh_real (x : EReal) : ∃ r : ℝ, Ideal.tanh x = (r : EReal) := by
  induction x using EReal.rec with
  | bot => exact ⟨-1, by rw [Ideal.tanh_bot]; simp⟩
  | coe r => exact ⟨Real.tanh r, rfl⟩
  | top => exact ⟨1, by rw [Ideal.tanh_top]; simp⟩

/-- The coercion of a finite sum of reals is the sum of the coercions. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A gate against a real gate vector is a real. -/
theorem gate_real (z : Row) (aw : Mat) (ab qw : Row) (hq : ∀ k, ∃ r : ℝ, qw k = (r : EReal)) :
    ∃ r : ℝ, gate z aw ab qw = (r : EReal) := by
  choose q hq using hq
  choose t ht using fun k => tanh_real ((∑ l, z l * aw l k) + ab k)
  refine ⟨∑ k, t k * q k, ?_⟩
  unfold gate
  rw [coe_sum]
  refine Finset.sum_congr rfl fun k _ => ?_
  rw [ht, hq, EReal.coe_mul]

end Cert.Fusion

end
-- ==== Proof.RefRow.lean ====
/-
  The reference's fused table, read at one entry.

  The reference computes the same two-layer perceptron and the same two gates as whole-table operations
  (a product of a 150000 x 64 table with a 64 x 64 matrix is, at entry (r, j), the sum over k of row r
  times column j), then takes the softmax of the two gates of each row: it subtracts the larger one,
  exponentiates, and divides by the sum of the two exponentials; the fused row is the first weight times
  the propagated row plus the second times the perceptron's row.
  With both gates real the larger one is real, the first weight is the logistic function of the gates'
  difference and the second its complement (the gate law), so entry (r, j) is the specification's fused
  row of rows r of the two tables, at j.
-/
import proofs.«174919_j3401614098655_1_alg».proof.Proof.RefReadP
import proofs.«174919_j3401614098655_1_alg».proof.Proof.Spec
import proofs.«174919_j3401614098655_1_alg».proof.Proof.LibSoftmaxPair
import proofs.«174919_j3401614098655_1_alg».proof.Proof.GateReal
import Idealize.ShloMosaic.PureOps.Reduce

set_option maxRecDepth 16384

noncomputable section

namespace Cert.ReferenceIdeal.RowValue

open Cert.ReferenceIdeal Cert.ReferenceIdeal.Gen Cert.ReferenceIdeal.ReadP Cert.Fusion Cert.LibSoftmaxPair
open Idealize.ShloMosaic Idealize.ShloMosaic.ValueIdx

variable (x0 x1 : (⟨S150000x64, .f32⟩ : BufTy).Contents (Elt Ideal)) (x2 : (⟨S64x64, .f32⟩ : BufTy).Contents (Elt Ideal)) (x3 : (⟨S64, .f32⟩ : BufTy).Contents (Elt Ideal))
  (x4 : (⟨S64x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal))
  (x8 : (⟨S64x1, .f32⟩ : BufTy).Contents (Elt Ideal)) (x9 : (⟨S2x4000000, .i32⟩ : BufTy).Contents (Elt Ideal))

/-! ## Where each whole-table operation reads its operands, at entry (r, k) -/

theorem lidx71 (r : Fin 150000) (k l : Fin 64) : lidx_main_v71 (ix2 r k) l = ix2 r l :=
  funext fun a => Fin.ext (by match a with | ⟨0, _⟩ => rfl | ⟨1, _⟩ => rfl)
theorem ridx71 (r : Fin 150000) (k l : Fin 64) : ridx_main_v71 (ix2 r k) l = ix2 l k :=
  funext fun a => Fin.ext (by match a with | ⟨0, _⟩ => rfl | ⟨1, _⟩ => rfl)
theorem lidx76 (r : Fin 150000) (k l : Fin 64) : lidx_main_v76 (ix2 r k) l = ix2 r l :=
  funext fun a => Fin.ext (by match a with | ⟨0, _⟩ => rfl | ⟨1, _⟩ => rfl)
theorem ridx76 (r : Fin 150000) (k l : Fin 64) : ridx_main_v76 (ix2 r k) l = ix2 l k :=
  funext fun a => Fin.ext (by match a with | ⟨0, _⟩ => rfl | ⟨1, _⟩ => rfl)
theorem lidx81 (r : Fin 150000) (k l : Fin 64) : lidx_main_v81 (ix2 r k) l = ix2 r l :=
  funext fun a => Fin.ext (by match a with | ⟨0, _⟩ => rfl | ⟨1, _⟩ => rfl)
theorem ridx81 (r : Fin 150000) (k l : Fin 64) : ridx_main_v81 (ix2 r k) l = ix2 l k :=
  funext fun a => Fin.ext (by match a with | ⟨0, _⟩ => rfl | ⟨1, _⟩ => rfl)
theorem lidx87 (r : Fin 150000) (k l : Fin 64) : lidx_main_v87 (ix2 r k) l = ix2 r l :=
  funext fun a => Fin.ext (by match a with | ⟨0, _⟩ => rfl | ⟨1, _⟩ => rfl)
theorem ridx87 (r : Fin 150000) (k l : Fin 64) : ridx_main_v87 (ix2 r k) l = ix2 l k :=
  funext fun a => Fin.ext (by match a with | ⟨0, _⟩ => rfl | ⟨1, _⟩ => rfl)
theorem lidx86 (r : Fin 150000) (u : Fin 1) (k : Fin 64) : lidx_main_v86 (ix2 r u) k = ix2 r k :=
  funext fun a => Fin.ext (by match a with | ⟨0, _⟩ => rfl | ⟨1, _⟩ => rfl)
theorem ridx86 (r : Fin 150000) (u : Fin 1) (k : Fin 64) : ridx_main_v86 (ix2 r u) k = ix2 k u :=
  funext fun a => Fin.ext (by match a with | ⟨0, _⟩ => rfl | ⟨1, _⟩ => rfl)
theorem lidx92 (r : Fin 150000) (u : Fin 1) (k : Fin 64) : lidx_main_v92 (ix2 r u) k = ix2 r k :=
  funext fun a => Fin.ext (by match a with | ⟨0, _⟩ => rfl | ⟨1, _⟩ => rfl)
theorem ridx92 (r : Fin 150000) (u : Fin 1) (k : Fin 64) : ridx_main_v92 (ix2 r u) k = ix2 k u :=
  funext fun a => Fin.ext (by match a with | ⟨0, _⟩ => rfl | ⟨1, _⟩ => rfl)
theorem bias73 (r : Fin 150000) (k : Fin 64) : idx_main_v72 (idx_main_v73 (ix2 r k)) = ix1 k :=
  funext fun a => Fin.ext (by match a with | ⟨0, _⟩ => rfl)
theorem bias78 (r : Fin 150000) (k : Fin 64) : idx_main_v77 (idx_main_v78 (ix2 r k)) = ix1 k :=
  funext fun a => Fin.ext (by match a with | ⟨0, _⟩ => rfl)
theorem bias83 (r : Fin 150000) (k : Fin 64) : idx_main_v82 (idx_main_v83 (ix2 r k)) = ix1 k :=
  funext fun a => Fin.ext (by match a with | ⟨0, _⟩ => rfl)
theorem bias89 (r : Fin 150000) (k : Fin 64) : idx_main_v88 (idx_main_v89 (ix2 r k)) = ix1 k :=
  funext fun a => Fin.ext (by match a with | ⟨0, _⟩ => rfl)

/-! ## The perceptron -/

/-- The first layer at entry (r, k). -/
theorem v75_row (r : Fin 150000) (k : Fin 64) :
    val_main_v75 (F := Ideal) x1 x2 x3 (ix2 r k) = layer (rowOf (n := 150000) x1 r) (matOf x2) (vecOf x3) k := by
  rw [val_main_v75_apply, val_main_v74_apply, val_main_v71_apply, val_main_v73_apply, val_main_v72_apply,
    val_main_call1_v0_apply, val_main_call1_cst_apply]
  simp only [lidx71, ridx71, bias73, Ideal.maximumf_def, Ideal.addf_def, Ideal.ofBits_def]
  rfl

/-- The second layer at entry (r, k): the perceptron of row r. -/
theorem v80_row (r : Fin 150000) (k : Fin 64) :
    val_main_v80 (F := Ideal) x1 x2 x3 x4 x5 (ix2 r k)
      = mlp (rowOf (n := 150000) x1 r) (matOf x2) (vecOf x3) (matOf x4) (vecOf x5) k := by
  rw [val_main_v80_apply, val_main_v79_apply, val_main_v76_apply, val_main_v78_apply, val_main_v77_apply,
    val_main_call2_v0_apply, val_main_call2_cst_apply]
  simp only [lidx76, ridx76, bias78, v75_row, Ideal.maximumf_def, Ideal.addf_def, Ideal.ofBits_def]
  rfl

/-! ## The two gates -/

/-- The gate vector of the reference is a 64 x 1 column; as a row of 64. -/
abbrev colOf (x : S64x1.Idx → EReal) (u : Fin 1) : Row := fun k => x (ix2 k u)

/-- The gate of the propagated table's row r. -/
theorem v86_row (r : Fin 150000) (u : Fin 1) :
    val_main_v86 (F := Ideal) x0 x6 x7 x8 x9 (ix2 r u)
      = gate (rowOf (n := 150000) (val_main_v70 (F := Ideal) x0 x9) r) (matOf x6) (vecOf x7) (colOf x8 u) := by
  rw [val_main_v86_apply]
  unfold gate
  refine Finset.sum_congr rfl fun k _ => ?_
  rw [lidx86, ridx86, val_main_v85_apply, val_main_v84_apply, val_main_v81_apply, val_main_v83_apply, val_main_v82_apply]
  simp only [lidx81, ridx81, bias83, Ideal.hostUnary_tanh_def, Ideal.addf_def]

/-- The gate of the perceptron's row r. -/
theorem v92_row (r : Fin 150000) (u : Fin 1) :
    val_main_v92 (F := Ideal) x1 x2 x3 x4 x5 x6 x7 x8 (ix2 r u)
      = gate (mlp (rowOf (n := 150000) x1 r) (matOf x2) (vecOf x3) (matOf x4) (vecOf x5)) (matOf x6) (vecOf x7) (colOf x8 u) := by
  rw [val_main_v92_apply]
  unfold gate
  refine Finset.sum_congr rfl fun k _ => ?_
  rw [lidx92, ridx92, val_main_v91_apply, val_main_v90_apply, val_main_v87_apply, val_main_v89_apply, val_main_v88_apply]
  simp only [lidx87, ridx87, bias89, v80_row, Ideal.hostUnary_tanh_def, Ideal.addf_def]

/-! ## The softmax of the two gates -/

/-- The two-column table of logits has the first gate in column 0 -/
theorem v93_fst (r : Fin 150000) :
    val_main_v93 (F := Ideal) x0 x1 x2 x3 x4 x5 x6 x7 x8 x9 (ix2 r (0 : Fin 2)) = val_main_v86 (F := Ideal) x0 x6 x7 x8 x9 (ix2 r (0 : Fin 1)) := by
  unfold val_main_v93
  exact concatenate_pair_apply_left (t := S150000x2) (s₁ := S150000x1) (s₂ := S150000x1) (1 : Fin 2) _ _
    concatenates_S150000x1_S150000x1_S150000x2_d1 (ix2 r (0 : Fin 2)) rfl
    (ix2 r (0 : Fin 1)) (fun b => by match b with | ⟨0, _⟩ => rfl | ⟨1, _⟩ => rfl)

/-- and the second in column 1. -/
theorem v93_snd (r : Fin 150000) :
    val_main_v93 (F := Ideal) x0 x1 x2 x3 x4 x5 x6 x7 x8 x9 (ix2 r (1 : Fin 2)) = val_main_v92 (F := Ideal) x1 x2 x3 x4 x5 x6 x7 x8 (ix2 r (0 : Fin 1)) := by
  unfold val_main_v93
  exact concatenate_pair_apply_right (t := S150000x2) (s₁ := S150000x1) (s₂ := S150000x1) (1 : Fin 2) _ _
    concatenates_S150000x1_S150000x1_S150000x2_d1 (ix2 r (1 : Fin 2)) rfl rfl
    (ix2 r (0 : Fin 1)) (fun b hb => by match b with | ⟨0, _⟩ => rfl | ⟨1, _⟩ => exact absurd rfl hb) rfl

/-- A fold over the two indices of `Fin 2`. -/
theorem fold_univ_fin2 {α : Type} (f : α → α → α) [Std.Commutative f] [Std.Associative f] (b : α) (g : Fin 2 → α) :
    (Finset.univ : Finset (Fin 2)).fold f b g = f (g 0) (f (g 1) b) := by
  have h : (Finset.univ : Finset (Fin 2)) = insert 0 {1} := by decide
  rw [h, Finset.fold_insert (by decide), Finset.fold_singleton]

/-- The reduced index `r` with column `k` put back is (r, k). -/
theorem lift_row (h : S150000x2.Reduces [1] S150000) (r : Fin 150000) (k : Fin (S150000x2.size 1)) :
    h.lift (ix1 r) k = ix2 r (⟨k.val, k.isLt⟩ : Fin 2) := by
  funext c; apply Fin.ext
  fin_cases c <;> rfl

/-- The larger of the two logits of row r, from the two logits. -/
theorem v96_row (r : Fin 150000) (a b : ℝ)
    (ha : val_main_v93 (F := Ideal) x0 x1 x2 x3 x4 x5 x6 x7 x8 x9 (ix2 r (0 : Fin 2)) = (a : EReal))
    (hb : val_main_v93 (F := Ideal) x0 x1 x2 x3 x4 x5 x6 x7 x8 x9 (ix2 r (1 : Fin 2)) = (b : EReal)) :
    val_main_v96 (F := Ideal) x0 x1 x2 x3 x4 x5 x6 x7 x8 x9 (ix1 r) = ((max a b : ℝ) : EReal) := by
  have hR : S150000x2.Reduces [1] S150000 := by decide
  rw [val_main_v96_apply, val_main_v95_apply, val_main_cst_17_apply]
  unfold val_main_v94
  rw [Host.reduce_eq_fold_single FloatOps.maximumf _ _ reducesTo_S150000x2_S150000_d1 hR h_S_]
  have e0 : hR.lift (ix1 r) (0 : Fin 2) = ix2 r (0 : Fin 2) := lift_row hR r (0 : Fin 2)
  have e1 : hR.lift (ix1 r) (1 : Fin 2) = ix2 r (1 : Fin 2) := lift_row hR r (1 : Fin 2)
  refine (congrArg (max (Ideal.ofBits .f32 0xFF800000#32))
    (fold_univ_fin2 max (Ideal.ofBits .f32 0xFF800000#32) (val_main_v93 (F := Ideal) x0 x1 x2 x3 x4 x5 x6 x7 x8 x9 ∘ hR.lift (ix1 r)))).trans ?_
  show max (Ideal.ofBits .f32 0xFF800000#32)
    (max (val_main_v93 (F := Ideal) x0 x1 x2 x3 x4 x5 x6 x7 x8 x9 (hR.lift (ix1 r) (0 : Fin 2)))
      (max (val_main_v93 (F := Ideal) x0 x1 x2 x3 x4 x5 x6 x7 x8 x9 (hR.lift (ix1 r) (1 : Fin 2))) (Ideal.ofBits .f32 0xFF800000#32))) = _
  rw [e0, e1, ha, hb, ofBits_negInf, max_bot_right, max_eq_right bot_le]
  exact (EReal.coe_strictMono.monotone.map_max).symm

theorem idx98 (r : Fin 150000) (k : Fin 2) : idx_main_v97 (idx_main_v98 (ix2 r k)) = ix1 r :=
  funext fun a => Fin.ext (by match a with | ⟨0, _⟩ => rfl)
theorem idx103 (r : Fin 150000) (k : Fin 2) : idx_main_v102 (idx_main_v103 (ix2 r k)) = ix1 r :=
  funext fun a => Fin.ext (by match a with | ⟨0, _⟩ => rfl)
theorem idx101 (r : Fin 150000) (k : Fin 2) : idx_main_v101 (ix1 r) k = ix2 r k :=
  funext fun a => Fin.ext (by match a with | ⟨0, _⟩ => rfl | ⟨1, _⟩ => rfl)
theorem idx106 (r : Fin 150000) (j : Fin 64) : idx_main_v105 (idx_main_v106 (ix2 r j)) = ix2 r (0 : Fin 2) :=
  funext fun a => Fin.ext (by match a with | ⟨0, _⟩ => rfl | ⟨1, _⟩ => rfl)
theorem idx109 (r : Fin 150000) (j : Fin 64) : idx_main_v108 (idx_main_v109 (ix2 r j)) = ix2 r (1 : Fin 2) :=
  funext fun a => Fin.ext (by match a with | ⟨0, _⟩ => rfl | ⟨1, _⟩ => rfl)

/-- An exponentiated, shifted logit of row r. -/
theorem v100_row (r : Fin 150000) (k : Fin 2) (a b : ℝ)
    (ha : val_main_v93 (F := Ideal) x0 x1 x2 x3 x4 x5 x6 x7 x8 x9 (ix2 r (0 : Fin 2)) = (a : EReal))
    (hb : val_main_v93 (F := Ideal) x0 x1 x2 x3 x4 x5 x6 x7 x8 x9 (ix2 r (1 : Fin 2)) = (b : EReal)) :
    val_main_v100 (F := Ideal) x0 x1 x2 x3 x4 x5 x6 x7 x8 x9 (ix2 r k)
      = Ideal.exp (val_main_v93 (F := Ideal) x0 x1 x2 x3 x4 x5 x6 x7 x8 x9 (ix2 r k) - ((max a b : ℝ) : EReal)) := by
  rw [val_main_v100_apply, val_main_v99_apply, val_main_v98_apply, val_main_v97_apply, idx98,
    v96_row x0 x1 x2 x3 x4 x5 x6 x7 x8 x9 r a b ha hb]
  rfl

/-- The two softmax weights of row r are the logistic function of the gates' difference and its complement. -/
theorem v104_row (r : Fin 150000) (a b : ℝ)
    (ha : val_main_v93 (F := Ideal) x0 x1 x2 x3 x4 x5 x6 x7 x8 x9 (ix2 r (0 : Fin 2)) = (a : EReal))
    (hb : val_main_v93 (F := Ideal) x0 x1 x2 x3 x4 x5 x6 x7 x8 x9 (ix2 r (1 : Fin 2)) = (b : EReal)) :
    val_main_v104 (F := Ideal) x0 x1 x2 x3 x4 x5 x6 x7 x8 x9 (ix2 r (0 : Fin 2)) = Ideal.logistic ((a : EReal) - (b : EReal))
    ∧ val_main_v104 (F := Ideal) x0 x1 x2 x3 x4 x5 x6 x7 x8 x9 (ix2 r (1 : Fin 2)) = one - Ideal.logistic ((a : EReal) - (b : EReal)) := by
  have hsum : val_main_v101 (F := Ideal) x0 x1 x2 x3 x4 x5 x6 x7 x8 x9 (ix1 r)
      = Ideal.exp ((a : EReal) - ((max a b : ℝ) : EReal)) + Ideal.exp ((b : EReal) - ((max a b : ℝ) : EReal)) := by
    rw [val_main_v101_apply, val_main_cst_18_apply, Fin.sum_univ_two, idx101, idx101,
      v100_row x0 x1 x2 x3 x4 x5 x6 x7 x8 x9 r 0 a b ha hb, v100_row x0 x1 x2 x3 x4 x5 x6 x7 x8 x9 r 1 a b ha hb, ha, hb]
    show Ideal.ofBits .f32 0x00000000#32 + _ = _
    rw [Ideal.ofBits_zero_f32, zero_add]
  constructor
  · rw [val_main_v104_apply, val_main_v103_apply, val_main_v102_apply, idx103, hsum, v100_row x0 x1 x2 x3 x4 x5 x6 x7 x8 x9 r 0 a b ha hb, ha]
    exact ereal_softmax_fst a b (max a b)
  · rw [val_main_v104_apply, val_main_v103_apply, val_main_v102_apply, idx103, hsum, v100_row x0 x1 x2 x3 x4 x5 x6 x7 x8 x9 r 1 a b ha hb, hb]
    exact ereal_softmax_snd a b (max a b)

/-! ## The fused table -/

/-- ENTRY (r, j) of the reference's fused table is entry j of the fused row of rows r of the second embedding table and
    of the propagated table, when every entry of the gate column is a real. -/
theorem v111_row (hq : ∀ i, ∃ q : ℝ, x8 i = (q : EReal)) (r : Fin 150000) (j : Fin 64) :
    val_main_v111 (F := Ideal) x0 x1 x2 x3 x4 x5 x6 x7 x8 x9 (ix2 r j)
      = fuse (rowOf (n := 150000) x1 r) (rowOf (n := 150000) (val_main_v70 (F := Ideal) x0 x9) r)
          (matOf x2) (vecOf x3) (matOf x4) (vecOf x5) (matOf x6) (vecOf x7) (colOf x8 0) j := by
  have hcol : ∀ k, ∃ q : ℝ, colOf x8 0 k = (q : EReal) := fun k => hq (ix2 k 0)
  obtain ⟨a, ha'⟩ := gate_real (rowOf (n := 150000) (val_main_v70 (F := Ideal) x0 x9) r) (matOf x6) (vecOf x7) (colOf x8 0) hcol
  obtain ⟨b, hb'⟩ := gate_real (mlp (rowOf (n := 150000) x1 r) (matOf x2) (vecOf x3) (matOf x4) (vecOf x5)) (matOf x6) (vecOf x7)
    (colOf x8 0) hcol
  have ha : val_main_v93 (F := Ideal) x0 x1 x2 x3 x4 x5 x6 x7 x8 x9 (ix2 r (0 : Fin 2)) = (a : EReal) :=
    (v93_fst x0 x1 x2 x3 x4 x5 x6 x7 x8 x9 r).trans ((v86_row x0 x6 x7 x8 x9 r 0).trans ha')
  have hb : val_main_v93 (F := Ideal) x0 x1 x2 x3 x4 x5 x6 x7 x8 x9 (ix2 r (1 : Fin 2)) = (b : EReal) :=
    (v93_snd x0 x1 x2 x3 x4 x5 x6 x7 x8 x9 r).trans ((v92_row x1 x2 x3 x4 x5 x6 x7 x8 r 0).trans hb')
  obtain ⟨w0, w1⟩ := v104_row x0 x1 x2 x3 x4 x5 x6 x7 x8 x9 r a b ha hb
  rw [val_main_v111_apply, val_main_v107_apply, val_main_v110_apply, val_main_v106_apply, val_main_v105_apply, idx106,
    val_main_v109_apply, val_main_v108_apply, idx109, w0, w1, v80_row]
  unfold fuse weight
  rw [ha', hb']
  rfl

/-- THE REFERENCE'S FUSED TABLE is the specification's, of the launch arguments and its own propagated table. -/
theorem v111_eq (hq : ∀ i, ∃ q : ℝ, x8 i = (q : EReal)) :
    val_main_v111 (F := Ideal) x0 x1 x2 x3 x4 x5 x6 x7 x8 x9
      = fused (n := 150000) x1 (val_main_v70 (F := Ideal) x0 x9) x2 x3 x4 x5 x6 x7 (fun i => x8 (ix2 (i 0) (0 : Fin 1))) := by
  funext i
  obtain ⟨r, j, rfl⟩ : ∃ (r : Fin 150000) (j : Fin 64), i = ix2 r j := ⟨i 0, i 1, eq_ix2 i⟩
  rw [v111_row x0 x1 x2 x3 x4 x5 x6 x7 x8 x9 hq r j]
  rfl

end Cert.ReferenceIdeal.RowValue

end
-- ==== Proof.KernelValue.lean ====
/-
  The kernel program's result.

  After the region the output array is the fused table of the arrays the region finds; those are the launch
  arguments, the propagated table, and the reshaped gate vector, so (the gate column being real) it is the
  reference's fused table of the launch contents. The operations after the region then compute from it what
  the reference's last operations compute from theirs: the program ends with its result buffer at the
  reference's last stage of the launch contents, and its arguments as launched.
-/
import proofs.«174919_j3401614098655_1_alg».proof.Proof.HostBridge
import proofs.«174919_j3401614098655_1_alg».proof.Proof.KernelArray
import proofs.«174919_j3401614098655_1_alg».proof.Proof.RefRow

set_option maxRecDepth 16384

noncomputable section

namespace Cert.KernelIdeal.HostValue

open Cert.KernelIdeal Cert.KernelIdeal.Gen Cert.KernelIdeal.Frm Cert.KernelIdeal.ArrayValue Cert.Fusion
open Idealize.ShloMosaic Idealize.ShloMosaic.TcCoe Idealize.ShloMosaic.ValueIdx Idealize.ShloMosaic.StableHlo
open Idealize.SL Idealize.SL.Sem

variable (m : (ℓ : Loc nD τ sig) → Buf (Elt Ideal) ℓ) (ρ : Dev nD → PrngReg)

/-- The fused table of what the region finds is the reference's fused table of the launch contents. -/
theorem table_eq (c : Dev nD) (hq : ∀ i, ∃ q : ℝ, (m ((c : Thread nD τ).loc main_arg8)) i = (q : EReal)) :
    table m c = Cert.ReferenceIdeal.ReadP.val_main_v111 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  have e8 : vecOf (V m c main_v71) = vecOf (fun i => (m ((c : Thread nD τ).loc main_arg8)) (ix2 (i 0) (0 : Fin 1))) :=
    funext fun k => V_v71_apply m c k
  rw [Cert.ReferenceIdeal.RowValue.v111_eq _ _ _ _ _ _ _ _ _ _ hq]
  unfold table fused
  rw [V_main_arg1, V_main_arg2, V_main_arg3, V_main_arg4, V_main_arg5, V_main_arg6, V_main_arg7, V_v70_eq, e8]

/-- The contents the operations after the region start from. -/
abbrev exitContents (c : Dev nD) : Valuation τ sig (Elt Ideal) :=
  Pipeline.withArrays spec0 c (V0 m c) fun w => (dats m 0 c).arrAt w cfg0.N

theorem exit_v72 (c : Dev nD) (hq : ∀ i, ∃ q : ℝ, (m ((c : Thread nD τ).loc main_arg8)) i = (q : EReal)) :
    exitContents m c (Proc.devRef .tc main_v72) = Cert.ReferenceIdeal.ReadP.val_main_v111 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  (Pipeline.withArrays_arr spec0 launch0.win.arr_inj c _ _ 9).trans ((final m c).trans (table_eq m c hq))

theorem exit_arg10 (c : Dev nD) : exitContents m c (Proc.devRef .tc main_arg10) = (m ((c : Thread nD τ).loc main_arg10)) :=
  (Pipeline.withArrays_of_ne spec0 c (V0 m c) _ main_arg10 (by exact (by decide : ∀ w, Pipeline.arrRef spec0 w ≠ main_arg10))).trans
    (V_main_arg10 m c)
theorem exit_arg11 (c : Dev nD) : exitContents m c (Proc.devRef .tc main_arg11) = (m ((c : Thread nD τ).loc main_arg11)) :=
  (Pipeline.withArrays_of_ne spec0 c (V0 m c) _ main_arg11 (by exact (by decide : ∀ w, Pipeline.arrRef spec0 w ≠ main_arg11))).trans
    (V_main_arg11 m c)
theorem exit_arg12 (c : Dev nD) : exitContents m c (Proc.devRef .tc main_arg12) = (m ((c : Thread nD τ).loc main_arg12)) :=
  (Pipeline.withArrays_of_ne spec0 c (V0 m c) _ main_arg12 (by exact (by decide : ∀ w, Pipeline.arrRef spec0 w ≠ main_arg12))).trans
    (V_main_arg12 m c)
theorem exit_arg13 (c : Dev nD) : exitContents m c (Proc.devRef .tc main_arg13) = (m ((c : Thread nD τ).loc main_arg13)) :=
  (Pipeline.withArrays_of_ne spec0 c (V0 m c) _ main_arg13 (by exact (by decide : ∀ w, Pipeline.arrRef spec0 w ≠ main_arg13))).trans
    (V_main_arg13 m c)

/-- THE RESULT BUFFER after the last operation is the reference's last stage of the launch contents. -/
theorem result_eq (c : Dev nD) (hq : ∀ i, ∃ q : ℝ, (m ((c : Thread nD τ).loc main_arg8)) i = (q : EReal)) :
    Pipeline.afterTail₀ cfgs (dats m) 0 (V0 m) [hostOps1] c main_v129
      = Cert.ReferenceIdeal.ReadP.val_main_v168 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  unfold Pipeline.afterTail₀
  show StableHlo.after hostOps1 (exitContents m c) (Proc.devRef .tc main_v129) = _
  exact tail_eq (exitContents m c) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (exit_v72 m c hq) (exit_arg10 m c) (exit_arg11 m c) (exit_arg12 m c) (exit_arg13 m c)

/-- THE RUN, read: every weakly fair execution terminates with the result at the reference's last stage of the launch
    contents and the fourteen arguments as launched, when the gate column's entries are real. -/
theorem run (hq : ∀ (c : Dev nD) i, ∃ q : ℝ, (m ((c : Thread nD τ).loc main_arg8)) i = (q : EReal)) :
    θ_run defs (onTc (τ := τ) (main (F := Ideal))) ⟨m, fun _ => 0, ρ⟩ (fun r => ∀ c : Dev nD,
      r.2.mem ((c.tc : Thread nD τ).loc main_v129) = Cert.ReferenceIdeal.ReadP.val_main_v168 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => ⟨((h c).2 main_v129 (Pipeline.mem_restRefs_of main_v129 (by decide) (by decide))).trans
        (result_eq m c (hq c)),
      ((h c).2 main_arg0 (Pipeline.mem_restRefs_of main_arg0 (by decide) (by decide))).trans (W_main_arg0 m (dats m) c),
      ((h c).1 0).trans (((dats m 0 c).arrAt_in 0 rfl _).trans ((A_eq m c 0).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c))),
      ((h c).1 7).trans (((dats m 0 c).arrAt_in 7 rfl _).trans ((A_eq m c 7).trans (V_main_arg7 m c))),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c),
      ((h c).2 main_arg11 (Pipeline.mem_restRefs_of main_arg11 (by decide) (by decide))).trans (W_main_arg11 m (dats m) c),
      ((h c).2 main_arg12 (Pipeline.mem_restRefs_of main_arg12 (by decide) (by decide))).trans (W_main_arg12 m (dats m) c),
      ((h c).2 main_arg13 (Pipeline.mem_restRefs_of main_arg13 (by decide) (by decide))).trans (W_main_arg13 m (dats m) c)⟩) (run_main m ρ)

end Cert.KernelIdeal.HostValue

end
-- ==== Proof.Finite.lean ====
/-
  The gate vector is finite.

  The precondition is the conjunction, word by word, of ten tests "every entry x of this float input has
  |x| < +∞". Of these only the ninth is used: the test of the 64 x 1 gate vector. If the whole conjunction
  is the word 1 then that test's reduction by `and` is 1, so every entry x of the gate vector has
  max x (-x) < ⊤ over the extended reals, which excludes both infinities: x is a real.
-/
import proofs.«174919_j3401614098655_1_alg».proof.Pre_finite_inputs
import Idealize.ShloMosaic.PureOps.Ideal
import Idealize.ShloMosaic.PureOps.Ideal.Laws
import Idealize.ShloMosaic.Lib.ReduceAll
import Idealize.ShloMosaic.Lib.Affine
import Idealize.ShloMosaic.Lib.ValueIdx

set_option maxRecDepth 16384

noncomputable section

namespace Cert.Pre_finite_inputs.Decode

open Cert.Pre_finite_inputs Idealize.ShloMosaic Idealize.ShloMosaic.ValueIdx

variable [hP : Cert.Pre_finite_inputs.Facts]

instance : Subsingleton S_.Idx := ⟨fun a b => funext fun d => d.elim0⟩

/-- An extended real whose absolute value (the larger of it and its negation) is below +∞ is a real. -/
theorem real_of_abs_lt_top (x : EReal) (h : max x (-x) < ⊤) : ∃ r : ℝ, x = (r : EReal) := by
  induction x using EReal.rec with
  | bot => exact absurd h (by simp)
  | coe r => exact ⟨r, rfl⟩
  | top => exact absurd h (by simp)

/-- The last part of the precondition being the word 1 makes every entry of the gate vector a real. -/
theorem part2_gate_real (a7 : FVec Ideal S64 .f32) (a8 : FVec Ideal S64x1 .f32) (a13 : FVec Ideal S65536 .f32)
    (v33 : IVec S_ 1) (h : fn_part2 (F := Ideal) a7 a8 a13 v33 = fun _ => 1#1) (i : S64x1.Idx) :
    ∃ r : ℝ, a8 i = (r : EReal) := by
  have h0 := congrFun h (fun d => Fin.elim0 d : S_.Idx)
  unfold fn_part2 at h0
  dsimp only at h0
  obtain ⟨h43, -⟩ := IntOp.andi_eq_one.mp h0
  obtain ⟨-, h42⟩ := IntOp.andi_eq_one.mp h43
  have he := Host.reduce_andi_all _ _ _ _ _ h42 i
  have hc : Ideal.cmp .olt (max (a8 i) (-(a8 i))) (Ideal.ofBits .f32 0x7F800000#32) = 1#1 := he
  have htop : Ideal.ofBits .f32 0x7F800000#32 = (⊤ : EReal) := by simp [Ideal.ofBits, Ideal.ieee]
  have hlt : max (a8 i) (-(a8 i)) < (⊤ : EReal) := by
    rw [htop] at hc
    by_contra hn
    have : Ideal.cmp .olt (max (a8 i) (-(a8 i))) (⊤ : EReal) = 0#1 := by
      unfold Ideal.cmp
      dsimp only
      rw [decide_eq_false hn]
      rfl
    rw [this] at hc
    exact absurd hc (by decide)
  exact real_of_abs_lt_top _ hlt

/-- The whole precondition being all ones makes every entry of the gate vector (the ninth argument) a real: the
    precondition's value is its last part's, at some value of the conjunction so far. -/
theorem gate_real_of_pre (a0 a1 : FVec Ideal S150000x64 .f32) (a2 : FVec Ideal S64x64 .f32) (a3 : FVec Ideal S64 .f32)
    (a4 : FVec Ideal S64x64 .f32) (a5 : FVec Ideal S64 .f32) (a6 : FVec Ideal S64x64 .f32) (a7 : FVec Ideal S64 .f32)
    (a8 : FVec Ideal S64x1 .f32) (a9 : IVec S2x4000000 32) (a10 a11 a12 : IVec S65536 32) (a13 : FVec Ideal S65536 .f32)
    (h : fn (F := Ideal) a0 a1 a2 a3 a4 a5 a6 a7 a8 a9 a10 a11 a12 a13 = fun _ => 1#1) (i : S64x1.Idx) :
    ∃ r : ℝ, a8 i = (r : EReal) := by
  unfold fn fn_part1 at h
  exact part2_gate_real a7 a8 a13 _ h i

end Cert.Pre_finite_inputs.Decode

end
-- ==== Proof.lean ====
/-
  A graph-recommender's fused embedding and loss: the row-blocked kernel against the whole-table reference.

  Both programs propagate the first embedding table over the graph (three rounds of normalized
  gather-and-scatter-add, averaged with the table itself), pass each row of the second table through a
  two-layer perceptron, give each of the two resulting rows a scalar gate, blend the two rows by the gates,
  and reduce the blended table to one loss value through three row gathers. They differ in one place: the
  kernel blends with weight logistic (gate₁ - gate₂) and its complement, the reference with the softmax of
  the two gates. These agree whenever both gates are real numbers, and they are: a gate is a sum of
  hyperbolic tangents, each in [-1, 1], times entries of the gate vector, which the precondition makes
  finite. Every other difference (the kernel works on blocks of 5000 rows, rounds its matrix products'
  operands to a shorter format, sums a gate over lanes where the reference multiplies by a column) vanishes
  over the extended reals.

  The claim's five parts:
  * the three frames: each program runs to the end, faults nowhere and leaves its arguments as launched
    (the two kernel programs through the launch theorem for one region between host operations; the
    reference as a straight line of host operations);
  * the idealized kernel is the kernel's own text read over the extended reals: nothing was rewritten;
  * from memories that agree on the arguments both idealized programs end with the same loss: the
    reference's last stage of the launch contents.
-/
import proofs.«174919_j3401614098655_1_alg».proof.Defs
import proofs.«174919_j3401614098655_1_alg».proof.Proof.Gen.Kernel
import proofs.«174919_j3401614098655_1_alg».proof.Proof.Gen.KernelIdeal
import proofs.«174919_j3401614098655_1_alg».proof.Proof.Gen.ReferenceIdeal
import proofs.«174919_j3401614098655_1_alg».proof.Proof.Gen.Pre_finite_inputs
import proofs.«174919_j3401614098655_1_alg».proof.Proof.FrameRunK
import proofs.«174919_j3401614098655_1_alg».proof.Proof.KernelValue
import proofs.«174919_j3401614098655_1_alg».proof.Proof.Finite
import Idealize.ShloMosaic.Adequacy
import Idealize.ShloMosaic.Init

set_option maxRecDepth 16384

noncomputable section

namespace Cert.Proof

open Idealize.ShloMosaic Idealize.ShloMosaic.TcCoe Idealize.SL.Sem

/-- The kernel as printed runs and keeps its arguments. -/
theorem frame_kernel : Cert.frame_Kernel := fun m ρ _ => Cert.Kernel.Frm.frame m ρ

/-- So does its reading over the extended reals. -/
theorem frame_kernelIdeal : Cert.frame_KernelIdeal := fun m ρ _ => Cert.KernelIdeal.Frm.frame m ρ

/-- The reference is a straight line of host operations: its run, with the result forgotten. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- Both idealized programs end at the reference's last stage of the launch contents. -/
theorem algebraic : Cert.algebraic_KernelIdeal_ReferenceIdeal := by
  intro m ρ m' ρ' hpre hagree
  have hq : ∀ (c : Dev Cert.KernelIdeal.nD) i, ∃ q : ℝ,
      m ((c.tc : Thread Cert.KernelIdeal.nD Cert.KernelIdeal.τ).loc Cert.KernelIdeal.main_arg8) i = (q : EReal) :=
    fun c i => Cert.Pre_finite_inputs.Decode.gate_real_of_pre _ _ _ _ _ _ _ _ _ _ _ _ _ _ (hpre c) i
  refine ⟨_, Cert.KernelIdeal.HostValue.run m ρ hq, ?_⟩
  refine (θ_run Cert.ReferenceIdeal.defs _ _).mono (fun _ h c => ⟨(h c).1.trans ?_, (h c).2⟩)
    (Cert.ReferenceIdeal.ValueP.run (F := Ideal) m' ρ')
  obtain ⟨e0, e1, e2, e3, e4, e5, e6, e7, e8, e9, e10, e11, e12, e13⟩ := hagree c
  rw [Cert.ReferenceIdeal.ReadP.val_main_v168_eq, e0, e1, e2, e3, e4, e5, e6, e7, e8, e9, e10, e11, e12, e13]

theorem claim : Cert.Claim := ⟨Cert.Kernel.Gen.facts, Cert.KernelIdeal.Gen.facts, Cert.ReferenceIdeal.Gen.facts,
  Cert.Pre_finite_inputs.Gen.facts, frame_kernel, frame_kernelIdeal, frame_referenceIdeal, preserves, algebraic⟩

end Cert.Proof

end
